-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel

variable [Facts]

def fn {F : FTy → Type} [FloatOps F] (main_arg0 : FVec F S1000000x32 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  main_v3
-- ==== Kernel.lean ====
abbrev S1000000x32 : Shape := ⟨2, ![1000000, 32]⟩
abbrev S32x1000000 : Shape := ⟨2, ![32, 1000000]⟩
abbrev S32x1536 : Shape := ⟨2, ![32, 1536]⟩
abbrev S32x64 : Shape := ⟨2, ![32, 64]⟩
abbrev S_ : Shape := ⟨0, ![]⟩

abbrev nBuf : Table → Nat
  | .hbm => 4
  | .local .scVector .vmem => 3
  | _ => 0

abbrev bufTy : (tb : Table) → Fin (nBuf tb) → BufTy
  | .hbm, ⟨0, _⟩ => ⟨S1000000x32, .f32⟩
  | .hbm, ⟨1, _⟩ => ⟨S32x1000000, .f32⟩
  | .hbm, ⟨2, _⟩ => ⟨S32x1000000, .f32⟩
  | .hbm, ⟨3, _⟩ => ⟨S1000000x32, .f32⟩
  | .local .scVector .vmem, ⟨0, _⟩ => ⟨S32x1536, .f32⟩
  | .local .scVector .vmem, ⟨1, _⟩ => ⟨S32x1536, .f32⟩
  | .local .scVector .vmem, ⟨2, _⟩ => ⟨S32x64, .f32⟩
  | _, _ => ⟨S1000000x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_4 : BitVec 32 := 0#32
  let v20 : BitVec 32 := Scalar.addi v19 c0_i32_4
  let c1536_i32 : BitVec 32 := 1536#32
  let v21 : BitVec 32 := Scalar.muli v20 c1536_i32
  v21
def k0_off1 (i : grid0.Coords) (c0_i32_4 : BitVec 32) : Fin 2 → Nat :=
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let v20 : BitVec 32 := Scalar.addi v19 c0_i32_4
  let c1536_i32 : BitVec 32 := 1536#32
  let v21 : BitVec 32 := Scalar.muli v20 c1536_i32
  let v22 : BitVec 32 := v21
  ![0, v22.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_7 : BitVec 32 := 0#32
  let v25 : BitVec 32 := Scalar.addi v19 c0_i32_7
  let c1536_i32_8 : BitVec 32 := 1536#32
  let v26 : BitVec 32 := Scalar.muli v25 c1536_i32_8
  v26
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c1_i32_11 : BitVec 32 := 1#32
  let v30 : BitVec 32 := Scalar.addi v19 c1_i32_11
  let c1536_i32_12 : BitVec 32 := 1536#32
  let v31 : BitVec 32 := Scalar.muli v30 c1536_i32_12
  v31
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_15 : BitVec 32 := 0#32
  let v35 : BitVec 32 := Scalar.addi v19 c0_i32_15
  let c1536_i32_16 : BitVec 32 := 1536#32
  let v36 : BitVec 32 := Scalar.muli v35 c1536_i32_16
  v36
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c1_i32_19 : BitVec 32 := 1#32
  let v40 : BitVec 32 := Scalar.addi v19 c1_i32_19
  let c1536_i32_20 : BitVec 32 := 1536#32
  let v41 : BitVec 32 := Scalar.muli v40 c1536_i32_20
  v41
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_23 : BitVec 32 := 0#32
  let v45 : BitVec 32 := Scalar.addi v19 c0_i32_23
  let c1536_i32_24 : BitVec 32 := 1536#32
  let v46 : BitVec 32 := Scalar.muli v45 c1536_i32_24
  v46
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c2_i32_27 : BitVec 32 := 2#32
  let v50 : BitVec 32 := Scalar.addi v19 c2_i32_27
  let c1536_i32_28 : BitVec 32 := 1536#32
  let v51 : BitVec 32 := Scalar.muli v50 c1536_i32_28
  v51
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c1_i32_31 : BitVec 32 := 1#32
  let v55 : BitVec 32 := Scalar.addi v19 c1_i32_31
  let c1536_i32_32 : BitVec 32 := 1536#32
  let v56 : BitVec 32 := Scalar.muli v55 c1536_i32_32
  v56
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c2_i32_35 : BitVec 32 := 2#32
  let v60 : BitVec 32 := Scalar.addi v19 c2_i32_35
  let c1536_i32_36 : BitVec 32 := 1536#32
  let v61 : BitVec 32 := Scalar.muli v60 c1536_i32_36
  v61
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c1_i32_39 : BitVec 32 := 1#32
  let v65 : BitVec 32 := Scalar.addi v19 c1_i32_39
  let c1536_i32_40 : BitVec 32 := 1536#32
  let v66 : BitVec 32 := Scalar.muli v65 c1536_i32_40
  v66
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c3_i32 : BitVec 32 := 3#32
  let v70 : BitVec 32 := Scalar.addi v19 c3_i32
  let c1536_i32_43 : BitVec 32 := 1536#32
  let v71 : BitVec 32 := Scalar.muli v70 c1536_i32_43
  v71
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c2_i32_46 : BitVec 32 := 2#32
  let v75 : BitVec 32 := Scalar.addi v19 c2_i32_46
  let c1536_i32_47 : BitVec 32 := 1536#32
  let v76 : BitVec 32 := Scalar.muli v75 c1536_i32_47
  v76
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c3_i32_50 : BitVec 32 := 3#32
  let v80 : BitVec 32 := Scalar.addi v19 c3_i32_50
  let c1536_i32_51 : BitVec 32 := 1536#32
  let v81 : BitVec 32 := Scalar.muli v80 c1536_i32_51
  v81
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c2_i32_54 : BitVec 32 := 2#32
  let v85 : BitVec 32 := Scalar.addi v19 c2_i32_54
  let c1536_i32_55 : BitVec 32 := 1536#32
  let v86 : BitVec 32 := Scalar.muli v85 c1536_i32_55
  v86
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c4_i32 : BitVec 32 := 4#32
  let v90 : BitVec 32 := Scalar.addi v19 c4_i32
  let c1536_i32_58 : BitVec 32 := 1536#32
  let v91 : BitVec 32 := Scalar.muli v90 c1536_i32_58
  v91
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c3_i32_61 : BitVec 32 := 3#32
  let v95 : BitVec 32 := Scalar.addi v19 c3_i32_61
  let c1536_i32_62 : BitVec 32 := 1536#32
  let v96 : BitVec 32 := Scalar.muli v95 c1536_i32_62
  v96
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c4_i32_65 : BitVec 32 := 4#32
  let v100 : BitVec 32 := Scalar.addi v19 c4_i32_65
  let c1536_i32_66 : BitVec 32 := 1536#32
  let v101 : BitVec 32 := Scalar.muli v100 c1536_i32_66
  v101
def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c3_i32_69 : BitVec 32 := 3#32
  let v105 : BitVec 32 := Scalar.addi v19 c3_i32_69
  let c1536_i32_70 : BitVec 32 := 1536#32
  let v106 : BitVec 32 := Scalar.muli v105 c1536_i32_70
  v106
def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c5_i32 : BitVec 32 := 5#32
  let v110 : BitVec 32 := Scalar.addi v19 c5_i32
  let c1536_i32_73 : BitVec 32 := 1536#32
  let v111 : BitVec 32 := Scalar.muli v110 c1536_i32_73
  v111
def k0_mult20 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c4_i32_76 : BitVec 32 := 4#32
  let v115 : BitVec 32 := Scalar.addi v19 c4_i32_76
  let c1536_i32_77 : BitVec 32 := 1536#32
  let v116 : BitVec 32 := Scalar.muli v115 c1536_i32_77
  v116
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c5_i32_80 : BitVec 32 := 5#32
  let v120 : BitVec 32 := Scalar.addi v19 c5_i32_80
  let c1536_i32_81 : BitVec 32 := 1536#32
  let v121 : BitVec 32 := Scalar.muli v120 c1536_i32_81
  v121
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c4_i32_84 : BitVec 32 := 4#32
  let v125 : BitVec 32 := Scalar.addi v19 c4_i32_84
  let c1536_i32_85 : BitVec 32 := 1536#32
  let v126 : BitVec 32 := Scalar.muli v125 c1536_i32_85
  v126
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c6_i32 : BitVec 32 := 6#32
  let v130 : BitVec 32 := Scalar.addi v19 c6_i32
  let c1536_i32_88 : BitVec 32 := 1536#32
  let v131 : BitVec 32 := Scalar.muli v130 c1536_i32_88
  v131
def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c5_i32_91 : BitVec 32 := 5#32
  let v135 : BitVec 32 := Scalar.addi v19 c5_i32_91
  let c1536_i32_92 : BitVec 32 := 1536#32
  let v136 : BitVec 32 := Scalar.muli v135 c1536_i32_92
  v136
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c6_i32_95 : BitVec 32 := 6#32
  let v140 : BitVec 32 := Scalar.addi v19 c6_i32_95
  let c1536_i32_96 : BitVec 32 := 1536#32
  let v141 : BitVec 32 := Scalar.muli v140 c1536_i32_96
  v141
def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c5_i32_99 : BitVec 32 := 5#32
  let v145 : BitVec 32 := Scalar.addi v19 c5_i32_99
  let c1536_i32_100 : BitVec 32 := 1536#32
  let v146 : BitVec 32 := Scalar.muli v145 c1536_i32_100
  v146
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c7_i32 : BitVec 32 := 7#32
  let v150 : BitVec 32 := Scalar.addi v19 c7_i32
  let c1536_i32_103 : BitVec 32 := 1536#32
  let v151 : BitVec 32 := Scalar.muli v150 c1536_i32_103
  v151
def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c6_i32_106 : BitVec 32 := 6#32
  let v155 : BitVec 32 := Scalar.addi v19 c6_i32_106
  let c1536_i32_107 : BitVec 32 := 1536#32
  let v156 : BitVec 32 := Scalar.muli v155 c1536_i32_107
  v156
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c7_i32_110 : BitVec 32 := 7#32
  let v160 : BitVec 32 := Scalar.addi v19 c7_i32_110
  let c1536_i32_111 : BitVec 32 := 1536#32
  let v161 : BitVec 32 := Scalar.muli v160 c1536_i32_111
  v161
def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c6_i32_114 : BitVec 32 := 6#32
  let v165 : BitVec 32 := Scalar.addi v19 c6_i32_114
  let c1536_i32_115 : BitVec 32 := 1536#32
  let v166 : BitVec 32 := Scalar.muli v165 c1536_i32_115
  v166
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c8_i32 : BitVec 32 := 8#32
  let v170 : BitVec 32 := Scalar.addi v19 c8_i32
  let c1536_i32_118 : BitVec 32 := 1536#32
  let v171 : BitVec 32 := Scalar.muli v170 c1536_i32_118
  v171
def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c7_i32_121 : BitVec 32 := 7#32
  let v175 : BitVec 32 := Scalar.addi v19 c7_i32_121
  let c1536_i32_122 : BitVec 32 := 1536#32
  let v176 : BitVec 32 := Scalar.muli v175 c1536_i32_122
  v176
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c8_i32_125 : BitVec 32 := 8#32
  let v180 : BitVec 32 := Scalar.addi v19 c8_i32_125
  let c1536_i32_126 : BitVec 32 := 1536#32
  let v181 : BitVec 32 := Scalar.muli v180 c1536_i32_126
  v181
def k0_mult34 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c7_i32_129 : BitVec 32 := 7#32
  let v185 : BitVec 32 := Scalar.addi v19 c7_i32_129
  let c1536_i32_130 : BitVec 32 := 1536#32
  let v186 : BitVec 32 := Scalar.muli v185 c1536_i32_130
  v186
def k0_mult35 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c9_i32 : BitVec 32 := 9#32
  let v190 : BitVec 32 := Scalar.addi v19 c9_i32
  let c1536_i32_133 : BitVec 32 := 1536#32
  let v191 : BitVec 32 := Scalar.muli v190 c1536_i32_133
  v191
def k0_mult36 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c8_i32_136 : BitVec 32 := 8#32
  let v195 : BitVec 32 := Scalar.addi v19 c8_i32_136
  let c1536_i32_137 : BitVec 32 := 1536#32
  let v196 : BitVec 32 := Scalar.muli v195 c1536_i32_137
  v196
def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c9_i32_140 : BitVec 32 := 9#32
  let v200 : BitVec 32 := Scalar.addi v19 c9_i32_140
  let c1536_i32_141 : BitVec 32 := 1536#32
  let v201 : BitVec 32 := Scalar.muli v200 c1536_i32_141
  v201
def k0_mult38 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c8_i32_144 : BitVec 32 := 8#32
  let v205 : BitVec 32 := Scalar.addi v19 c8_i32_144
  let c1536_i32_145 : BitVec 32 := 1536#32
  let v206 : BitVec 32 := Scalar.muli v205 c1536_i32_145
  v206
def k0_mult39 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c10_i32 : BitVec 32 := 10#32
  let v210 : BitVec 32 := Scalar.addi v19 c10_i32
  let c1536_i32_148 : BitVec 32 := 1536#32
  let v211 : BitVec 32 := Scalar.muli v210 c1536_i32_148
  v211
def k0_mult40 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c9_i32_151 : BitVec 32 := 9#32
  let v215 : BitVec 32 := Scalar.addi v19 c9_i32_151
  let c1536_i32_152 : BitVec 32 := 1536#32
  let v216 : BitVec 32 := Scalar.muli v215 c1536_i32_152
  v216
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c10_i32_155 : BitVec 32 := 10#32
  let v220 : BitVec 32 := Scalar.addi v19 c10_i32_155
  let c1536_i32_156 : BitVec 32 := 1536#32
  let v221 : BitVec 32 := Scalar.muli v220 c1536_i32_156
  v221
def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c9_i32_159 : BitVec 32 := 9#32
  let v225 : BitVec 32 := Scalar.addi v19 c9_i32_159
  let c1536_i32_160 : BitVec 32 := 1536#32
  let v226 : BitVec 32 := Scalar.muli v225 c1536_i32_160
  v226
def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c11_i32 : BitVec 32 := 11#32
  let v230 : BitVec 32 := Scalar.addi v19 c11_i32
  let c1536_i32_163 : BitVec 32 := 1536#32
  let v231 : BitVec 32 := Scalar.muli v230 c1536_i32_163
  v231
def k0_mult44 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c10_i32_166 : BitVec 32 := 10#32
  let v235 : BitVec 32 := Scalar.addi v19 c10_i32_166
  let c1536_i32_167 : BitVec 32 := 1536#32
  let v236 : BitVec 32 := Scalar.muli v235 c1536_i32_167
  v236
def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c11_i32_170 : BitVec 32 := 11#32
  let v240 : BitVec 32 := Scalar.addi v19 c11_i32_170
  let c1536_i32_171 : BitVec 32 := 1536#32
  let v241 : BitVec 32 := Scalar.muli v240 c1536_i32_171
  v241
def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c10_i32_174 : BitVec 32 := 10#32
  let v245 : BitVec 32 := Scalar.addi v19 c10_i32_174
  let c1536_i32_175 : BitVec 32 := 1536#32
  let v246 : BitVec 32 := Scalar.muli v245 c1536_i32_175
  v246
def k0_mult47 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c12_i32 : BitVec 32 := 12#32
  let v250 : BitVec 32 := Scalar.addi v19 c12_i32
  let c1536_i32_178 : BitVec 32 := 1536#32
  let v251 : BitVec 32 := Scalar.muli v250 c1536_i32_178
  v251
def k0_mult48 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c11_i32_181 : BitVec 32 := 11#32
  let v255 : BitVec 32 := Scalar.addi v19 c11_i32_181
  let c1536_i32_182 : BitVec 32 := 1536#32
  let v256 : BitVec 32 := Scalar.muli v255 c1536_i32_182
  v256
def k0_mult49 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c12_i32_185 : BitVec 32 := 12#32
  let v260 : BitVec 32 := Scalar.addi v19 c12_i32_185
  let c1536_i32_186 : BitVec 32 := 1536#32
  let v261 : BitVec 32 := Scalar.muli v260 c1536_i32_186
  v261
def k0_mult50 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c11_i32_189 : BitVec 32 := 11#32
  let v265 : BitVec 32 := Scalar.addi v19 c11_i32_189
  let c1536_i32_190 : BitVec 32 := 1536#32
  let v266 : BitVec 32 := Scalar.muli v265 c1536_i32_190
  v266
def k0_mult51 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c13_i32 : BitVec 32 := 13#32
  let v270 : BitVec 32 := Scalar.addi v19 c13_i32
  let c1536_i32_193 : BitVec 32 := 1536#32
  let v271 : BitVec 32 := Scalar.muli v270 c1536_i32_193
  v271
def k0_mult52 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c12_i32_196 : BitVec 32 := 12#32
  let v275 : BitVec 32 := Scalar.addi v19 c12_i32_196
  let c1536_i32_197 : BitVec 32 := 1536#32
  let v276 : BitVec 32 := Scalar.muli v275 c1536_i32_197
  v276
def k0_mult53 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c13_i32_200 : BitVec 32 := 13#32
  let v280 : BitVec 32 := Scalar.addi v19 c13_i32_200
  let c1536_i32_201 : BitVec 32 := 1536#32
  let v281 : BitVec 32 := Scalar.muli v280 c1536_i32_201
  v281
def k0_mult54 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c12_i32_204 : BitVec 32 := 12#32
  let v285 : BitVec 32 := Scalar.addi v19 c12_i32_204
  let c1536_i32_205 : BitVec 32 := 1536#32
  let v286 : BitVec 32 := Scalar.muli v285 c1536_i32_205
  v286
def k0_mult55 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c14_i32 : BitVec 32 := 14#32
  let v290 : BitVec 32 := Scalar.addi v19 c14_i32
  let c1536_i32_208 : BitVec 32 := 1536#32
  let v291 : BitVec 32 := Scalar.muli v290 c1536_i32_208
  v291
def k0_mult56 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c13_i32_211 : BitVec 32 := 13#32
  let v295 : BitVec 32 := Scalar.addi v19 c13_i32_211
  let c1536_i32_212 : BitVec 32 := 1536#32
  let v296 : BitVec 32 := Scalar.muli v295 c1536_i32_212
  v296
def k0_mult57 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c14_i32_215 : BitVec 32 := 14#32
  let v300 : BitVec 32 := Scalar.addi v19 c14_i32_215
  let c1536_i32_216 : BitVec 32 := 1536#32
  let v301 : BitVec 32 := Scalar.muli v300 c1536_i32_216
  v301
def k0_mult58 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c13_i32_219 : BitVec 32 := 13#32
  let v305 : BitVec 32 := Scalar.addi v19 c13_i32_219
  let c1536_i32_220 : BitVec 32 := 1536#32
  let v306 : BitVec 32 := Scalar.muli v305 c1536_i32_220
  v306
def k0_mult59 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c15_i32 : BitVec 32 := 15#32
  let v310 : BitVec 32 := Scalar.addi v19 c15_i32
  let c1536_i32_223 : BitVec 32 := 1536#32
  let v311 : BitVec 32 := Scalar.muli v310 c1536_i32_223
  v311
def k0_mult60 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c14_i32_226 : BitVec 32 := 14#32
  let v315 : BitVec 32 := Scalar.addi v19 c14_i32_226
  let c1536_i32_227 : BitVec 32 := 1536#32
  let v316 : BitVec 32 := Scalar.muli v315 c1536_i32_227
  v316
def k0_mult61 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c15_i32_230 : BitVec 32 := 15#32
  let v320 : BitVec 32 := Scalar.addi v19 c15_i32_230
  let c1536_i32_231 : BitVec 32 := 1536#32
  let v321 : BitVec 32 := Scalar.muli v320 c1536_i32_231
  v321
def k0_mult62 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c14_i32_234 : BitVec 32 := 14#32
  let v325 : BitVec 32 := Scalar.addi v19 c14_i32_234
  let c1536_i32_235 : BitVec 32 := 1536#32
  let v326 : BitVec 32 := Scalar.muli v325 c1536_i32_235
  v326
def k0_mult63 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c16_i32 : BitVec 32 := 16#32
  let v330 : BitVec 32 := Scalar.addi v19 c16_i32
  let c1536_i32_238 : BitVec 32 := 1536#32
  let v331 : BitVec 32 := Scalar.muli v330 c1536_i32_238
  v331
def k0_mult64 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c15_i32_241 : BitVec 32 := 15#32
  let v335 : BitVec 32 := Scalar.addi v19 c15_i32_241
  let c1536_i32_242 : BitVec 32 := 1536#32
  let v336 : BitVec 32 := Scalar.muli v335 c1536_i32_242
  v336
def k0_mult65 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c16_i32_245 : BitVec 32 := 16#32
  let v340 : BitVec 32 := Scalar.addi v19 c16_i32_245
  let c1536_i32_246 : BitVec 32 := 1536#32
  let v341 : BitVec 32 := Scalar.muli v340 c1536_i32_246
  v341
def k0_mult66 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c15_i32_249 : BitVec 32 := 15#32
  let v345 : BitVec 32 := Scalar.addi v19 c15_i32_249
  let c1536_i32_250 : BitVec 32 := 1536#32
  let v346 : BitVec 32 := Scalar.muli v345 c1536_i32_250
  v346
def k0_mult67 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c17_i32 : BitVec 32 := 17#32
  let v350 : BitVec 32 := Scalar.addi v19 c17_i32
  let c1536_i32_253 : BitVec 32 := 1536#32
  let v351 : BitVec 32 := Scalar.muli v350 c1536_i32_253
  v351
def k0_mult68 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c16_i32_256 : BitVec 32 := 16#32
  let v355 : BitVec 32 := Scalar.addi v19 c16_i32_256
  let c1536_i32_257 : BitVec 32 := 1536#32
  let v356 : BitVec 32 := Scalar.muli v355 c1536_i32_257
  v356
def k0_mult69 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c17_i32_260 : BitVec 32 := 17#32
  let v360 : BitVec 32 := Scalar.addi v19 c17_i32_260
  let c1536_i32_261 : BitVec 32 := 1536#32
  let v361 : BitVec 32 := Scalar.muli v360 c1536_i32_261
  v361
def k0_mult70 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c16_i32_264 : BitVec 32 := 16#32
  let v365 : BitVec 32 := Scalar.addi v19 c16_i32_264
  let c1536_i32_265 : BitVec 32 := 1536#32
  let v366 : BitVec 32 := Scalar.muli v365 c1536_i32_265
  v366
def k0_mult71 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c18_i32 : BitVec 32 := 18#32
  let v370 : BitVec 32 := Scalar.addi v19 c18_i32
  let c1536_i32_268 : BitVec 32 := 1536#32
  let v371 : BitVec 32 := Scalar.muli v370 c1536_i32_268
  v371
def k0_mult72 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c17_i32_271 : BitVec 32 := 17#32
  let v375 : BitVec 32 := Scalar.addi v19 c17_i32_271
  let c1536_i32_272 : BitVec 32 := 1536#32
  let v376 : BitVec 32 := Scalar.muli v375 c1536_i32_272
  v376
def k0_mult73 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c18_i32_275 : BitVec 32 := 18#32
  let v380 : BitVec 32 := Scalar.addi v19 c18_i32_275
  let c1536_i32_276 : BitVec 32 := 1536#32
  let v381 : BitVec 32 := Scalar.muli v380 c1536_i32_276
  v381
def k0_mult74 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c17_i32_279 : BitVec 32 := 17#32
  let v385 : BitVec 32 := Scalar.addi v19 c17_i32_279
  let c1536_i32_280 : BitVec 32 := 1536#32
  let v386 : BitVec 32 := Scalar.muli v385 c1536_i32_280
  v386
def k0_mult75 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c19_i32 : BitVec 32 := 19#32
  let v390 : BitVec 32 := Scalar.addi v19 c19_i32
  let c1536_i32_283 : BitVec 32 := 1536#32
  let v391 : BitVec 32 := Scalar.muli v390 c1536_i32_283
  v391
def k0_mult76 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c18_i32_286 : BitVec 32 := 18#32
  let v395 : BitVec 32 := Scalar.addi v19 c18_i32_286
  let c1536_i32_287 : BitVec 32 := 1536#32
  let v396 : BitVec 32 := Scalar.muli v395 c1536_i32_287
  v396
def k0_mult77 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c19_i32_290 : BitVec 32 := 19#32
  let v400 : BitVec 32 := Scalar.addi v19 c19_i32_290
  let c1536_i32_291 : BitVec 32 := 1536#32
  let v401 : BitVec 32 := Scalar.muli v400 c1536_i32_291
  v401
def k0_mult78 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c18_i32_294 : BitVec 32 := 18#32
  let v405 : BitVec 32 := Scalar.addi v19 c18_i32_294
  let c1536_i32_295 : BitVec 32 := 1536#32
  let v406 : BitVec 32 := Scalar.muli v405 c1536_i32_295
  v406
def k0_mult79 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c20_i32 : BitVec 32 := 20#32
  let v410 : BitVec 32 := Scalar.addi v19 c20_i32
  let c1536_i32_298 : BitVec 32 := 1536#32
  let v411 : BitVec 32 := Scalar.muli v410 c1536_i32_298
  v411
def k0_mult80 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c19_i32_301 : BitVec 32 := 19#32
  let v415 : BitVec 32 := Scalar.addi v19 c19_i32_301
  let c1536_i32_302 : BitVec 32 := 1536#32
  let v416 : BitVec 32 := Scalar.muli v415 c1536_i32_302
  v416
def k0_mult81 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c20_i32_305 : BitVec 32 := 20#32
  let v420 : BitVec 32 := Scalar.addi v19 c20_i32_305
  let c1536_i32_306 : BitVec 32 := 1536#32
  let v421 : BitVec 32 := Scalar.muli v420 c1536_i32_306
  v421
def k0_mult82 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c19_i32_309 : BitVec 32 := 19#32
  let v425 : BitVec 32 := Scalar.addi v19 c19_i32_309
  let c1536_i32_310 : BitVec 32 := 1536#32
  let v426 : BitVec 32 := Scalar.muli v425 c1536_i32_310
  v426
def k0_mult83 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c20_i32_313 : BitVec 32 := 20#32
  let v430 : BitVec 32 := Scalar.addi v19 c20_i32_313
  let c1536_i32_314 : BitVec 32 := 1536#32
  let v431 : BitVec 32 := Scalar.muli v430 c1536_i32_314
  v431
def k0_mult84 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c630_i32 : BitVec 32 := 630#32
  let v2 : BitVec 32 := Scalar.muli v1 c630_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c20_i32_319 : BitVec 32 := 20#32
  let v438 : BitVec 32 := Scalar.addi v19 c20_i32_319
  let c1536_i32_320 : BitVec 32 := 1536#32
  let v439 : BitVec 32 := Scalar.muli v438 c1536_i32_320
  v439
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x32_S32x1000000_1_0 : S1000000x32.Transposes [1, 0] S32x1000000
  inb_S32x1000000_S32x64_0_999936 : ∀ a, (![0, 999936] : Fin 2 → Nat) a + S32x64.size a ≤ S32x1000000.size a
  transposes_S32x1000000_S1000000x32_1_0 : S32x1000000.Transposes [1, 0] S1000000x32
  hcc0_scratch3 : 0 + S_.numel ≤ 5
  hcc0_scratch4 : 1 + S_.numel ≤ 5
  hcc0_scratch5 : 2 + S_.numel ≤ 5
  hcc0_scratch6 : 3 + S_.numel ≤ 5
  hcc0_scratch7 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 128 ∣ (k0_mult1 i).toNat
  k0_off1_inb : ∀ i : grid0.Coords, ∀ (r : Fin 21), ∀ a, (k0_off1 i (BitVec.ofNat 32 r.val)) a + S32x1536.size a ≤ S32x1000000.size a
  k0_mult2_dvd : ∀ i : grid0.Coords, 128 ∣ (k0_mult2 i).toNat
  k0_mult3_dvd : ∀ i : grid0.Coords, 128 ∣ (k0_mult3 i).toNat
  k0_mult4_dvd : ∀ i : grid0.Coords, 128 ∣ (k0_mult4 i).toNat
  k0_mult5_dvd : ∀ i : grid0.Coords, 128 ∣ (k0_mult5 i).toNat
  k0_mult6_dvd : ∀ i : grid0.Coords, 128 ∣ (k0_mult6 i).toNat
  k0_mult7_dvd : ∀ i : grid0.Coords, 128 ∣ (k0_mult7 i).toNat
  k0_mult8_dvd : ∀ i : grid0.Coords, 128 ∣ (k0_mult8 i).toNat
  k0_mult9_dvd : ∀ i : grid0.Coords, 128 ∣ (k0_mult9 i).toNat
  k0_mult10_dvd : ∀ i : grid0.Coords, 128 ∣ (k0_mult10 i).toNat
  k0_mult11_dvd : ∀ i : grid0.Coords, 128 ∣ (k0_mult11 i).toNat
  k0_mult12_dvd : ∀ i : grid0.Coords, 128 ∣ (k0_mult12 i).toNat
  k0_mult13_dvd : ∀ i : grid0.Coords, 128 ∣ (k0_mult13 i).toNat
  k0_mult14_dvd : ∀ i : grid0.Coords, 128 ∣ (k0_mult14 i).toNat
  k0_mult15_dvd : ∀ i : grid0.Coords, 128 ∣ (k0_mult15 i).toNat
  k0_mult16_dvd : ∀ i : grid0.Coords, 128 ∣ (k0_mult16 i).toNat
  k0_mult17_dvd : ∀ i : grid0.Coords, 128 ∣ (k0_mult17 i).toNat
  k0_mult18_dvd : ∀ i : grid0.Coords, 128 ∣ (k0_mult18 i).toNat
  k0_mult19_dvd : ∀ i : grid0.Coords, 128 ∣ (k0_mult19 i).toNat
  k0_mult20_dvd : ∀ i : grid0.Coords, 128 ∣ (k0_mult20 i).toNat
  k0_mult21_dvd : ∀ i : grid0.Coords, 128 ∣ (k0_mult21 i).toNat
  k0_mult22_dvd : ∀ i : grid0.Coords, 128 ∣ (k0_mult22 i).toNat
  k0_mult23_dvd : ∀ i : grid0.Coords, 128 ∣ (k0_mult23 i).toNat
  k0_mult24_dvd : ∀ i : grid0.Coords, 128 ∣ (k0_mult24 i).toNat
  k0_mult25_dvd : ∀ i : grid0.Coords, 128 ∣ (k0_mult25 i).toNat
  k0_mult26_dvd : ∀ i : grid0.Coords, 128 ∣ (k0_mult26 i).toNat
  k0_mult27_dvd : ∀ i : grid0.Coords, 128 ∣ (k0_mult27 i).toNat
  k0_mult28_dvd : ∀ i : grid0.Coords, 128 ∣ (k0_mult28 i).toNat
  k0_mult29_dvd : ∀ i : grid0.Coords, 128 ∣ (k0_mult29 i).toNat
  k0_mult30_dvd : ∀ i : grid0.Coords, 128 ∣ (k0_mult30 i).toNat
  k0_mult31_dvd : ∀ i : grid0.Coords, 128 ∣ (k0_mult31 i).toNat
  k0_mult32_dvd : ∀ i : grid0.Coords, 128 ∣ (k0_mult32 i).toNat
  k0_mult33_dvd : ∀ i : grid0.Coords, 128 ∣ (k0_mult33 i).toNat
  k0_mult34_dvd : ∀ i : grid0.Coords, 128 ∣ (k0_mult34 i).toNat
  k0_mult35_dvd : ∀ i : grid0.Coords, 128 ∣ (k0_mult35 i).toNat
  k0_mult36_dvd : ∀ i : grid0.Coords, 128 ∣ (k0_mult36 i).toNat
  k0_mult37_dvd : ∀ i : grid0.Coords, 128 ∣ (k0_mult37 i).toNat
  k0_mult38_dvd : ∀ i : grid0.Coords, 128 ∣ (k0_mult38 i).toNat
  k0_mult39_dvd : ∀ i : grid0.Coords, 128 ∣ (k0_mult39 i).toNat
  k0_mult40_dvd : ∀ i : grid0.Coords, 128 ∣ (k0_mult40 i).toNat
  k0_mult41_dvd : ∀ i : grid0.Coords, 128 ∣ (k0_mult41 i).toNat
  k0_mult42_dvd : ∀ i : grid0.Coords, 128 ∣ (k0_mult42 i).toNat
  k0_mult43_dvd : ∀ i : grid0.Coords, 128 ∣ (k0_mult43 i).toNat
  k0_mult44_dvd : ∀ i : grid0.Coords, 128 ∣ (k0_mult44 i).toNat
  k0_mult45_dvd : ∀ i : grid0.Coords, 128 ∣ (k0_mult45 i).toNat
  k0_mult46_dvd : ∀ i : grid0.Coords, 128 ∣ (k0_mult46 i).toNat
  k0_mult47_dvd : ∀ i : grid0.Coords, 128 ∣ (k0_mult47 i).toNat
  k0_mult48_dvd : ∀ i : grid0.Coords, 128 ∣ (k0_mult48 i).toNat
  k0_mult49_dvd : ∀ i : grid0.Coords, 128 ∣ (k0_mult49 i).toNat
  k0_mult50_dvd : ∀ i : grid0.Coords, 128 ∣ (k0_mult50 i).toNat
  k0_mult51_dvd : ∀ i : grid0.Coords, 128 ∣ (k0_mult51 i).toNat
  k0_mult52_dvd : ∀ i : grid0.Coords, 128 ∣ (k0_mult52 i).toNat
  k0_mult53_dvd : ∀ i : grid0.Coords, 128 ∣ (k0_mult53 i).toNat
  k0_mult54_dvd : ∀ i : grid0.Coords, 128 ∣ (k0_mult54 i).toNat
  k0_mult55_dvd : ∀ i : grid0.Coords, 128 ∣ (k0_mult55 i).toNat
  k0_mult56_dvd : ∀ i : grid0.Coords, 128 ∣ (k0_mult56 i).toNat
  k0_mult57_dvd : ∀ i : grid0.Coords, 128 ∣ (k0_mult57 i).toNat
  k0_mult58_dvd : ∀ i : grid0.Coords, 128 ∣ (k0_mult58 i).toNat
  k0_mult59_dvd : ∀ i : grid0.Coords, 128 ∣ (k0_mult59 i).toNat
  k0_mult60_dvd : ∀ i : grid0.Coords, 128 ∣ (k0_mult60 i).toNat
  k0_mult61_dvd : ∀ i : grid0.Coords, 128 ∣ (k0_mult61 i).toNat
  k0_mult62_dvd : ∀ i : grid0.Coords, 128 ∣ (k0_mult62 i).toNat
  k0_mult63_dvd : ∀ i : grid0.Coords, 128 ∣ (k0_mult63 i).toNat
  k0_mult64_dvd : ∀ i : grid0.Coords, 128 ∣ (k0_mult64 i).toNat
  k0_mult65_dvd : ∀ i : grid0.Coords, 128 ∣ (k0_mult65 i).toNat
  k0_mult66_dvd : ∀ i : grid0.Coords, 128 ∣ (k0_mult66 i).toNat
  k0_mult67_dvd : ∀ i : grid0.Coords, 128 ∣ (k0_mult67 i).toNat
  k0_mult68_dvd : ∀ i : grid0.Coords, 128 ∣ (k0_mult68 i).toNat
  k0_mult69_dvd : ∀ i : grid0.Coords, 128 ∣ (k0_mult69 i).toNat
  k0_mult70_dvd : ∀ i : grid0.Coords, 128 ∣ (k0_mult70 i).toNat
  k0_mult71_dvd : ∀ i : grid0.Coords, 128 ∣ (k0_mult71 i).toNat
  k0_mult72_dvd : ∀ i : grid0.Coords, 128 ∣ (k0_mult72 i).toNat
  k0_mult73_dvd : ∀ i : grid0.Coords, 128 ∣ (k0_mult73 i).toNat
  k0_mult74_dvd : ∀ i : grid0.Coords, 128 ∣ (k0_mult74 i).toNat
  k0_mult75_dvd : ∀ i : grid0.Coords, 128 ∣ (k0_mult75 i).toNat
  k0_mult76_dvd : ∀ i : grid0.Coords, 128 ∣ (k0_mult76 i).toNat
  k0_mult77_dvd : ∀ i : grid0.Coords, 128 ∣ (k0_mult77 i).toNat
  k0_mult78_dvd : ∀ i : grid0.Coords, 128 ∣ (k0_mult78 i).toNat
  k0_mult79_dvd : ∀ i : grid0.Coords, 128 ∣ (k0_mult79 i).toNat
  k0_mult80_dvd : ∀ i : grid0.Coords, 128 ∣ (k0_mult80 i).toNat
  k0_mult81_dvd : ∀ i : grid0.Coords, 128 ∣ (k0_mult81 i).toNat
  k0_mult82_dvd : ∀ i : grid0.Coords, 128 ∣ (k0_mult82 i).toNat
  k0_mult83_dvd : ∀ i : grid0.Coords, 128 ∣ (k0_mult83 i).toNat
  k0_mult84_dvd : ∀ i : grid0.Coords, 128 ∣ (k0_mult84 i).toNat

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7

class Facts : Prop extends Facts₀ where

variable [Facts]
-- ==== ReferenceIdeal.lean ====
abbrev S1000000x32 : Shape := ⟨2, ![1000000, 32]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000, .i32⟩
  | .hbm, ⟨2, _⟩ => ⟨S_, .i32⟩
  | .hbm, ⟨3, _⟩ => ⟨S1000000, .i32⟩
  | .hbm, ⟨4, _⟩ => ⟨S1000000, .i1⟩
  | .hbm, ⟨5, _⟩ => ⟨S_, .i32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000x1, .i32⟩
  | .hbm, ⟨10, _⟩ => ⟨S1, .i32⟩
  | .hbm, ⟨11, _⟩ => ⟨S_, .i32⟩
  | .hbm, ⟨12, _⟩ => ⟨S1000000x1, .i32⟩
  | .hbm, ⟨13, _⟩ => ⟨S1000000x1, .i1⟩
  | .hbm, ⟨14, _⟩ => ⟨S1x1, .i32⟩
  | .hbm, ⟨15, _⟩ => ⟨S1000000x1, .i32⟩
  | .hbm, ⟨16, _⟩ => ⟨S1000000x1, .i1⟩
  | .hbm, ⟨17, _⟩ => ⟨S1000000x1, .i1⟩
  | .hbm, ⟨18, _⟩ => ⟨S_, .i1⟩
  | .hbm, ⟨19, _⟩ => ⟨S1000000, .i1⟩
  | .hbm, ⟨20, _⟩ => ⟨S1000000x32, .f32⟩
  | .hbm, ⟨21, _⟩ => ⟨S1000000x32, .i1⟩
  | .hbm, ⟨22, _⟩ => ⟨S_, .f32⟩
  | .hbm, ⟨23, _⟩ => ⟨S1000000x32, .f32⟩
  | .hbm, ⟨24, _⟩ => ⟨S1000000x32, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v1 : Ref sig .tc := ⟨.hbm, 24, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x32_0 : S1000000.BroadcastsInDim S1000000x32 (![0] : Fin 1 → Fin S1000000x32.rank)
  bcast_S_S1000000x32 : S_.BroadcastsInDim S1000000x32 (![] : Fin 0 → Fin S1000000x32.rank)
  gather_S1000000x32_S1000000x1_S1000000x32_1_0_n_n_0_1_132_wf : GatherDims.WF S1000000x32 S1000000x1 S1000000x32 [1] [0] [] [0] [] 1 ![1, 32]

variable [Facts₀]

def gather_S1000000x32_S1000000x1_S1000000x32_1_0_n_n_0_1_132 : GatherDims S1000000x32 S1000000x1 S1000000x32 where
  offsetDims := [1]
  collapsedSliceDims := [0]
  operandBatchingDims := []
  startIndicesBatchingDims := []
  startIndexMap := [0]
  indexVectorDim := 1
  sliceSizes := ![1, 32]
  wf := gather_S1000000x32_S1000000x1_S1000000x32_1_0_n_n_0_1_132_wf

class Facts : Prop extends Facts₀ where

variable [Facts]
-- ==== Proof.RefSide.lean ====
/-
  The reference program read back. @main is an iota of the row numbers 0 … 999999 followed by a take of the
  argument's rows at those numbers: the take wraps negative indices, masks the ones outside [0, 999999], gathers the
  rows and puts a NaN where the mask fails. Row number r is neither negative nor out of range and the gather's
  clamp leaves it alone, so the result is the argument, element by element.

  The sections: the words (a row number as a 32-bit integer, read signed); the program's value as one term of the
  argument, and that term at an index; @main as a straight line of its twenty-four operations and its run; the
  run's result and argument buffers.
-/
import proofs.«206677_g74234214744565_cont_9to1_m_856_16_alg».proof.ReferenceIdeal
import proofs.«206677_g74234214744565_cont_9to1_m_856_16_alg».proof.Proof.Gen.ReferenceIdeal
import Idealize.ShloMosaic.Lib.StableHlo.Run
import Idealize.ShloMosaic.Lib.ValueIdx
import Idealize.ShloMosaic.Lib.IdealHost
import Idealize.ShloMosaic.Lib.Pipeline.Value
import Idealize.ShloMosaic.Lib.Affine
import Idealize.ShloMosaic.PureOps.Reduce

noncomputable section

namespace Cert.Proof.RefSide

open Cert.ReferenceIdeal Cert.ReferenceIdeal.Gen Idealize.ShloMosaic Idealize.ShloMosaic.TcCoe Idealize.SL.Sem Idealize.ShloMosaic.StableHlo
open Idealize.ShloMosaic.ValueIdx

/-! ## Words: a row number as a 32-bit integer -/

/-- A natural number below 1000000, as a 32-bit word read signed, is itself. -/
theorem toInt_ofNat_small (n : Nat) (h : n < 1000000) : (BitVec.ofNat 32 n).toInt = (n : Int) := by
  rw [BitVec.toInt_ofNat']
  exact Int.bmod_eq_of_le (by omega) (by omega)

/-- Such a word is not negative: the signed test "less than zero" answers 0. -/
theorem slt_zero (n : Nat) (h : n < 1000000) : IntOp.cmpi .slt (BitVec.ofNat 32 n) 0#32 = 0#1 := by
  refine eq_zero_of_ne_one fun e => ?_
  have := IntOp.cmpi_slt.1 e
  rw [toInt_ofNat_small n h, show (0#32 : BitVec 32).toInt = 0 from rfl] at this
  omega

/-- Such a word is at least zero, signed. -/
theorem sge_zero (n : Nat) (h : n < 1000000) : IntOp.cmpi .sge (BitVec.ofNat 32 n) 0#32 = 1#1 := by
  refine IntOp.cmpi_sge.2 ?_
  rw [toInt_ofNat_small n h, show (0#32 : BitVec 32).toInt = 0 from rfl]
  omega

/-- Such a word is at most 999999, signed. -/
theorem sle_max (n : Nat) (h : n < 1000000) : IntOp.cmpi .sle (BitVec.ofNat 32 n) 999999#32 = 1#1 := by
  refine IntOp.cmpi_sle.2 ?_
  rw [toInt_ofNat_small n h, show (999999#32 : BitVec 32) = BitVec.ofNat 32 999999 from rfl, toInt_ofNat_small 999999 (by omega)]
  omega

/-- A conjunction of one-bit words that are all 1, taken from 1 in any order of a list, is 1. -/
theorem foldl_andi_one {ι : Type} (y : ι → BitVec 1) (hy : ∀ i, y i = 1#1) :
    ∀ l : List ι, l.foldl (fun r i => IntOp.andi r (y i)) 1#1 = 1#1
  | [] => rfl
  | a :: l => by
    rw [List.foldl_cons, hy a, show IntOp.andi 1#1 1#1 = 1#1 from by decide]
    exact foldl_andi_one y hy l

/-! ## The program's value, as a term of the argument -/

section Value

/-- The indices the take reads: the row numbers, each replaced by itself plus 1000000 where negative. -/
def wrapped : IVec S1000000 32 :=
  select (cmpi .slt (iotaInDim S1000000 32 0) (broadcastInDim S1000000 ![] bcast_S_S1000000 (constantI S_ 32 0#32)))
    (addi (iotaInDim S1000000 32 0) (broadcastInDim S1000000 ![] bcast_S_S1000000 (constantI S_ 32 1000000#32)))
    (iotaInDim S1000000 32 0)

/-- The same indices as a column: one start index per result row. -/
def col : IVec S1000000x1 32 := broadcastInDim S1000000x1 ![0] bcast_S1000000_S1000000x1_0 wrapped

/-- Per start index, the test 0 ≤ index ≤ 999999. -/
def inb : IVec S1000000x1 1 :=
  andi (cmpi .sge col (broadcastInDim S1000000x1 ![] bcast_S_S1000000x1 (constantI S_ 32 0#32)))
    (cmpi .sle col (broadcastInDim S1000000x1 ![0, 1] bcast_S1x1_S1000000x1_0_1
      (broadcastInDim S1x1 ![1] bcast_S1_S1x1_1 (constantI S1 32 999999#32))))

/-- Per row, the conjunction of that test over the row's (one) start index. -/
def mask : IVec S1000000 1 :=
  Host.reduce IntOp.andi inb (constantI S_ 1 1#1) reducesTo_S1000000x1_S1000000_d1 h_S_

variable {F : FTy → Type} [FloatOps F]

/-- What @main computes from its argument: the gathered rows where the mask holds, the NaN constant elsewhere. -/
def out (x : FVec F S1000000x32 .f32) : FVec F S1000000x32 .f32 :=
  select (broadcastInDim S1000000x32 ![0] bcast_S1000000_S1000000x32_0 mask)
    (Host.gather gather_S1000000x32_S1000000x1_S1000000x32_1_0_n_n_0_1_132 x col)
    (broadcastInDim S1000000x32 ![] bcast_S_S1000000x32 (constant S_ .f32 0x7FC00000#32))

/-- Index r of the take's indices is the word r: a row number is not negative, so it is kept. -/
theorem wrapped_apply (j : S1000000.Idx) : wrapped j = BitVec.ofNat 32 (j 0).val := by
  have hj : (j 0).val < 1000000 := (j 0).isLt
  show Scalar.select (IntOp.cmpi .slt (BitVec.ofNat 32 (j 0).val) 0#32) _ (BitVec.ofNat 32 (j 0).val) = _
  rw [slt_zero _ hj, select_zero]

/-- The start index of result row r is the word r. -/
theorem col_apply (k : S1000000x1.Idx) : col k = BitVec.ofNat 32 (k 0).val := by
  unfold col
  rw [broadcastInDim_apply ![0] bcast_S1000000_S1000000x1_0 wrapped k (ix1 ⟨(k 0).val, idx2_lt0 k⟩)
    (fun a => match a with | ⟨0, _⟩ => rfl), wrapped_apply]

/-- Every start index is within [0, 999999]. -/
theorem inb_apply (k : S1000000x1.Idx) : inb k = 1#1 := by
  have hk : (k 0).val < 1000000 := idx2_lt0 k
  show IntOp.andi (IntOp.cmpi .sge (col k) 0#32) (IntOp.cmpi .sle (col k) 999999#32) = 1#1
  rw [col_apply, sge_zero _ hk, sle_max _ hk]
  decide

/-- So the mask holds on every row. -/
theorem mask_apply (j : S1000000.Idx) : mask j = 1#1 := by
  unfold mask
  rw [Host.reduce_eq_foldl]
  exact foldl_andi_one inb inb_apply _

/-- Axis 1 is not among the axes `[0]`. -/
theorem one_not_mem (h1 : 1 < 2) : (⟨1, h1⟩ : Fin 2) ∉ ([0] : List (Fin 2)) :=
  fun h => absurd (congrArg Fin.val (List.mem_singleton.mp h)) Nat.one_ne_zero

/-- The start-indices index result index `i` reads: row `i 0`, the one component. -/
abbrev startAt (i : S1000000x32.Idx) : S1000000x1.Idx := ix2 ⟨(i 0).val, idx2_lt0 i⟩ ⟨0, Nat.one_pos⟩

/-- The gather of rows at those start indices is the operand: result element (r, c) reads operand row "start index
    r, clamped into [0, 999999]", which is r, at column c. -/
theorem gather_apply {α : Type} (x : S1000000x32.Idx → α) (i : S1000000x32.Idx) :
    Host.gather gather_S1000000x32_S1000000x1_S1000000x32_1_0_n_n_0_1_132 x col i = x i := by
  unfold Host.gather
  congr 1
  funext a
  refine Fin.ext ?_
  show gather_S1000000x32_S1000000x1_S1000000x32_1_0_n_n_0_1_132.start i col a
      + gather_S1000000x32_S1000000x1_S1000000x32_1_0_n_n_0_1_132.batchCoord i a
      + gather_S1000000x32_S1000000x1_S1000000x32_1_0_n_n_0_1_132.offCoord i a = (i a).val
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S1000000x32.rank) ∈ gather_S1000000x32_S1000000x1_S1000000x32_1_0_n_n_0_1_132.startIndexMap
      from List.mem_singleton.mpr rfl)]
    have hsi : gather_S1000000x32_S1000000x1_S1000000x32_1_0_n_n_0_1_132.siIdx i
        ⟨List.idxOf (⟨0, h0⟩ : Fin S1000000x32.rank) gather_S1000000x32_S1000000x1_S1000000x32_1_0_n_n_0_1_132.startIndexMap,
          List.idxOf_lt_length_iff.2 (List.mem_singleton.mpr rfl)⟩ = startAt i := by
      funext b; refine Fin.ext ?_
      match b with
      | ⟨0, _⟩ => rfl
      | ⟨1, _⟩ => rfl
    rw [hsi, col_apply]
    have hi : (i 0).val < 1000000 := idx2_lt0 i
    show min (BitVec.ofNat 32 (i 0).val).toInt.toNat (1000000 - 1) = (i 0).val
    rw [toInt_ofNat_small _ hi, Int.toNat_natCast]
    omega
  | ⟨1, h1⟩ =>
    have hs : gather_S1000000x32_S1000000x1_S1000000x32_1_0_n_n_0_1_132.start i col ⟨1, h1⟩ = 0 := by
      unfold GatherDims.start
      rw [dif_neg (show (⟨1, h1⟩ : Fin S1000000x32.rank) ∉ gather_S1000000x32_S1000000x1_S1000000x32_1_0_n_n_0_1_132.startIndexMap
        from one_not_mem h1)]
    have ho : gather_S1000000x32_S1000000x1_S1000000x32_1_0_n_n_0_1_132.offCoord i ⟨1, h1⟩ = (i ⟨1, h1⟩).val := by
      unfold GatherDims.offCoord
      rw [dif_pos (show (⟨1, h1⟩ : Fin S1000000x32.rank) ∈ gather_S1000000x32_S1000000x1_S1000000x32_1_0_n_n_0_1_132.sKept
        from (GatherDims.mem_sKept _ _).2 ⟨one_not_mem h1, List.not_mem_nil⟩)]
      rfl
    rw [hs, ho]
    omega

variable {F : FTy → Type} [FloatOps F] in
/-- The program's value is its argument, element by element: the mask holds, so the select keeps the gathered
    element, which is the argument's. -/
theorem out_apply (x : FVec F S1000000x32 .f32) (i : S1000000x32.Idx) : out x i = x i := by
  unfold out
  rw [select_apply, broadcastInDim_apply ![0] bcast_S1000000_S1000000x32_0 mask i (ix1 ⟨(i 0).val, idx2_lt0 i⟩)
    (fun a => match a with | ⟨0, _⟩ => rfl), mask_apply, select_one, gather_apply]

end Value

/-! ## @main as a straight line, and its run -/

section Run

variable {F : FTy → Type} [FloatOps F]

/-- @main's operations in order, the calls unfolded: the iota; then, of the take, the zero and its broadcast, the
    test "index negative", the array length and its broadcast, the index plus the length, the select between the two
    (the inner function's one operation), the indices as a column, the bounds 999999 and 0 broadcast to the column's
    shape, the two comparisons and their conjunction, its reduction over the unit axis, the gather of rows, the mask
    broadcast along the rows, the quiet-NaN constant broadcast, and the final select. -/
abbrev ops : List (HloOp τ sig (Elt F)) :=
  [ nullary main_v0 (iotaInDim S1000000 32 0),
    TRef.nullary main_call0.c (constantI S_ 32 0#32),
    TRef.unary main_call0.c main_call0.v0 (broadcastInDim S1000000 ![] bcast_S_S1000000),
    TRef.binary (.of main_v0) main_call0.v0 main_call0.v1 (cmpi .slt),
    TRef.nullary main_call0.c_0 (constantI S_ 32 1000000#32),
    TRef.unary main_call0.c_0 main_call0.v2 (broadcastInDim S1000000 ![] bcast_S_S1000000),
    TRef.binary (.of main_v0) main_call0.v2 main_call0.v3 addi,
    TRef.ternary main_call0.v1 main_call0.v3 (.of main_v0) main_call0.call0.v0 select,
    TRef.unary main_call0.call0.v0 main_call0.v5 (broadcastInDim S1000000x1 ![0] bcast_S1000000_S1000000x1_0),
    TRef.nullary main_call0.c_1 (constantI S1 32 999999#32),
    TRef.nullary main_call0.c_2 (constantI S_ 32 0#32),
    TRef.unary main_call0.c_2 main_call0.v6 (broadcastInDim S1000000x1 ![] bcast_S_S1000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000000x1 ![0, 1] bcast_S1x1_S1000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000000x1_S1000000_d1 h_S_),
    TRef.binary (.of main_arg0) main_call0.v5 main_call0.v13 (fun x i => Host.gather gather_S1000000x32_S1000000x1_S1000000x32_1_0_n_n_0_1_132 x i),
    TRef.unary main_call0.v12 main_call0.v14 (broadcastInDim S1000000x32 ![0] bcast_S1000000_S1000000x32_0),
    TRef.nullary main_call0.cst (constant S_ .f32 0x7FC00000#32),
    TRef.unary main_call0.cst main_call0.v15 (broadcastInDim S1000000x32 ![] bcast_S_S1000000x32),
    TRef.ternary main_call0.v14 main_call0.v13 main_call0.v15 main_call0.v16 select ]

-- twenty-four binds re-associated
set_option maxRecDepth 1024 in
/-- @main is that straight line: the two functions' bodies unfolded at their calls, both sides are one chain of
    steps once sequencing is reassociated. -/
theorem main_eq (c : Dev nD) : main (F := F) c = seq ops := by
  simp only [main, fn_take.body, fn_where.body, seq, bind_assoc, pure_bind]

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- From any memory with zero counters, for any float values: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! The operations of the outlined functions are stated over references that carry their tensor type, and move
contents between that type and the buffer's own along an equation of types; at these literal buffers the two types
are the same and the moves are the identity. -/

/-- Contents moved to a typed reference's buffer and back are unchanged. -/
theorem ofBuf_toBuf {Val : EltTy → Type} {T : BufTy} (x : TRef sig T) (v : T.Contents Val) : x.ofBuf (x.toBuf v) = v := by
  obtain ⟨r, e, d, u⟩ := x
  subst e
  rfl

/-- At the result's buffer, whose type is the typed reference's, writing the contents is the identity. -/
theorem toBuf_v1 (h1 h2 h3) (w : (⟨S1000000x32, .f32⟩ : BufTy).Contents (Elt F)) :
    (TRef.of (T := ⟨S1000000x32, .f32⟩) main_v1 h1 h2 h3).toBuf w = w := rfl

/-- The fold at the result buffer is `out` of the argument's launch contents: each operation's result at its own
    buffer is its function's value, at any other buffer what was there; the identity moves are removed pair by
    pair, and the two sides are then one term, operation by operation (the reduction and the gather, folds and
    searches over a million elements, are never opened). -/
theorem out_eq (V : Valuation τ sig (Elt F)) :
    after ops V (main_v1 : DevRef τ sig) = out (V (main_arg0 : DevRef τ sig)) := by
  after_results_simp
  simp only [ofBuf_toBuf, toBuf_v1]
  unfold out mask inb col wrapped
  rfl

/-- No operation writes the argument buffer. -/
theorem arg0_eq (V : Valuation τ sig (Elt F)) :
    after ops V (main_arg0 : DevRef τ sig) = V (main_arg0 : DevRef τ sig) := by
  after_results

end Run

/-! ## The run's result and argument buffers -/

/-- At the ideal instance, from any memory with zero counters: every weakly fair execution of @main terminates; its
    result buffer then holds the argument's launch contents, element by element, and the argument buffer is
    unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        (∀ i : Cert.ReferenceIdeal.S1000000x32.Idx,
            (r.2.mem ((c.tc : Thread Cert.ReferenceIdeal.nD Cert.ReferenceIdeal.τ).loc Cert.ReferenceIdeal.main_v1) : Cert.ReferenceIdeal.S1000000x32.Idx → EReal) i
          = (m ((c.tc : Thread Cert.ReferenceIdeal.nD Cert.ReferenceIdeal.τ).loc Cert.ReferenceIdeal.main_arg0) : Cert.ReferenceIdeal.S1000000x32.Idx → EReal) i)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  (θ_run defs _ _).mono (fun _ h c => ⟨fun i => (congrFun (h c main_v1) i).trans
        ((congrFun (out_eq (launchContents m c)) i).trans (out_apply _ i)),
      (h c main_arg0).trans (arg0_eq _)⟩)
    (run_main m ρ)

end Cert.Proof.RefSide

end
-- ==== Proof.KICommon.lean ====
/-
  The common setting of the idealized kernel's run: the program as the launch theorem reads it, the ghost state
  (the launch handshakes' rounds beside the write-mode cells and the local transfers' counters), the three arrays of
  device memory the kernel touches, and the transposed table every copy moves pieces of.
-/
import proofs.«206677_g74234214744565_cont_9to1_m_856_16_alg».proof.Defs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.WriteMode
import proofs.«206677_g74234214744565_cont_9to1_m_856_16_alg».proof.Proof.Gen.KernelIdeal
import proofs.«206677_g74234214744565_cont_9to1_m_856_16_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the write-mode cells, the transfers' counters -/

abbrev UH : Type := URounds (GSem nD τ sig) ℕ
abbrev UW : Type := WmRA nD τ sig (Elt F)
abbrev UU : Type := UH × (UW (F := F) × Counters)

local notation "𝕄" => MT nD τ sig (HIx 1) (Elt F) ℕ (UU (F := F)) ℕ

abbrev EH : Emb UH (MT nD τ sig (HIx 1) (Elt F) ℕ (UU (F := F)) ℕ) := embL
/-- Where the write-mode cells sit in the ghost state. -/
abbrev wemb : UEmb (UW (F := F)) (UU (F := F)) := (UEmb.inl : UEmb (UW (F := F)) (UW (F := F) × Counters)).trans UEmb.inr

/-! ## The arrays -/

variable (m : (ℓ : Loc nD τ sig) → Buf (Elt F) ℓ) (ρ : Dev nD → PrngReg)

/-- The table (the argument), its transpose (the kernel's operand), the copy (the kernel's result), the copy
    transposed back (the program's result), as locations of device d. -/
abbrev aLoc (d : Dev nD) : Loc nD τ sig := (SparseCore.T d).loc main_arg0
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.Proof.KI

end
-- ==== Proof.KIPay.lean ====
/-
  What the run moves, and what travels with the launch handshakes.

  The kernel's operand is the table transposed, tT; its result is to be tT again, piece by piece: worker (c, s) copies the
  21 chunks of 1536 lanes numbered from its start, and worker (0, 0) also the last 64 lanes. Neighbouring workers' runs of
  chunks share a chunk, so the result array is held in write mode with tT as every element's target: each worker holds a
  share of the whole array, writes only target values, and records the lanes it has written. The launch hands each
  SparseCore, and it each of its sixteen workers, a share of tT to read and a share of the result in write mode; they
  come back with the lanes written recorded.
-/
import proofs.«206677_g74234214744565_cont_9to1_m_856_16_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ (UU (F := F)) ℕ

variable (m : (ℓ : Loc nD τ sig) → Buf (Elt F) ℓ)

/-- The table transposed: what the first host operation leaves in the kernel's operand. -/
def tT (d : Dev nD) : Buf (Elt F) (tLoc d) :=
  ((transpose S32x1000000 [1, 0] · transposes_S1000000x32_S32x1000000_1_0) :
    (⟨S1000000x32, .f32⟩ : BufTy).Contents (Elt F) → (⟨S32x1000000, .f32⟩ : BufTy).Contents (Elt F)) (m (aLoc d))

/-- Every element of the result is to hold the transposed table's element at the same index. -/
def gT (d : Dev nD) : Tgt (Elt F) (oLoc d) := fun i => some (tT m d i)

/-- A grid point's coordinates from a SparseCore and a vector subcore of the grid. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- Chunk r of the worker at L: all 32 rows, 1536 lanes from the worker's start plus r chunks. -/
abbrev chunkR (L : grid0.Coords) (r : Fin 21) : Rect S32x1000000 :=
  Rect.unit (s := S32x1000000) (k0_off1 L (BitVec.ofNat 32 r.val)) S32x1536.size (k0_off1_inb L r)
/-- The last 64 lanes. -/
abbrev tailR : Rect S32x1000000 := Rect.unit (s := S32x1000000) ![0, 999936] S32x64.size inb_S32x1000000_S32x64_0_999936

/-- The elements of the result under chunk r of the worker at L, and under the last 64 lanes. -/
def chunkSet (d : Dev nD) (L : grid0.Coords) (r : Fin 21) : Finset (Idx (oLoc d)) :=
  ((Memref.whole main_v1_scv : Memref sig .scVector .hbm S32x1000000 .f32).slice (chunkR L r) (fun _ => rfl)).view.set
def tailSet (d : Dev nD) : Finset (Idx (oLoc d)) :=
  ((Memref.whole main_v1_scv : Memref sig .scVector .hbm S32x1000000 .f32).slice tailR (fun _ => rfl)).view.set

/-- The elements under the first k chunks of the worker at L. -/
def Wupto (d : Dev nD) (L : grid0.Coords) : ℕ → Finset (Idx (oLoc d))
  | 0 => ∅
  | k + 1 => Wupto d L k ∪ (if h : k < 21 then chunkSet d L ⟨k, h⟩ else ∅)

theorem Wupto_succ (d : Dev nD) (L : grid0.Coords) (k : ℕ) (h : k < 21) : Wupto d L (k + 1) = Wupto d L k ∪ chunkSet d L ⟨k, h⟩ := by
  show Wupto d L k ∪ (if h : k < 21 then chunkSet d L ⟨k, h⟩ else ∅) = _
  rw [dif_pos h]

/-- The worker at L is worker number 0: SparseCore 0's vector subcore 0. -/
def IsFirst (L : grid0.Coords) : Prop := (L 0).val = 0 ∧ (L 1).val = 0
instance (L : grid0.Coords) : Decidable (IsFirst L) := by unfold IsFirst; infer_instance

/-- Everything the worker at L writes: its 21 chunks, and for worker 0 the last 64 lanes. -/
def Wtile (d : Dev nD) (L : grid0.Coords) : Finset (Idx (oLoc d)) := Wupto d L 21 ∪ (if IsFirst L then tailSet d else ∅)

/-- The shares: a SparseCore's of the whole, a worker's of its SparseCore's. -/
abbrev qC (c : Fin 2) : PosShare TreeShare := shareTok fullShare 2 c
abbrev qT (c : Fin 2) (i : Fin 16) : PosShare TreeShare := shareTok (qC c) 16 i

theorem bound_zero : grid0.bound 0 = 2 := rfl
theorem bound_one : grid0.bound 1 = 16 := rfl
abbrev LV (c : Fin 2) (i : Fin 16) : grid0.Coords := coordsV (Fin.cast bound_zero.symm c) (Fin.cast bound_one.symm i)

/-- What SparseCore c has written when its sixteen workers are done. -/
def Wcore (d : Dev nD) (c : Fin 2) : Finset (Idx (oLoc d)) := ∅ ∪ Finset.univ.biUnion fun i : Fin 16 => Wtile d (LV c i)

/-- A share of the transposed table to read, and the same share of the result in write mode with the lanes W written. -/
def piece (d : Dev nD) (q : PosShare TreeShare) (W : Finset (Idx (oLoc d))) : sProp 𝕄 :=
  iprop((tLoc d ↦{q} tT m d) ∗ willBeTo (wemb (F := F)) (oLoc d) Finset.univ q (m (oLoc d)) (gT m d) W)

instance piece_storable (d : Dev nD) (q : PosShare TreeShare) (W : Finset (Idx (oLoc d))) : BI.Storable (upEmb : UEmb _ 𝕄) (piece m d q W) := by
  unfold piece; infer_instance

/-- The write-mode invariant exists, at some name. -/
def wmI : sProp 𝕄 := iprop(∃ ιwm : ℕ, wmInv (Ix := HIx 1) (wemb (F := F)) ιwm)
instance : BI.Persistent (wmI (F := F)) := by unfold wmI; infer_instance

/-- The one call: each SparseCore its piece, each worker its piece of that, back with what was written recorded; every
    thread is told the write-mode invariant exists. -/
def P : (K (F := F)).Pay (nD := nD) (Val := Elt F) (Name := ℕ) (U := UU (F := F)) where
  st := fun q d c => match q with | 0 => piece m d (qC (Fin.cast nCore_zero c)) ∅
  dn := fun q d c => match q with | 0 => piece m d (qC (Fin.cast nCore_zero c)) (Wcore d (Fin.cast nCore_zero c))
  go := fun q d c i => match q with | 0 => piece m d (qT (Fin.cast nCore_zero c) (Fin.cast nSub_zero i)) ∅
  td := fun q d c i => match q with
    | 0 => piece m d (qT (Fin.cast nCore_zero c) (Fin.cast nSub_zero i)) (Wtile d (LV (Fin.cast nCore_zero c) (Fin.cast nSub_zero i)))
  x := fun _ _ => wmI

instance P_storable : (P (F := F) m).IsStorable where
  st q d c := match q with | 0 => (inferInstance : BI.Storable (upEmb : UEmb _ 𝕄) (piece m d (qC (Fin.cast nCore_zero c)) ∅))
  dn q d c := match q with | 0 => (inferInstance : BI.Storable (upEmb : UEmb _ 𝕄) (piece m d (qC (Fin.cast nCore_zero c)) (Wcore d (Fin.cast nCore_zero c))))
  go q d c i := match q with | 0 => (inferInstance : BI.Storable (upEmb : UEmb _ 𝕄) (piece m d (qT (Fin.cast nCore_zero c) (Fin.cast nSub_zero i)) ∅))
  td q d c i := match q with
    | 0 => (inferInstance : BI.Storable (upEmb : UEmb _ 𝕄) (piece m d (qT (Fin.cast nCore_zero c) (Fin.cast nSub_zero i)) (Wtile d (LV (Fin.cast nCore_zero c) (Fin.cast nSub_zero i)))))

end Cert.Proof.KI

end
-- ==== Proof.LibWriteModeDma.lean ====
/-
  A local transfer whose destination is held in write mode.

  A buffer's elements in write mode (Lib/WriteMode.lean) may be written by several holders at once, each at its own
  share, as long as every value written is the element's agreed target. This module states the issue of a core's
  LOCAL transfer into such elements in the form of Lib/Transfers.lean's schedule-free protocol: the core holds the
  source's elements at some share, ANY share of a set of elements in write mode that covers the destination's, and
  the cell's counter at zero; it issues the transfer and holds its flight, which delivers at the wait the write-mode
  assertion with the destination's elements marked written, and the source share back.
-/
import Idealize.ShloMosaic.Lib.WriteMode
import Idealize.ShloMosaic.Lib.Transfers

noncomputable section

namespace Idealize.ShloMosaic.Transfers

open Idealize.SL
open Idealize.SL.BI (sProp Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (EC : UEmb Counters (MT nD τ sig Ix Val Name U Lvl)) {emb : UEmb (WmRA nD τ sig Val) U}
variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- The issue of a local transfer into elements held in write mode: from a share of the source's elements, a share
    of write-mode elements S covering the destination's whose targets admit what the transfer carries, and the cell's
    counter at zero, to the transfer's flight, which delivers the write-mode assertion with the destination marked
    written and the source share. -/
theorem wp_dmaLocal_willBeTo [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {ιwm : Name} {S : Finset (Idx (dst.view.loc c))} {qd : PosShare TreeShare} {fd : Buf Val (dst.view.loc c)}
    {g : Tgt Val (dst.view.loc c)} {W : Finset (Idx (dst.view.loc c))}
    (ι : Ix) (N : ℕ) (hN : dst.view.amount sm = N) (hN0 : 0 < N) (hS : dst.view.set ⊆ S)
    (hadm : dst.view.Admitted Val g (src.view.read Val fs) Finset.univ) :
    iprop((src.view.loc c ↦[src.view.set]{q} fs) ∗ (wmInv emb ιwm ∗ willBeTo emb (dst.view.loc c) S qd fd g W) ∗ semVal (c, sm) 0)
      ⊢ iprop((Flight EC c sm ι N iprop((willBeTo emb (dst.view.loc c) S qd fd g (W ∪ dst.view.set))
                                    ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  imod (flight_alloc EC hN0 iprop((willBeTo emb (dst.view.loc c) S qd fd g (W ∪ dst.view.set))
      ∗ (src.view.loc c ↦[src.view.set]{q} fs)) (g := (c, sm))) $$ Hv with ⟨%γ, %δ, %κ, #Hinv, Hγ, Hδ⟩
  iapply (wp_enqueueDma 𝒱 c bd Set.univ ι N hN) $$ [Hs Hd] [Hγ]
  · isplitl [Hs]; · iexact Hs
    iapply (willBeTo_writeUpdate (Ix := Ix) (Lvl := Lvl) (emb := emb) (ιwm := ιwm) c hS hadm) $$ Hd
  · iapply (flight_creditUpdate EC (δ := δ))
    isplitr; · iexact Hinv
    iexact Hγ
  iintro Hcred
  iapply Hk
  iapply (flight_intro EC c (κ := κ))
  isplitr; · iexact Hinv
  isplitl [Hδ] <;> iassumption

end Idealize.ShloMosaic.Transfers

end
-- ==== Proof.LibWriteModeShares.lean ====
/-
  Share splits of write-mode assertions, with marks.

  A write-mode assertion at share `q` with marks `W₁ ∪ W₂` is the same as two
  write-mode assertions, at two shares composing to `q`, with marks `W₁` and
  `W₂`: old values and targets are agreed on by all holders, and marks join
  (a cell marked by either holder is marked). Iterating the split of a share
  into its left and right halves gives the `n`-way versions: a remainder
  share and one token share per index `i < n`, as for points-to assertions.
-/
import Idealize.ShloMosaic.Lib.WriteMode
import Idealize.ShloMosaic.Lib.Transfers

noncomputable section

namespace Idealize.ShloMosaic.WriteModeShares

open Idealize.SL
open Idealize.SL.BI (sProp bigSep bigSep_mono bigSep_congr bigSep_insert bigSep_empty)
open scoped Idealize.SL.BI
open Idealize.SL.BI.BIBase Idealize.SL.BI.Laws Idealize.SL.Sem Idealize.SL.ProofMode
open Idealize.SL.RA
open PCS URA Auth
open Idealize.ShloMosaic.Transfers (shareDrop shareTokN shareTok)

variable {nD : Nat} {τ : Topo} {sig : RefSig} {Ix : Type} [DecidableEq Ix] {Val : EltTy → Type} {Name : Type} [DecidableEq Name]
variable {U : Type} [URA U] {Lvl : Type} {emb : UEmb (WmRA nD τ sig Val) U}

local notation "𝕄" => MT nD τ sig Ix Val Name U Lvl

variable {ℓ : Loc nD τ sig} {I : Finset (Idx ℓ)} {f : Buf Val ℓ} {g : Tgt Val ℓ}

/-- Along the share, marks joining: for shares `q₁`, `q₂` composing to `q`, the
    write-mode assertion at `q` with marks `W₁ ∪ W₂` is the assertion at `q₁`
    with marks `W₁` together with the assertion at `q₂` with marks `W₂`. -/
theorem willBeTo_share_union {q q₁ q₂ : PosShare TreeShare} (h : q ∈ q₁ ·? q₂) (W₁ W₂ : Finset (Idx ℓ)) :
    (willBeTo emb ℓ I q f g (W₁ ∪ W₂) : sProp 𝕄)
      ⊣⊢ iprop(willBeTo emb ℓ I q₁ f g W₁ ∗ willBeTo emb ℓ I q₂ f g W₂) :=
  BI.Region.held_share h fun i _ => by
    have := Region.WB.mem_mk_op_mk (f i) (g i) (decide (i ∈ W₁)) (decide (i ∈ W₂))
    simpa only [← Bool.decide_or, ← Finset.mem_union] using this

/-- The two-way split and join: the write-mode assertion at `q` with marks
    `W₁ ∪ W₂` is the assertion at the left half of `q` with marks `W₁` together
    with the assertion at the right half of `q` with marks `W₂`. -/
theorem willBeTo_left_right (q : PosShare TreeShare) (W₁ W₂ : Finset (Idx ℓ)) :
    (willBeTo emb ℓ I q f g (W₁ ∪ W₂) : sProp 𝕄)
      ⊣⊢ iprop(willBeTo emb ℓ I q.left f g W₁ ∗ willBeTo emb ℓ I q.right f g W₂) :=
  willBeTo_share_union (PosShare.mem_left_op_right q) W₁ W₂

/-- A write-mode assertion at `q` whose marks are those of a remainder `W₀`
    and of `k` tokens `Wt 0 … Wt (k-1)` is the remainder after `k` tokens with
    marks `W₀` and the `k` tokens, the `i`-th with marks `Wt i`. -/
theorem willBeTo_toks_range (q : PosShare TreeShare) (W₀ : Finset (Idx ℓ)) (Wt : ℕ → Finset (Idx ℓ)) (k : ℕ) :
    (willBeTo emb ℓ I q f g (W₀ ∪ (Finset.range k).biUnion Wt) : sProp 𝕄)
      ⊣⊢ iprop(willBeTo emb ℓ I (shareDrop q k) f g W₀
          ∗ bigSep (Finset.range k) (fun i => willBeTo emb ℓ I (shareTokN q i) f g (Wt i))) := by
  classical
  induction k generalizing W₀ with
  | zero =>
    rw [Finset.range_zero, bigSep_empty, Finset.biUnion_empty, Finset.union_empty]
    exact ⟨sep_emp.2, sep_emp.1⟩
  | succ k ih =>
    have hs : (willBeTo emb ℓ I (shareDrop q k) f g (W₀ ∪ Wt k) : sProp 𝕄)
        ⊣⊢ iprop(willBeTo emb ℓ I (shareDrop q (k + 1)) f g W₀ ∗ willBeTo emb ℓ I (shareTokN q k) f g (Wt k)) :=
      willBeTo_left_right (shareDrop q k) W₀ (Wt k)
    have hb : bigSep (Finset.range (k + 1)) (fun i => (willBeTo emb ℓ I (shareTokN q i) f g (Wt i) : sProp 𝕄))
        = iprop(willBeTo emb ℓ I (shareTokN q k) f g (Wt k)
            ∗ bigSep (Finset.range k) (fun i => willBeTo emb ℓ I (shareTokN q i) f g (Wt i))) := by
      rw [Finset.range_add_one, bigSep_insert Finset.notMem_range_self]; rfl
    have hW : W₀ ∪ (Finset.range (k + 1)).biUnion Wt = (W₀ ∪ Wt k) ∪ (Finset.range k).biUnion Wt := by
      rw [Finset.range_add_one, Finset.biUnion_insert, Finset.union_assoc]
    rw [hb, hW]
    constructor
    · refine (ih (W₀ ∪ Wt k)).1.trans ((sep_mono_left hs.1).trans ?_)
      iintro ⟨⟨Hd, Ht⟩, Hts⟩
      isplitl [Hd]; · iexact Hd
      isplitl [Ht] <;> iassumption
    · refine Entails.trans ?_ ((sep_mono_left hs.2).trans (ih (W₀ ∪ Wt k)).2)
      iintro ⟨Hd, Ht, Hts⟩
      isplitl [Hd Ht]; · isplitl [Hd] <;> iassumption
      iexact Hts

/-- The same over the indices `Fin n`: a write-mode assertion at `q` with
    marks `W₀ ∪ ⋃ i, Wt i` is the remainder share with marks `W₀` and one
    token share per `i : Fin n` with marks `Wt i`. -/
theorem willBeTo_toks (q : PosShare TreeShare) (n : ℕ) (W₀ : Finset (Idx ℓ)) (Wt : Fin n → Finset (Idx ℓ)) :
    (willBeTo emb ℓ I q f g (W₀ ∪ Finset.univ.biUnion Wt) : sProp 𝕄)
      ⊣⊢ iprop(willBeTo emb ℓ I (shareDrop q n) f g W₀
          ∗ bigSep Finset.univ (fun i : Fin n => willBeTo emb ℓ I (shareTok q n i) f g (Wt i))) := by
  classical
  -- the marks of the tokens, extended by no marks past `n`
  let Wt' : ℕ → Finset (Idx ℓ) := fun i => if h : i < n then Wt ⟨i, h⟩ else ∅
  have hWt : ∀ i : Fin n, Wt' i.val = Wt i := fun i => by simp [Wt']
  have hU : Finset.univ.biUnion Wt = (Finset.range n).biUnion Wt' := by
    ext x
    simp only [Finset.mem_biUnion, Finset.mem_univ, true_and, Finset.mem_range]
    constructor
    · rintro ⟨i, hi⟩; exact ⟨i.val, i.isLt, by rw [hWt]; exact hi⟩
    · rintro ⟨i, hi, hx⟩; exact ⟨⟨i, hi⟩, by simpa [Wt', hi] using hx⟩
  have hB : bigSep Finset.univ (fun i : Fin n => (willBeTo emb ℓ I (shareTok q n i) f g (Wt i) : sProp 𝕄))
      = bigSep (Finset.range n) (fun i => willBeTo emb ℓ I (shareTokN q i) f g (Wt' i)) := by
    rw [← Nat.Iio_eq_range, ← Fin.map_valEmbedding_univ, BI.bigSep_map]
    exact bigSep_congr fun i _ => by
      show willBeTo emb ℓ I (shareTokN q i.val) f g (Wt i) = willBeTo emb ℓ I (shareTokN q i.val) f g (Wt' i.val)
      rw [hWt]
  rw [hB, hU]
  exact willBeTo_toks_range q W₀ Wt' n

/-- Split, nothing marked: a write-mode assertion at `q` with no marks gives
    the remainder share and one token share per `i : Fin n`, all with no
    marks. -/
theorem willBeTo_toks_split (q : PosShare TreeShare) (n : ℕ) :
    (willBeTo emb ℓ I q f g ∅ : sProp 𝕄)
      ⊢ iprop(willBeTo emb ℓ I (shareDrop q n) f g ∅
          ∗ bigSep Finset.univ (fun i : Fin n => willBeTo emb ℓ I (shareTok q n i) f g ∅)) := by
  classical
  have h := (willBeTo_toks (Ix := Ix) (Name := Name) (Lvl := Lvl) (emb := emb) (I := I) (f := f) (g := g) q n ∅ (fun _ : Fin n => ∅)).1
  have hW : (∅ : Finset (Idx ℓ)) ∪ Finset.univ.biUnion (fun _ : Fin n => (∅ : Finset (Idx ℓ))) = ∅ := by
    ext x; simp
  rw [hW] at h
  exact h

/-- Join, with marks: the remainder share with marks `W₀` and one token share
    per `i : Fin n` with marks `Wt i` give the write-mode assertion at `q`,
    marked on `W₀` and on every `Wt i`. -/
theorem willBeTo_toks_join (q : PosShare TreeShare) (n : ℕ) (W₀ : Finset (Idx ℓ)) (Wt : Fin n → Finset (Idx ℓ)) :
    iprop(willBeTo emb ℓ I (shareDrop q n) f g W₀
        ∗ bigSep Finset.univ (fun i : Fin n => willBeTo emb ℓ I (shareTok q n i) f g (Wt i)))
      ⊢ (willBeTo emb ℓ I q f g (W₀ ∪ Finset.univ.biUnion Wt) : sProp 𝕄) :=
  (willBeTo_toks q n W₀ Wt).2

end Idealize.ShloMosaic.WriteModeShares

end
-- ==== Proof.KITile.lean ====
/-
  One worker's body, run once at a symbolic grid point.

  The worker at grid point L copies 21 chunks of the transposed table into the result through two scratch buffers: chunk
  k is fetched into buffer k mod 2 and copied out from it, the fetch of chunk k + 1 and the copy-out of chunk k in flight
  together, each on a semaphore of its own (two for the fetches, two for the copies out), every transfer waited for
  before its buffer or semaphore is used again; worker number 0 then moves the last 64 lanes through a third buffer on a
  fifth semaphore. Fetches read a share of the transposed table and land in a buffer the worker holds whole, so they are
  ordinary local transfers. The copies out land in the result, which neighbouring workers also write (their runs of chunks
  share a chunk): the worker holds only a share of the result in write mode, every value it writes is the element's
  target because the buffer holds exactly the window of the transposed table just fetched, and each copy-out records its
  window as written. At the end the worker has recorded its 21 chunks, and worker 0 the tail as well.
-/
import proofs.«206677_g74234214744565_cont_9to1_m_856_16_alg».proof.Proof.KIPay
import proofs.«206677_g74234214744565_cont_9to1_m_856_16_alg».proof.Proof.LibWriteModeDma
import proofs.«206677_g74234214744565_cont_9to1_m_856_16_alg».proof.Proof.LibWriteModeShares
import Idealize.ShloMosaic.Lib.Exec

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ (UU (F := F)) ℕ
variable (m : (ℓ : Loc nD τ sig) → Buf (Elt F) ℓ)

local notation "tW" => (Memref.whole Cert.KernelIdeal.main_v0_scv : Memref Cert.KernelIdeal.sig Kind.scVector Space.hbm Cert.KernelIdeal.S32x1000000 EltTy.f32)
local notation "oW" => (Memref.whole Cert.KernelIdeal.main_v1_scv : Memref Cert.KernelIdeal.sig Kind.scVector Space.hbm Cert.KernelIdeal.S32x1000000 EltTy.f32)
local notation "b0" => (Memref.whole Cert.KernelIdeal.cc0_scratch0 : Memref Cert.KernelIdeal.sig Kind.scVector Space.vmem Cert.KernelIdeal.S32x1536 EltTy.f32)
local notation "b1" => (Memref.whole Cert.KernelIdeal.cc0_scratch1 : Memref Cert.KernelIdeal.sig Kind.scVector Space.vmem Cert.KernelIdeal.S32x1536 EltTy.f32)
local notation "b2" => (Memref.whole Cert.KernelIdeal.cc0_scratch2 : Memref Cert.KernelIdeal.sig Kind.scVector Space.vmem Cert.KernelIdeal.S32x64 EltTy.f32)

/-! ## One chunk's copy-out -/

/-- A chunk-sized window of the result: all rows, 1536 lanes from an offset. -/
abbrev oChunk (off : Fin 2 → ℕ) (inb : ∀ a, off a + S32x1536.size a ≤ S32x1000000.size a) : Memref sig .scVector .hbm S32x1536 .f32 :=
  (oW).slice (Rect.unit (s := S32x1000000) off S32x1536.size inb) (fun _ => rfl)
/-- The same window of the transposed table. -/
abbrev tChunk (off : Fin 2 → ℕ) (inb : ∀ a, off a + S32x1536.size a ≤ S32x1000000.size a) : Memref sig .scVector .hbm S32x1536 .f32 :=
  (tW).slice (Rect.unit (s := S32x1000000) off S32x1536.size inb) (fun _ => rfl)

/-- The credit of a chunk-sized transfer: 32 × 1536 elements of 32 bits. -/
theorem amount_chunk (off : Fin 2 → ℕ) (inb : ∀ a, off a + S32x1536.size a ≤ S32x1000000.size a) (sm : DmaSem sig) :
    (oChunk off inb).view.amount (.dma sm) = 1572864 := by
  rfl

omit [FloatOps F] in
/-- A scratch buffer that a copy-in of a window of the transposed table has landed in holds, read whole, what the
    targets of the same window of the result ask for. -/
theorem adm_chunk (d : Dev nD) (off : Fin 2 → ℕ) (inb : ∀ a, off a + S32x1536.size a ≤ S32x1000000.size a)
    (b : Memref sig .scVector .vmem S32x1536 .f32) (fb : b.view.ty.Contents (Elt F)) :
    (oChunk off inb).view.Admitted (Elt F) (gT m d)
      (b.view.read (Elt F) (b.view.write (Elt F) fb (ReadAs.same.apply ((tChunk off inb).view.read (Elt F) (tT m d))) Finset.univ)) Finset.univ := by
  intro x _ u hu
  rw [View.read_write_univ]
  have : (gT m d) ((oChunk off inb).view.emb x) = some u := hu
  unfold gT at this
  exact (Option.some.inj this)

/-- The copy-out of a chunk from a scratch buffer that holds the chunk's target values, into the result held in write
    mode at some share: the worker gives the buffer, its share of the result and the semaphore at zero, and holds the
    transfer's flight, which brings back the share with the chunk's elements recorded as written, and the buffer. -/
theorem wp_outChunk (d : Dev nD) (cc : Fin τ.nSC) (jj : Fin τ.nSub) {α : Type} {Q : α → sProp 𝕄}
    (src : Memref sig .scVector .vmem S32x1536 .f32) (off : Fin 2 → ℕ) (inb : ∀ a, off a + S32x1536.size a ≤ S32x1000000.size a)
    (sm : DmaSem sig) {hsrc : src.view.WordExact} {hdst : (oChunk off inb).view.WordExact}
    {hsem : DmaTarget.Typed (nD := nD) (p := .scVector cc jj) Space.vmem (SemLoc.dma sm) (.here (oChunk off inb))}
    {k : PUnit → Prog (TpuEff nD τ sig (Elt F) Λ₀ (.scVector cc jj)) α}
    (ιwm : ℕ) (qd : PosShare TreeShare) (Wm : Finset (Idx (oLoc d))) (fs : Buf (Elt F) (src.view.loc (V d cc jj)))
    (hadm : (oChunk off inb).view.Admitted (Elt F) (gT m d) (src.view.read (Elt F) fs) Finset.univ) :
    iprop((src.view.loc (V d cc jj) ↦[src.view.set]{fullShare} fs) ∗ wmInv (Ix := HIx 1) (wemb (F := F)) ιwm
        ∗ willBeTo (wemb (F := F)) (oLoc d) Finset.univ qd (m (oLoc d)) (gT m d) Wm ∗ semVal (V d cc jj, SemLoc.dma sm) 0)
      ⊢ iprop((Transfers.Flight countersEmb (V d cc jj) (SemLoc.dma sm) (default : HIx 1) 1572864
                  iprop(willBeTo (wemb (F := F)) (oLoc d) Finset.univ qd (m (oLoc d)) (gT m d) (Wm ∪ (oChunk off inb).view.set)
                    ∗ (src.view.loc (V d cc jj) ↦[src.view.set]{fullShare} fs))
              -∗ wp frame (wpE (defs₀ (F := F)) 𝒱₀ (V d cc jj) none) Set.univ (k ⟨⟩) Q)
          -∗ wp frame (wpE (defs₀ (F := F)) 𝒱₀ (V d cc jj) none) Set.univ
              (.op (.enqueueDma src (.here (oChunk off inb)) (SemLoc.dma sm) hsrc hdst hsem) k) Q) := by
  iintro ⟨Hs, Hinv, Hw, Hv⟩ Hk
  iapply (Transfers.wp_dmaLocal_willBeTo (countersEmb) 𝒱₀ (V d cc jj) none (emb := wemb (F := F)) (ιwm := ιwm)
      (src := src) (dst := oChunk off inb) (S := Finset.univ) (qd := qd) (fd := m (oLoc d)) (g := gT m d) (W := Wm) (q := fullShare) (fs := fs)
      (default : HIx 1) 1572864 (amount_chunk off inb sm) (by decide) (Finset.subset_univ _) hadm) $$ [Hs Hinv Hw Hv]
  · isplitl [Hs]; · iexact Hs
    isplitl [Hinv Hw]
    · isplitl [Hinv]; · iexact Hinv
      iexact Hw
    iexact Hv
  iexact Hk

/-- The same for a scratch buffer held whole. -/
theorem wp_outChunkW (d : Dev nD) (cc : Fin τ.nSC) (jj : Fin τ.nSub) {α : Type} {Q : α → sProp 𝕄}
    (src : Memref sig .scVector .vmem S32x1536 .f32) (hw : src.view.set = Finset.univ) (off : Fin 2 → ℕ) (inb : ∀ a, off a + S32x1536.size a ≤ S32x1000000.size a)
    (sm : DmaSem sig) {hsrc : src.view.WordExact} {hdst : (oChunk off inb).view.WordExact}
    {hsem : DmaTarget.Typed (nD := nD) (p := .scVector cc jj) Space.vmem (SemLoc.dma sm) (.here (oChunk off inb))}
    {k : PUnit → Prog (TpuEff nD τ sig (Elt F) Λ₀ (.scVector cc jj)) α}
    (ιwm : ℕ) (qd : PosShare TreeShare) (Wm : Finset (Idx (oLoc d))) (fs : Buf (Elt F) (src.view.loc (V d cc jj)))
    (hadm : (oChunk off inb).view.Admitted (Elt F) (gT m d) (src.view.read (Elt F) fs) Finset.univ) :
    iprop((src.view.loc (V d cc jj) ↦{fullShare} fs) ∗ wmInv (Ix := HIx 1) (wemb (F := F)) ιwm
        ∗ willBeTo (wemb (F := F)) (oLoc d) Finset.univ qd (m (oLoc d)) (gT m d) Wm ∗ semVal (V d cc jj, SemLoc.dma sm) 0)
      ⊢ iprop((Transfers.Flight countersEmb (V d cc jj) (SemLoc.dma sm) (default : HIx 1) 1572864
                  iprop(willBeTo (wemb (F := F)) (oLoc d) Finset.univ qd (m (oLoc d)) (gT m d) (Wm ∪ (oChunk off inb).view.set)
                    ∗ (src.view.loc (V d cc jj) ↦{fullShare} fs))
              -∗ wp frame (wpE (defs₀ (F := F)) 𝒱₀ (V d cc jj) none) Set.univ (k ⟨⟩) Q)
          -∗ wp frame (wpE (defs₀ (F := F)) 𝒱₀ (V d cc jj) none) Set.univ
              (.op (.enqueueDma src (.here (oChunk off inb)) (SemLoc.dma sm) hsrc hdst hsem) k) Q) := by
  have h := wp_outChunk (F := F) m d cc jj (Q := Q) src off inb sm (hsrc := hsrc) (hdst := hdst) (hsem := hsem) (k := k) ιwm qd Wm fs hadm
  rw [hw] at h
  exact h

/-! ## The last 64 lanes -/

abbrev oTail : Memref sig .scVector .hbm S32x64 .f32 := (oW).slice tailR (fun _ => rfl)
abbrev tTail : Memref sig .scVector .hbm S32x64 .f32 := (tW).slice tailR (fun _ => rfl)

/-- The credit of the tail's transfer: 32 × 64 elements of 32 bits. -/
theorem amount_tail (sm : DmaSem sig) : (oTail).view.amount (.dma sm) = 65536 := by
  rfl

omit [FloatOps F] in
/-- The small scratch buffer, once the tail of the transposed table has landed in it, holds what the targets of the
    result's tail ask for. -/
theorem adm_tail (d : Dev nD) (b : Memref sig .scVector .vmem S32x64 .f32) (fb : b.view.ty.Contents (Elt F)) :
    (oTail).view.Admitted (Elt F) (gT m d)
      (b.view.read (Elt F) (b.view.write (Elt F) fb (ReadAs.same.apply ((tTail).view.read (Elt F) (tT m d))) Finset.univ)) Finset.univ := by
  intro x _ u hu
  rw [View.read_write_univ]
  have : (gT m d) ((oTail).view.emb x) = some u := hu
  unfold gT at this
  exact (Option.some.inj this)

/-- The tail's copy-out from the small scratch buffer held whole, into the result held in write mode at some share. -/
theorem wp_outTailW (d : Dev nD) (cc : Fin τ.nSC) (jj : Fin τ.nSub) {α : Type} {Q : α → sProp 𝕄}
    (src : Memref sig .scVector .vmem S32x64 .f32) (hw : src.view.set = Finset.univ)
    (sm : DmaSem sig) {hsrc : src.view.WordExact} {hdst : (oTail).view.WordExact}
    {hsem : DmaTarget.Typed (nD := nD) (p := .scVector cc jj) Space.vmem (SemLoc.dma sm) (.here oTail)}
    {k : PUnit → Prog (TpuEff nD τ sig (Elt F) Λ₀ (.scVector cc jj)) α}
    (ιwm : ℕ) (qd : PosShare TreeShare) (Wm : Finset (Idx (oLoc d))) (fs : Buf (Elt F) (src.view.loc (V d cc jj)))
    (hadm : (oTail).view.Admitted (Elt F) (gT m d) (src.view.read (Elt F) fs) Finset.univ) :
    iprop((src.view.loc (V d cc jj) ↦{fullShare} fs) ∗ wmInv (Ix := HIx 1) (wemb (F := F)) ιwm
        ∗ willBeTo (wemb (F := F)) (oLoc d) Finset.univ qd (m (oLoc d)) (gT m d) Wm ∗ semVal (V d cc jj, SemLoc.dma sm) 0)
      ⊢ iprop((Transfers.Flight countersEmb (V d cc jj) (SemLoc.dma sm) (default : HIx 1) 65536
                  iprop(willBeTo (wemb (F := F)) (oLoc d) Finset.univ qd (m (oLoc d)) (gT m d) (Wm ∪ (oTail).view.set)
                    ∗ (src.view.loc (V d cc jj) ↦{fullShare} fs))
              -∗ wp frame (wpE (defs₀ (F := F)) 𝒱₀ (V d cc jj) none) Set.univ (k ⟨⟩) Q)
          -∗ wp frame (wpE (defs₀ (F := F)) 𝒱₀ (V d cc jj) none) Set.univ
              (.op (.enqueueDma src (.here oTail) (SemLoc.dma sm) hsrc hdst hsem) k) Q) := by
  have h : iprop((src.view.loc (V d cc jj) ↦[src.view.set]{fullShare} fs) ∗ wmInv (Ix := HIx 1) (wemb (F := F)) ιwm
        ∗ willBeTo (wemb (F := F)) (oLoc d) Finset.univ qd (m (oLoc d)) (gT m d) Wm ∗ semVal (V d cc jj, SemLoc.dma sm) 0)
      ⊢ iprop((Transfers.Flight countersEmb (V d cc jj) (SemLoc.dma sm) (default : HIx 1) 65536
                  iprop(willBeTo (wemb (F := F)) (oLoc d) Finset.univ qd (m (oLoc d)) (gT m d) (Wm ∪ (oTail).view.set)
                    ∗ (src.view.loc (V d cc jj) ↦[src.view.set]{fullShare} fs))
              -∗ wp frame (wpE (defs₀ (F := F)) 𝒱₀ (V d cc jj) none) Set.univ (k ⟨⟩) Q)
          -∗ wp frame (wpE (defs₀ (F := F)) 𝒱₀ (V d cc jj) none) Set.univ
              (.op (.enqueueDma src (.here oTail) (SemLoc.dma sm) hsrc hdst hsem) k) Q) := by
    iintro ⟨Hs, Hinv, Hw, Hv⟩ Hk
    iapply (Transfers.wp_dmaLocal_willBeTo (countersEmb) 𝒱₀ (V d cc jj) none (emb := wemb (F := F)) (ιwm := ιwm)
        (src := src) (dst := oTail) (S := Finset.univ) (qd := qd) (fd := m (oLoc d)) (g := gT m d) (W := Wm) (q := fullShare) (fs := fs)
        (default : HIx 1) 65536 (amount_tail sm) (by decide) (Finset.subset_univ _) hadm) $$ [Hs Hinv Hw Hv]
    · isplitl [Hs]; · iexact Hs
      isplitl [Hinv Hw]
      · isplitl [Hinv]; · iexact Hinv
        iexact Hw
      iexact Hv
    iexact Hk
  rw [hw] at h
  exact h

/-! ## Which worker copies the tail -/

/-- The printed test "this is worker number 0", as the body computes it from the grid point. -/
abbrev condFirst (L : grid0.Coords) : Prop :=
  Scalar.cmpi .ne (Scalar.extui (Scalar.cmpi .eq (Scalar.addi (Scalar.muli (BitVec.ofNat 32 (L 1).val) 2#32) (BitVec.ofNat 32 (L 0).val)) 0#32)) 0#32 = 1#1

theorem condFirst_iff : ∀ L : grid0.Coords, condFirst L ↔ IsFirst L := by
  unfold condFirst IsFirst
  decide +kernel

/-- The copy-out of the worker's chunk number k, the lanes written recorded as the worker's first k chunks before and
    its first k + 1 after. -/
theorem wp_outChunkK (d : Dev nD) (L : grid0.Coords) {α : Type} {Q : α → sProp 𝕄}
    (src : Memref sig .scVector .vmem S32x1536 .f32) (hw : src.view.set = Finset.univ) (k : Fin 21)
    (sm : DmaSem sig) {hsrc : src.view.WordExact} {hdst : (oChunk (k0_off1 L (BitVec.ofNat 32 k.val)) (k0_off1_inb L k)).view.WordExact}
    {hsem : DmaTarget.Typed (nD := nD) (p := .scVector (cV L) (jV L)) Space.vmem (SemLoc.dma sm) (.here (oChunk (k0_off1 L (BitVec.ofNat 32 k.val)) (k0_off1_inb L k)))}
    {kont : PUnit → Prog (TpuEff nD τ sig (Elt F) Λ₀ (.scVector (cV L) (jV L))) α}
    (ιwm : ℕ) (qd : PosShare TreeShare) (fs : Buf (Elt F) (src.view.loc (V d (cV L) (jV L))))
    (hadm : (oChunk (k0_off1 L (BitVec.ofNat 32 k.val)) (k0_off1_inb L k)).view.Admitted (Elt F) (gT m d) (src.view.read (Elt F) fs) Finset.univ) :
    iprop((src.view.loc (V d (cV L) (jV L)) ↦{fullShare} fs) ∗ wmInv (Ix := HIx 1) (wemb (F := F)) ιwm
        ∗ willBeTo (wemb (F := F)) (oLoc d) Finset.univ qd (m (oLoc d)) (gT m d) (Wupto d L k.val) ∗ semVal (V d (cV L) (jV L), SemLoc.dma sm) 0)
      ⊢ iprop((Transfers.Flight countersEmb (V d (cV L) (jV L)) (SemLoc.dma sm) (default : HIx 1) 1572864
                  iprop(willBeTo (wemb (F := F)) (oLoc d) Finset.univ qd (m (oLoc d)) (gT m d) (Wupto d L (k.val + 1))
                    ∗ (src.view.loc (V d (cV L) (jV L)) ↦{fullShare} fs))
              -∗ wp frame (wpE (defs₀ (F := F)) 𝒱₀ (V d (cV L) (jV L)) none) Set.univ (kont ⟨⟩) Q)
          -∗ wp frame (wpE (defs₀ (F := F)) 𝒱₀ (V d (cV L) (jV L)) none) Set.univ
              (.op (.enqueueDma src (.here (oChunk (k0_off1 L (BitVec.ofNat 32 k.val)) (k0_off1_inb L k))) (SemLoc.dma sm) hsrc hdst hsem) kont) Q) := by
  have h := wp_outChunkW (F := F) m d (cV L) (jV L) (Q := Q) src hw (k0_off1 L (BitVec.ofNat 32 k.val)) (k0_off1_inb L k) sm
    (hsrc := hsrc) (hdst := hdst) (hsem := hsem) (k := kont) ιwm qd (Wupto d L k.val) fs hadm
  rw [Wupto_succ d L k.val k.isLt]
  exact h

/-- The tail's copy-out from nothing recorded to the tail's lanes recorded. -/
theorem wp_outTail0 (d : Dev nD) (L : grid0.Coords) {α : Type} {Q : α → sProp 𝕄}
    (src : Memref sig .scVector .vmem S32x64 .f32) (hw : src.view.set = Finset.univ)
    (sm : DmaSem sig) {hsrc : src.view.WordExact} {hdst : (oTail).view.WordExact}
    {hsem : DmaTarget.Typed (nD := nD) (p := .scVector (cV L) (jV L)) Space.vmem (SemLoc.dma sm) (.here oTail)}
    {kont : PUnit → Prog (TpuEff nD τ sig (Elt F) Λ₀ (.scVector (cV L) (jV L))) α}
    (ιwm : ℕ) (qd : PosShare TreeShare) (fs : Buf (Elt F) (src.view.loc (V d (cV L) (jV L))))
    (hadm : (oTail).view.Admitted (Elt F) (gT m d) (src.view.read (Elt F) fs) Finset.univ) :
    iprop((src.view.loc (V d (cV L) (jV L)) ↦{fullShare} fs) ∗ wmInv (Ix := HIx 1) (wemb (F := F)) ιwm
        ∗ willBeTo (wemb (F := F)) (oLoc d) Finset.univ qd (m (oLoc d)) (gT m d) ∅ ∗ semVal (V d (cV L) (jV L), SemLoc.dma sm) 0)
      ⊢ iprop((Transfers.Flight countersEmb (V d (cV L) (jV L)) (SemLoc.dma sm) (default : HIx 1) 65536
                  iprop(willBeTo (wemb (F := F)) (oLoc d) Finset.univ qd (m (oLoc d)) (gT m d) (tailSet d)
                    ∗ (src.view.loc (V d (cV L) (jV L)) ↦{fullShare} fs))
              -∗ wp frame (wpE (defs₀ (F := F)) 𝒱₀ (V d (cV L) (jV L)) none) Set.univ (kont ⟨⟩) Q)
          -∗ wp frame (wpE (defs₀ (F := F)) 𝒱₀ (V d (cV L) (jV L)) none) Set.univ
              (.op (.enqueueDma src (.here oTail) (SemLoc.dma sm) hsrc hdst hsem) kont) Q) := by
  have h := wp_outTailW (F := F) m d (cV L) (jV L) (Q := Q) src hw sm (hsrc := hsrc) (hdst := hdst) (hsem := hsem) (k := kont) ιwm qd ∅ fs hadm
  rw [Finset.empty_union] at h
  exact h

omit [FloatOps F] in
/-- A wait recorded at the kernel's own index keeps the recorded waits within the launch's allowance. -/
theorem waits_step {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact Or.inr rfl
  · exact h p hp

/-- One chunk's copy-out in the run: hand the buffer, the share and the semaphore to the transfer, keep its flight under
    the given name, and run on to the next copy-out. -/
syntax "out_step" term:max num term:max ident ident ident ident : tactic
set_option hygiene false in
macro_rules
  | `(tactic| out_step $b $k $s $hb $hw $hs $ho) => `(tactic|
      (iapply (wp_outChunkK (F := F) m d L $b (View.set_whole _) $k (SemArray.sem $s) ιwm qa _
          (adm_chunk (F := F) m d (k0_off1 L (BitVec.ofNat 32 $k)) (k0_off1_inb L $k) $b _)) $$ [$hb:ident $hw:ident $hs:ident]
       · isplitl [$hb:ident]; · iexact $hb:ident
         isplitr; · iexact Hwm
         isplitl [$hw:ident]; · iexact $hw:ident
         iexact $hs:ident
       iintro $ho:ident
       sl_exec
       sl_unfold_run_names))

theorem tile_core2 (d : Dev nD) (L : grid0.Coords) (ιwm : ℕ) (q qa qb : PosShare TreeShare)
    (O : CellTallies nD τ sig (HIx 1)) (W : Waits sig (HIx 1)) (hO : ∀ g, O g none = 0)
    (f0 : Buf (Elt F) ((V d (cV L) (jV L)).loc cc0_scratch0)) (f1 : Buf (Elt F) ((V d (cV L) (jV L)).loc cc0_scratch1)) (f2 : Buf (Elt F) ((V d (cV L) (jV L)).loc cc0_scratch2)) :
    iprop(levAts (K (F := F)).L (K (F := F)).lev ∗ wmInv (Ix := HIx 1) (wemb (F := F)) ιwm
        ∗ ((tW).view.loc (V d (cV L) (jV L)) ↦{q} tT m d)
        ∗ willBeTo (wemb (F := F)) (oLoc d) Finset.univ qa (m (oLoc d)) (gT m d) ∅
        ∗ willBeTo (wemb (F := F)) (oLoc d) Finset.univ qb (m (oLoc d)) (gT m d) ∅
        ∗ ((b0).view.loc (V d (cV L) (jV L)) ↦{fullShare} f0) ∗ ((b1).view.loc (V d (cV L) (jV L)) ↦{fullShare} f1) ∗ ((b2).view.loc (V d (cV L) (jV L)) ↦{fullShare} f2)
        ∗ semVal (V d (cV L) (jV L), SemLoc.dma cc0_scratch3.sem) 0 ∗ semVal (V d (cV L) (jV L), SemLoc.dma cc0_scratch4.sem) 0
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0
        ∗ owes (V d (cV L) (jV L)) O W)
      ⊢ wp frame (wpE (defs₀ (F := F)) 𝒱₀ (V d (cV L) (jV L)) none) Set.univ
          (cc0__sc_copy_body L tW (Memref.isWhole_whole _) oW (Memref.isWhole_whole _) b0 (Memref.isWhole_whole _) b1 (Memref.isWhole_whole _) b2 (Memref.isWhole_whole _)
            cc0_scratch3 cc0_scratch4 cc0_scratch5 cc0_scratch6 cc0_scratch7)
          fun _ => iprop(((tW).view.loc (V d (cV L) (jV L)) ↦{q} tT m d)
            ∗ willBeTo (wemb (F := F)) (oLoc d) Finset.univ qa (m (oLoc d)) (gT m d) (Wupto d L 21)
            ∗ willBeTo (wemb (F := F)) (oLoc d) Finset.univ qb (m (oLoc d)) (gT m d) (if IsFirst L then tailSet d else ∅)
            ∗ (∃ f, (b0).view.loc (V d (cV L) (jV L)) ↦{fullShare} f) ∗ (∃ f, (b1).view.loc (V d (cV L) (jV L)) ↦{fullShare} f) ∗ (∃ f, (b2).view.loc (V d (cV L) (jV L)) ↦{fullShare} f)
            ∗ semVal (V d (cV L) (jV L), SemLoc.dma cc0_scratch3.sem) 0 ∗ semVal (V d (cV L) (jV L), SemLoc.dma cc0_scratch4.sem) 0
            ∗ semVal (V d (cV L) (jV L), SemLoc.dma cc0_scratch5.sem) 0 ∗ semVal (V d (cV L) (jV L), SemLoc.dma cc0_scratch6.sem) 0
            ∗ semVal (V d (cV L) (jV L), SemLoc.dma cc0_scratch7.sem) 0
            ∗ ∃ W', ⌜∀ p ∈ W', p ∈ W ∨ p.2 = none⌝ ∗ owes (V d (cV L) (jV L)) O W') := by
  rw [cc0__sc_copy_body_eq_skeleton]; unfold cc0__sc_copy_body_skel
  iintro ⟨#Hlv, #Hwm, Ht, Hwa, Hwb, Hb0, Hb1, Hb2, Hs3, Hs4, Hs5, Hs6, Hs7, HO⟩
  ihave Hmw := ((K (F := F)).mayWaits_none (thr := V d (cV L) (jV L)) hO) $$ Hlv
  sl_exec
  sl_unfold_run_names
  out_step b0 0 cc0_scratch5 Hb0 Hwa Hs5 Ho0
  out_step b1 1 cc0_scratch6 Hb1 Ho0_dst Hs6 Ho1
  out_step b0 2 cc0_scratch5 Ho0_src Ho1_dst Ho0 Ho2
  out_step b1 3 cc0_scratch6 Ho1_src Ho2_dst Ho1 Ho3
  out_step b0 4 cc0_scratch5 Ho2_src Ho3_dst Ho2 Ho4
  out_step b1 5 cc0_scratch6 Ho3_src Ho4_dst Ho3 Ho5
  out_step b0 6 cc0_scratch5 Ho4_src Ho5_dst Ho4 Ho6
  out_step b1 7 cc0_scratch6 Ho5_src Ho6_dst Ho5 Ho7
  out_step b0 8 cc0_scratch5 Ho6_src Ho7_dst Ho6 Ho8
  out_step b1 9 cc0_scratch6 Ho7_src Ho8_dst Ho7 Ho9
  out_step b0 10 cc0_scratch5 Ho8_src Ho9_dst Ho8 Ho10
  out_step b1 11 cc0_scratch6 Ho9_src Ho10_dst Ho9 Ho11
  out_step b0 12 cc0_scratch5 Ho10_src Ho11_dst Ho10 Ho12
  out_step b1 13 cc0_scratch6 Ho11_src Ho12_dst Ho11 Ho13
  out_step b0 14 cc0_scratch5 Ho12_src Ho13_dst Ho12 Ho14
  out_step b1 15 cc0_scratch6 Ho13_src Ho14_dst Ho13 Ho15
  out_step b0 16 cc0_scratch5 Ho14_src Ho15_dst Ho14 Ho16
  out_step b1 17 cc0_scratch6 Ho15_src Ho16_dst Ho15 Ho17
  out_step b0 18 cc0_scratch5 Ho16_src Ho17_dst Ho16 Ho18
  out_step b1 19 cc0_scratch6 Ho17_src Ho18_dst Ho17 Ho19
  out_step b0 20 cc0_scratch5 Ho18_src Ho19_dst Ho18 Ho20
  by_cases hf : IsFirst L
  · have hc : condFirst L := (condFirst_iff L).mpr hf
    sl_exec (disch := exact hc)
    sl_unfold_run_names
    iapply (wp_outTail0 (F := F) m d L b2 (View.set_whole _) (SemArray.sem cc0_scratch7) ιwm qb _ (adm_tail (F := F) m d b2 f2)) $$ [Hb2 Hwb Hs7]
    · isplitl [Hb2]; · iexact Hb2
      isplitr; · iexact Hwm
      isplitl [Hwb]; · iexact Hwb
      iexact Hs7
    iintro HoT
    sl_exec
    sl_step
    isplitl [Ht]; · iexact Ht
    isplitl [Ho20_dst]; · iexact Ho20_dst
    isplitl [HoT_dst]; · rw [if_pos hf]; iexact HoT_dst
    isplitl [Ho20_src]; · iexists _; iexact Ho20_src
    isplitl [Ho19_src]; · iexists _; iexact Ho19_src
    isplitl [HoT_src]; · iexists _; iexact HoT_src
    isplitl [Hs3]; · iexact Hs3
    isplitl [Hs4]; · iexact Hs4
    isplitl [Ho20]; · iexact Ho20
    isplitl [Ho19]; · iexact Ho19
    isplitl [HoT]; · iexact HoT
    iexists _; isplitr
    rotate_left
    · iexact HO
    · ipureintro; repeat (first | exact fun p hp => Or.inl hp | apply waits_step)
  · have hc : ¬ condFirst L := fun hc => hf ((condFirst_iff L).mp hc)
    sl_exec (disch := exact hc)
    sl_step
    isplitl [Ht]; · iexact Ht
    isplitl [Ho20_dst]; · iexact Ho20_dst
    isplitl [Hwb]; · rw [if_neg hf]; iexact Hwb
    isplitl [Ho20_src]; · iexists _; iexact Ho20_src
    isplitl [Ho19_src]; · iexists _; iexact Ho19_src
    isplitl [Hb2]; · iexists _; iexact Hb2
    isplitl [Hs3]; · iexact Hs3
    isplitl [Hs4]; · iexact Hs4
    isplitl [Ho20]; · iexact Ho20
    isplitl [Ho19]; · iexact Ho19
    isplitl [Hs7]; · iexact Hs7
    iexists _; isplitr
    rotate_left
    · iexact HO
    · ipureintro; repeat (first | exact fun p hp => Or.inl hp | apply waits_step)

omit [FloatOps F] in
/-- Two halves of a share, joined, in the middle of a list of resources. -/
theorem core_post {A Wa Wb Wab R : sProp 𝕄} (hjoin : iprop(Wa ∗ Wb) ⊢ Wab) : iprop(A ∗ Wa ∗ Wb ∗ R) ⊢ iprop(A ∗ Wab ∗ R) := by
  iintro ⟨HA, Ha, Hb, HR⟩
  isplitl [HA]; · iexact HA
  isplitl [Ha Hb]
  · iapply hjoin
    isplitl [Ha]; · iexact Ha
    iexact Hb
  iexact HR

/-- One worker's whole body: its share of the result is used in two halves, one for the chunks' copies and one for the
    tail's, which may be in flight together; the lanes recorded on the halves add up to everything the worker writes. -/
theorem tile_core (d : Dev nD) (L : grid0.Coords) (ιwm : ℕ) (q : PosShare TreeShare)
    (O : CellTallies nD τ sig (HIx 1)) (W : Waits sig (HIx 1)) (hO : ∀ g, O g none = 0)
    (f0 : Buf (Elt F) ((V d (cV L) (jV L)).loc cc0_scratch0)) (f1 : Buf (Elt F) ((V d (cV L) (jV L)).loc cc0_scratch1)) (f2 : Buf (Elt F) ((V d (cV L) (jV L)).loc cc0_scratch2)) :
    iprop(levAts (K (F := F)).L (K (F := F)).lev ∗ wmInv (Ix := HIx 1) (wemb (F := F)) ιwm
        ∗ ((tW).view.loc (V d (cV L) (jV L)) ↦{q} tT m d)
        ∗ willBeTo (wemb (F := F)) (oLoc d) Finset.univ q (m (oLoc d)) (gT m d) ∅
        ∗ ((b0).view.loc (V d (cV L) (jV L)) ↦{fullShare} f0) ∗ ((b1).view.loc (V d (cV L) (jV L)) ↦{fullShare} f1) ∗ ((b2).view.loc (V d (cV L) (jV L)) ↦{fullShare} f2)
        ∗ semVal (V d (cV L) (jV L), SemLoc.dma cc0_scratch3.sem) 0 ∗ semVal (V d (cV L) (jV L), SemLoc.dma cc0_scratch4.sem) 0
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0
        ∗ owes (V d (cV L) (jV L)) O W)
      ⊢ wp frame (wpE (defs₀ (F := F)) 𝒱₀ (V d (cV L) (jV L)) none) Set.univ
          (cc0__sc_copy_body L tW (Memref.isWhole_whole _) oW (Memref.isWhole_whole _) b0 (Memref.isWhole_whole _) b1 (Memref.isWhole_whole _) b2 (Memref.isWhole_whole _)
            cc0_scratch3 cc0_scratch4 cc0_scratch5 cc0_scratch6 cc0_scratch7)
          fun _ => iprop(((tW).view.loc (V d (cV L) (jV L)) ↦{q} tT m d)
            ∗ willBeTo (wemb (F := F)) (oLoc d) Finset.univ q (m (oLoc d)) (gT m d) (Wtile d L)
            ∗ (∃ f, (b0).view.loc (V d (cV L) (jV L)) ↦{fullShare} f) ∗ (∃ f, (b1).view.loc (V d (cV L) (jV L)) ↦{fullShare} f) ∗ (∃ f, (b2).view.loc (V d (cV L) (jV L)) ↦{fullShare} f)
            ∗ semVal (V d (cV L) (jV L), SemLoc.dma cc0_scratch3.sem) 0 ∗ semVal (V d (cV L) (jV L), SemLoc.dma cc0_scratch4.sem) 0
            ∗ semVal (V d (cV L) (jV L), SemLoc.dma cc0_scratch5.sem) 0 ∗ semVal (V d (cV L) (jV L), SemLoc.dma cc0_scratch6.sem) 0
            ∗ semVal (V d (cV L) (jV L), SemLoc.dma cc0_scratch7.sem) 0
            ∗ ∃ W', ⌜∀ p ∈ W', p ∈ W ∨ p.2 = none⌝ ∗ owes (V d (cV L) (jV L)) O W') := by
  have hsplit := (WriteModeShares.willBeTo_left_right (emb := wemb (F := F)) (ℓ := oLoc d) (I := Finset.univ) (f := m (oLoc d)) (g := gT m d) (Ix := HIx 1) (Name := ℕ) (Lvl := ℕ) q ∅ ∅).1
  rw [Finset.union_empty] at hsplit
  have hjoin : iprop(willBeTo (wemb (F := F)) (oLoc d) Finset.univ q.left (m (oLoc d)) (gT m d) (Wupto d L 21)
        ∗ willBeTo (wemb (F := F)) (oLoc d) Finset.univ q.right (m (oLoc d)) (gT m d) (if IsFirst L then tailSet d else ∅))
      ⊢ (willBeTo (wemb (F := F)) (oLoc d) Finset.univ q (m (oLoc d)) (gT m d) (Wtile d L) : sProp 𝕄) := by
    unfold Wtile
    exact (WriteModeShares.willBeTo_left_right (emb := wemb (F := F)) (ℓ := oLoc d) (I := Finset.univ) (f := m (oLoc d)) (g := gT m d) (Ix := HIx 1) (Name := ℕ) (Lvl := ℕ) q
      (Wupto d L 21) (if IsFirst L then tailSet d else ∅)).2
  iintro ⟨Hlv, Hwm, Ht, Hw, Hrest⟩
  ihave Hw2 := hsplit $$ Hw
  icases Hw2 with ⟨Hwa, Hwb⟩
  iapply (wp_mono frame _ _ (fun _ => core_post hjoin))
  iapply (tile_core2 (F := F) m d L ιwm q q.left q.right O W hO f0 f1 f2)
  isplitl [Hlv]; · iexact Hlv
  isplitl [Hwm]; · iexact Hwm
  isplitl [Ht]; · iexact Ht
  isplitl [Hwa]; · iexact Hwa
  isplitl [Hwb]; · iexact Hwb
  iexact Hrest

end Cert.Proof.KI
end
-- ==== Proof.KITileObl.lean ====
/-
  The launch's obligation for a worker, from the worker's run.

  A worker is handed the launch's levels, the knowledge that the write-mode invariant exists, its piece (a share of the
  transposed table to read, the same share of the result in write mode, nothing written yet), and its scoped storage: its
  buffers at some contents and its semaphores at zero. Among that storage are the three staging buffers and the five
  transfer semaphores the body uses; the rest is carried along untouched. The body's run returns the piece with the
  worker's lanes recorded as written, and the storage as it was handed over.
-/
import proofs.«206677_g74234214744565_cont_9to1_m_856_16_alg».proof.Proof.KIPay
import proofs.«206677_g74234214744565_cont_9to1_m_856_16_alg».proof.Proof.LibWriteModeShares

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

local notation "𝕄" => MT nD τ sig (HIx 1) (Elt F) ℕ (UU (F := F)) ℕ

local notation "tW" => (Memref.whole Cert.KernelIdeal.main_v0_scv : Memref Cert.KernelIdeal.sig Kind.scVector Space.hbm Cert.KernelIdeal.S32x1000000 EltTy.f32)
local notation "oW" => (Memref.whole Cert.KernelIdeal.main_v1_scv : Memref Cert.KernelIdeal.sig Kind.scVector Space.hbm Cert.KernelIdeal.S32x1000000 EltTy.f32)
local notation "b0" => (Memref.whole Cert.KernelIdeal.cc0_scratch0 : Memref Cert.KernelIdeal.sig Kind.scVector Space.vmem Cert.KernelIdeal.S32x1536 EltTy.f32)
local notation "b1" => (Memref.whole Cert.KernelIdeal.cc0_scratch1 : Memref Cert.KernelIdeal.sig Kind.scVector Space.vmem Cert.KernelIdeal.S32x1536 EltTy.f32)
local notation "b2" => (Memref.whole Cert.KernelIdeal.cc0_scratch2 : Memref Cert.KernelIdeal.sig Kind.scVector Space.vmem Cert.KernelIdeal.S32x64 EltTy.f32)

section Storage

variable (d : Dev nD) (L : grid0.Coords)

/-- Two transfer semaphores of one thread are different cells when the semaphores differ. -/
theorem dmaCell_ne (thr : Thread nD τ) {a b : DmaSem sig} (h : a ≠ b) :
    ((thr, SemLoc.dma a) : GSem nD τ sig) ≠ (thr, SemLoc.dma b) :=
  fun e => h (SemLoc.dma.inj (Prod.mk.inj e).2)

/-- A worker's transfer semaphore is one of its own scoped cells. -/
theorem dmaCell_mem (a : DmaSem sig) (h : (SemLoc.dma a : SemLoc sig).isScoped .scVector = true) :
    ((V d (cV L) (jV L), SemLoc.dma a) : GSem nD τ sig) ∈ ownCells (V d (cV L) (jV L)) :=
  mem_ownCells.mpr ⟨rfl, h⟩

/-- The worker's five transfer semaphores are among its own scoped cells: its cells at zero are these five at zero and
    the rest at zero. -/
theorem ownSems0_V :
    (ownSems0 (V d (cV L) (jV L)) : sProp 𝕄)
      = iprop(semVal (V d (cV L) (jV L), SemLoc.dma cc0_scratch3.sem) 0 ∗ semVal (V d (cV L) (jV L), SemLoc.dma cc0_scratch4.sem) 0
          ∗ semVal (V d (cV L) (jV L), SemLoc.dma cc0_scratch5.sem) 0 ∗ semVal (V d (cV L) (jV L), SemLoc.dma cc0_scratch6.sem) 0
          ∗ semVal (V d (cV L) (jV L), SemLoc.dma cc0_scratch7.sem) 0
          ∗ bigSep ((((((ownCells (V d (cV L) (jV L))).erase (V d (cV L) (jV L), SemLoc.dma cc0_scratch3.sem)).erase
              (V d (cV L) (jV L), SemLoc.dma cc0_scratch4.sem)).erase (V d (cV L) (jV L), SemLoc.dma cc0_scratch5.sem)).erase
              (V d (cV L) (jV L), SemLoc.dma cc0_scratch6.sem)).erase (V d (cV L) (jV L), SemLoc.dma cc0_scratch7.sem))
              fun g => semVal g 0) := by
  have m3 := dmaCell_mem d L cc0_scratch3.sem (by decide)
  have m4 := dmaCell_mem d L cc0_scratch4.sem (by decide)
  have m5 := dmaCell_mem d L cc0_scratch5.sem (by decide)
  have m6 := dmaCell_mem d L cc0_scratch6.sem (by decide)
  have m7 := dmaCell_mem d L cc0_scratch7.sem (by decide)
  have n43 := dmaCell_ne (V d (cV L) (jV L)) (show cc0_scratch4.sem ≠ cc0_scratch3.sem by decide)
  have n53 := dmaCell_ne (V d (cV L) (jV L)) (show cc0_scratch5.sem ≠ cc0_scratch3.sem by decide)
  have n54 := dmaCell_ne (V d (cV L) (jV L)) (show cc0_scratch5.sem ≠ cc0_scratch4.sem by decide)
  have n63 := dmaCell_ne (V d (cV L) (jV L)) (show cc0_scratch6.sem ≠ cc0_scratch3.sem by decide)
  have n64 := dmaCell_ne (V d (cV L) (jV L)) (show cc0_scratch6.sem ≠ cc0_scratch4.sem by decide)
  have n65 := dmaCell_ne (V d (cV L) (jV L)) (show cc0_scratch6.sem ≠ cc0_scratch5.sem by decide)
  have n73 := dmaCell_ne (V d (cV L) (jV L)) (show cc0_scratch7.sem ≠ cc0_scratch3.sem by decide)
  have n74 := dmaCell_ne (V d (cV L) (jV L)) (show cc0_scratch7.sem ≠ cc0_scratch4.sem by decide)
  have n75 := dmaCell_ne (V d (cV L) (jV L)) (show cc0_scratch7.sem ≠ cc0_scratch5.sem by decide)
  have n76 := dmaCell_ne (V d (cV L) (jV L)) (show cc0_scratch7.sem ≠ cc0_scratch6.sem by decide)
  unfold SparseCore.Cfg.ownSems0
  rw [SparseCore.bigSep_erase' m3,
    SparseCore.bigSep_erase' (Finset.mem_erase.mpr ⟨n43, m4⟩),
    SparseCore.bigSep_erase' (Finset.mem_erase.mpr ⟨n54, Finset.mem_erase.mpr ⟨n53, m5⟩⟩),
    SparseCore.bigSep_erase' (Finset.mem_erase.mpr ⟨n65, Finset.mem_erase.mpr ⟨n64, Finset.mem_erase.mpr ⟨n63, m6⟩⟩⟩),
    SparseCore.bigSep_erase' (Finset.mem_erase.mpr ⟨n76, Finset.mem_erase.mpr ⟨n75, Finset.mem_erase.mpr ⟨n74, Finset.mem_erase.mpr ⟨n73, m7⟩⟩⟩⟩)]

/-- The three staging buffers are among the worker's own: its buffers at some contents are these three at some contents
    and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Storage

section Tile

variable [FloatOps F] (m : (ℓ : Loc nD τ sig) → Buf (Elt F) ℓ)

/-- The worker's run on its resources spelt out: from the levels, the write-mode invariant, its share of the transposed
    table, its share of the result in write mode with nothing written, its three staging buffers at some contents and its
    five transfer semaphores at zero, the body returns the same with the worker's lanes recorded as written. -/
def TileCore : Prop :=
  ∀ (d : Dev nD) (L : grid0.Coords) (ιwm : ℕ) (q : PosShare TreeShare)
    (O : CellTallies nD τ sig (HIx 1)) (W : Waits sig (HIx 1)) (_ : ∀ g, O g none = 0)
    (f0 : Buf (Elt F) ((V d (cV L) (jV L)).loc cc0_scratch0)) (f1 : Buf (Elt F) ((V d (cV L) (jV L)).loc cc0_scratch1)) (f2 : Buf (Elt F) ((V d (cV L) (jV L)).loc cc0_scratch2)),
    iprop(levAts (K (F := F)).L (K (F := F)).lev ∗ wmInv (Ix := HIx 1) (wemb (F := F)) ιwm
        ∗ ((tW).view.loc (V d (cV L) (jV L)) ↦{q} tT m d)
        ∗ willBeTo (wemb (F := F)) (oLoc d) Finset.univ q (m (oLoc d)) (gT m d) ∅
        ∗ ((b0).view.loc (V d (cV L) (jV L)) ↦{fullShare} f0) ∗ ((b1).view.loc (V d (cV L) (jV L)) ↦{fullShare} f1) ∗ ((b2).view.loc (V d (cV L) (jV L)) ↦{fullShare} f2)
        ∗ semVal (V d (cV L) (jV L), SemLoc.dma cc0_scratch3.sem) 0 ∗ semVal (V d (cV L) (jV L), SemLoc.dma cc0_scratch4.sem) 0
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0
        ∗ owes (V d (cV L) (jV L)) O W)
      ⊢ wp frame (wpE (defs₀ (F := F)) 𝒱₀ (V d (cV L) (jV L)) none) Set.univ
          (cc0__sc_copy_body L tW (Memref.isWhole_whole _) oW (Memref.isWhole_whole _) b0 (Memref.isWhole_whole _) b1 (Memref.isWhole_whole _) b2 (Memref.isWhole_whole _)
            cc0_scratch3 cc0_scratch4 cc0_scratch5 cc0_scratch6 cc0_scratch7)
          fun _ => iprop(((tW).view.loc (V d (cV L) (jV L)) ↦{q} tT m d)
            ∗ willBeTo (wemb (F := F)) (oLoc d) Finset.univ q (m (oLoc d)) (gT m d) (Wtile d L)
            ∗ (∃ f, (b0).view.loc (V d (cV L) (jV L)) ↦{fullShare} f) ∗ (∃ f, (b1).view.loc (V d (cV L) (jV L)) ↦{fullShare} f) ∗ (∃ f, (b2).view.loc (V d (cV L) (jV L)) ↦{fullShare} f)
            ∗ semVal (V d (cV L) (jV L), SemLoc.dma cc0_scratch3.sem) 0 ∗ semVal (V d (cV L) (jV L), SemLoc.dma cc0_scratch4.sem) 0
            ∗ semVal (V d (cV L) (jV L), SemLoc.dma cc0_scratch5.sem) 0 ∗ semVal (V d (cV L) (jV L), SemLoc.dma cc0_scratch6.sem) 0
            ∗ semVal (V d (cV L) (jV L), SemLoc.dma cc0_scratch7.sem) 0
            ∗ ∃ W', ⌜∀ p ∈ W', p ∈ W ∨ p.2 = none⌝ ∗ owes (V d (cV L) (jV L)) O W')

omit [FloatOps F] in
/-- What the run returns and what was carried along, regrouped as the piece, the buffers, the semaphores and the waits. -/
theorem pack_post {A B C0 C1 C2 s3 s4 s5 s6 s7 X BR SR : sProp 𝕄} :
    iprop((A ∗ B ∗ C0 ∗ C1 ∗ C2 ∗ s3 ∗ s4 ∗ s5 ∗ s6 ∗ s7 ∗ X) ∗ BR ∗ SR)
      ⊢ iprop((A ∗ B) ∗ (C0 ∗ C1 ∗ C2 ∗ BR) ∗ (s3 ∗ s4 ∗ s5 ∗ s6 ∗ s7 ∗ SR) ∗ X) := by
  iintro ⟨⟨HA, HB, H0, H1, H2, S3, S4, S5, S6, S7, HX⟩, HBr, HSr⟩
  isplitl [HA HB]
  · isplitl [HA]; · iexact HA
    iexact HB
  isplitl [H0 H1 H2 HBr]
  · isplitl [H0]; · iexact H0
    isplitl [H1]; · iexact H1
    isplitl [H2]; · iexact H2
    iexact HBr
  isplitl [S3 S4 S5 S6 S7 HSr]
  · isplitl [S3]; · iexact S3
    isplitl [S4]; · iexact S4
    isplitl [S5]; · iexact S5
    isplitl [S6]; · iexact S6
    isplitl [S7]; · iexact S7
    iexact HSr
  iexact HX

/-- The worker's run as the launch hands it over: from the levels, the write-mode invariant at some name, the worker's
    piece with nothing written, its scoped storage and its waits, the body returns the piece with the worker's lanes
    written and the scoped storage as it was. -/
theorem tile_body (hcore : TileCore m) (d : Dev nD) (L : grid0.Coords) (q : PosShare TreeShare)
    (O : CellTallies nD τ sig (HIx 1)) (W : Waits sig (HIx 1)) (hO : ∀ g, O g none = 0) :
    iprop(levAts (K (F := F)).L (K (F := F)).lev ∗ wmI (F := F) ∗ piece m d q ∅
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_copy_body L tW (Memref.isWhole_whole _) oW (Memref.isWhole_whole _) b0 (Memref.isWhole_whole _) b1 (Memref.isWhole_whole _) b2 (Memref.isWhole_whole _)
            cc0_scratch3 cc0_scratch4 cc0_scratch5 cc0_scratch6 cc0_scratch7)
          fun _ => iprop(piece m d q (Wtile d L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V d (cV L) (jV L), ownBufs_V, ownSems0_V]
  unfold piece wmI
  iintro ⟨HL, ⟨%ιwm, HI⟩, ⟨Ht, Hw⟩, ⟨⟨%f0, H0⟩, ⟨%f1, H1⟩, ⟨%f2, H2⟩, HBr⟩, ⟨S3, S4, S5, S6, S7, HSr⟩, HO⟩
  iapply (wp_mono frame _ _ (fun _ => pack_post))
  iapply (wp_frame_r frame _ _)
  isplitr [HBr HSr]
  · iapply (hcore d L ιwm q O W hO f0 f1 f2)
    isplitl [HL]; · iexact HL
    isplitl [HI]; · iexact HI
    isplitl [Ht]; · iexact Ht
    isplitl [Hw]; · iexact Hw
    isplitl [H0]; · iexact H0
    isplitl [H1]; · iexact H1
    isplitl [H2]; · iexact H2
    isplitl [S3]; · iexact S3
    isplitl [S4]; · iexact S4
    isplitl [S5]; · iexact S5
    isplitl [S6]; · iexact S6
    isplitl [S7]; · iexact S7
    iexact HO
  · isplitl [HBr]; · iexact HBr
    iexact HSr

end Tile

section Launch

variable [FloatOps F] (m : (ℓ : Loc nD τ sig) → Buf (Elt F) ℓ)

/-- The kernel's entry for a vector subcore is the body at the subcore's grid point, on the whole arrays and the
    subcore's scratch. -/
theorem defs₀_vector (c : Fin τ.nSC) (s : Fin τ.nSub) :
    defs₀ (F := F) (.scVector c s) 0 ()
      = SparseCore.onTile hcore0 hsub0 (fun c s => cc0__sc_copy_body (coordsV c s)
          tW (Memref.isWhole_whole _) oW (Memref.isWhole_whole _) b0 (Memref.isWhole_whole _) b1 (Memref.isWhole_whole _) b2 (Memref.isWhole_whole _)
          cc0_scratch3 cc0_scratch4 cc0_scratch5 cc0_scratch6 cc0_scratch7) ⟨⟩ c s := rfl

omit [FloatOps F] in
/-- The waits left are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the kernel's tasks: each vector subcore of the grid, handed its piece, returns
    it with its lanes written. -/
theorem tileObl (hcore : TileCore m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hcore d (coordsV ⟨_, hc.1⟩ ⟨_, hc.2⟩) (qT (Fin.cast nCore_zero c) (Fin.cast nSub_zero i)) O W hO).trans (wp_mono frame _ _ fun _ => obl_post)

end Launch

end Cert.Proof.KI

end
-- ==== Proof.KILaunchA.lean ====
/-
  The launch's share bookkeeping.

  A SparseCore's piece (a share of the transposed table to read, the same share of the result in write mode) splits
  into sixteen pieces, one per worker, and a remainder; the workers' pieces, each with the lanes its worker has
  written recorded, join with the remainder into the SparseCore's piece with all those lanes recorded. At the launch
  the write-mode invariant is allocated from the ghost state's write-mode component, and, being persistent, is told to
  every device and every thread.
-/
import proofs.«206677_g74234214744565_cont_9to1_m_856_16_alg».proof.Proof.KIPay
import proofs.«206677_g74234214744565_cont_9to1_m_856_16_alg».proof.Proof.LibWriteModeShares

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.WriteModeShares

variable {F : FTy → Type}

local notation "𝕄" => MT nD τ sig (HIx 1) (Elt F) ℕ (UU (F := F)) ℕ

variable (m : (ℓ : Loc nD τ sig) → Buf (Elt F) ℓ) (ρ : Dev nD → PrngReg)

/-! ## A SparseCore's piece and its workers' -/

/-- A family over the sixteen workers, indexed through the call's task numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A piece at share `q` with nothing written is sixteen pieces at the token shares of `q` with nothing written, and a
    remainder; the remainder and sixteen pieces at the token shares, the `i`-th with the lanes `Wt i` written, are a piece
    at `q` with all the `Wt i` written. -/
theorem piece_split (d : Dev nD) (q : PosShare TreeShare) (Wt : Fin 16 → Finset (Idx (oLoc d))) :
    piece m d q ∅ ⊢ iprop((bigSep Finset.univ fun i : Fin 16 => piece m d (shareTok q 16 i) ∅)
      ∗ ((bigSep Finset.univ fun i : Fin 16 => piece m d (shareTok q 16 i) (Wt i))
          -∗ piece m d q (∅ ∪ Finset.univ.biUnion Wt))) := by
  unfold piece
  rw [bigSep_sep', bigSep_sep']
  iintro ⟨Ht, Hw⟩
  ihave Ht' := (Transfers.pointsTo_toks_split q 16) $$ Ht
  icases Ht' with ⟨Htd, Hts⟩
  ihave Hw' := (willBeTo_toks_split q 16) $$ Hw
  icases Hw' with ⟨Hwd, Hws⟩
  isplitl [Hts Hws]
  · isplitl [Hts]; · iexact Hts
    iexact Hws
  iintro ⟨Hts, Hws⟩
  isplitl [Htd Hts]
  · iapply (Transfers.pointsTo_toks_join q 16)
    isplitl [Htd] <;> iassumption
  · iapply (willBeTo_toks_join q 16 ∅ Wt)
    isplitl [Hwd] <;> iassumption

/-- The call's split: what a SparseCore is started with is what its sixteen workers are sent, and what they send back
    is what the SparseCore reports. -/
theorem vecSplit : (K (F := F)).VecSplit' (P m) 0 := by
  intro d c
  show piece m d (qC (Fin.cast nCore_zero c)) ∅ ⊢ |={Set.univ}=> iprop(
      (bigSep Finset.univ fun i : Fin ((K (F := F)).nSub 0) => piece m d (qT (Fin.cast nCore_zero c) (Fin.cast nSub_zero i)) ∅)
      ∗ ((bigSep Finset.univ fun i : Fin ((K (F := F)).nSub 0) =>
            piece m d (qT (Fin.cast nCore_zero c) (Fin.cast nSub_zero i)) (Wtile d (LV (Fin.cast nCore_zero c) (Fin.cast nSub_zero i))))
          -∗ piece m d (qC (Fin.cast nCore_zero c)) (Wcore d (Fin.cast nCore_zero c))))
  generalize Fin.cast nCore_zero c = c'
  rw [bigSep_tasks (F := F) (fun i => piece m d (qT c' i) ∅), bigSep_tasks (F := F) (fun i => piece m d (qT c' i) (Wtile d (LV c' i)))]
  iintro H
  imodintro
  iapply (piece_split m d (qC c') (fun i => Wtile d (LV c' i)))
  iexact H

/-! ## The launch element of the ghost state -/

/-- The ghost state at launch: the handshakes' rounds funded, no element in write mode, no counter. -/
def u₀ : UU (F := F) := (initOf (K (F := F)).hsCells (K (F := F)).hsToks, (wm₀ nD τ sig (Elt F), 1))

/-- The write-mode invariant, once it exists, is told to every device and to every thread for the one call. -/
theorem wmI_deal : (wmI (F := F) : sProp 𝕄) ⊢ iprop((bigSep Finset.univ fun _ : Dev nD => (wmI (F := F) : sProp 𝕄))
    ∗ bigSep Finset.univ fun thr : Thread nD τ => bigSep Finset.univ fun q : Fin 1 => (P m).x q thr) := by
  have e : ∀ thr : Thread nD τ, (bigSep Finset.univ fun q : Fin 1 => (P m).x q thr) = (wmI (F := F) : sProp 𝕄) :=
    fun thr => bigSep_univ_of_subsingleton (0 : Fin 1)
  rw [bigSep_congr fun thr _ => e thr]
  iintro #H
  isplitr
  · iapply (bigSep_of_persistent Finset.univ (wmI (F := F) : sProp 𝕄)); iexact H
  · iapply (bigSep_of_persistent Finset.univ (wmI (F := F) : sProp 𝕄)); iexact H

/-- From the launch element: the handshakes' rounds; the write-mode invariant, allocated from the write-mode component
    with nothing in write mode, for every device and every thread. -/
theorem hu₀ : (ownU (u₀ (F := F)) : sProp 𝕄)
    ⊢ |={Set.univ}=> iprop(BI.own (EH (initOf (K (F := F)).hsCells (K (F := F)).hsToks)) ∗ (bigSep Finset.univ fun _ : Dev nD => (wmI (F := F) : sProp 𝕄))
        ∗ bigSep Finset.univ fun thr : Thread nD τ => bigSep Finset.univ fun q : Fin 1 => (P m).x q thr) := by
  unfold u₀
  iintro Hu
  ihave H := (ownU_pair _ _) $$ Hu
  icases H with ⟨HH, HW⟩
  ihave HW' := (show (BI.own (embR (wm₀ nD τ sig (Elt F), (1 : Counters))) : sProp 𝕄) ⊢ ownU ((wemb (F := F)) (wm₀ nD τ sig (Elt F)))
    from Entails.of_eq rfl) $$ HW
  imod (wmInv_alloc (emb := wemb (F := F)) (⟨m, fun _ => 0, fun _ => default⟩ : MemSt nD τ sig (Elt F))) $$ HW' with ⟨%ιwm, -, #Hwi⟩
  imodintro
  isplitl [HH]; · iexact HH
  iapply (wmI_deal m)
  unfold wmI; iexists ιwm; iexact Hwi

end Cert.Proof.KI

end
-- ==== Proof.LibChunkCover.lean ====
/-
  The chunks of the workers cover the lanes below 999936.

  Lanes are grouped in chunks of 1536 consecutive lanes; the lanes below
  999936 = 651 * 1536 are the chunks 0 … 650. Worker `w < 32` handles the 21
  consecutive chunks `630 * w / 31 + r`, `r < 21` (natural-number division).
  The first chunks `630 * w / 31` start at 0, grow by at most 21 from one
  worker to the next, and end at 630, so every chunk 0 … 650 is handled by
  some worker, and no worker's chunk goes past chunk 650.
-/
import Mathlib.Data.Nat.Notation

namespace ChunkCover

/-- Every chunk `j < 651` is chunk `r < 21` of some worker `w < 32`: take the
    last worker whose first chunk `630 * w / 31` is at most `j`, which is
    `(31 * j + 30) / 630` (or 31, for the last chunk); as first chunks grow by
    at most 21, `j` is within 20 of it. -/
theorem chunk_worker (j : ℕ) (hj : j < 651) :
    ∃ w : ℕ, w < 32 ∧ 630 * w / 31 ≤ j ∧ j < 630 * w / 31 + 21 := by
  by_cases h : j = 650
  · exact ⟨31, by omega, by omega, by omega⟩
  · exact ⟨(31 * j + 30) / 630, by omega, by omega, by omega⟩

/-- Every lane below 999936 lies in one of the 21 chunks of one of the 32
    workers. -/
theorem chunk_cover (l : ℕ) (hl : l < 999936) :
    ∃ w : Fin 32, ∃ r : Fin 21,
      1536 * (630 * w.val / 31 + r.val) ≤ l ∧ l < 1536 * (630 * w.val / 31 + r.val) + 1536 := by
  -- the chunk holding lane `l`, and a worker handling it
  obtain ⟨w, hw, hlo, hhi⟩ := chunk_worker (l / 1536) (by omega)
  refine ⟨⟨w, hw⟩, ⟨l / 1536 - 630 * w / 31, by omega⟩, ?_, ?_⟩
  · show 1536 * (630 * w / 31 + (l / 1536 - 630 * w / 31)) ≤ l
    omega
  · show l < 1536 * (630 * w / 31 + (l / 1536 - 630 * w / 31)) + 1536
    omega

/-- No worker's chunk goes past lane 999936: its last chunk is at most chunk
    `630 + 20 = 650`. -/
theorem chunk_inb (w : Fin 32) (r : Fin 21) :
    1536 * (630 * w.val / 31 + r.val) + 1536 ≤ 999936 := by
  have hw := w.isLt
  have hr := r.isLt
  omega

end ChunkCover
-- ==== Proof.KICover.lean ====
/-
  The workers' written sets cover the result.

  Worker number w = 2·(L 1) + (L 0) of the 32 workers copies the 21 chunks of 1536 lanes numbered ⌊630·w / 31⌋ + r,
  r < 21; worker 0 also copies the last 64 lanes. The lane offset of a chunk is computed in 32-bit words; no step of
  that computation wraps, so the offset is the natural number 1536·(⌊(1260·(L 1) + 630·(L 0)) / 31⌋ + r). The chunks
  of all workers cover the lanes below 999936 = 651·1536, the last 64 lanes cover the rest up to 1000000, and a chunk
  takes all 32 rows: every element of the result lies in some worker's written set.
-/
import proofs.«206677_g74234214744565_cont_9to1_m_856_16_alg».proof.Proof.KIPay
import proofs.«206677_g74234214744565_cont_9to1_m_856_16_alg».proof.Proof.LibChunkCover
import Idealize.ShloMosaic.Lib.Affine

noncomputable section

namespace Cert.Proof.KI

open Cert.KernelIdeal Cert.KernelIdeal.Gen

open Idealize.ShloMosaic

variable {F : FTy → Type}

/-- The lane offset of chunk r of the worker at grid point L. The 32-bit computation forms w = 2·(L 1) + (L 0) ≤ 31,
    then 630·w ≤ 19530, its floor quotient by 31 (the dividend is nonnegative and the divisor positive, so the
    correction the floor-division expansion applies to a truncated quotient of operands of opposite signs never
    fires), adds r and multiplies by 1536; the result is below 2³¹ at every step, so the words' values are these
    natural numbers. -/
theorem k0_off1_val (L : grid0.Coords) (r : Fin 21) :
    k0_off1 L (BitVec.ofNat 32 r.val) = ![0, 1536 * ((1260 * (L 1).val + 630 * (L 0).val) / 31 + r.val)] := by
  have r_r : r.val < 21 := r.isLt
  have h_c0_i32_4 : Affine.IsInt (BitVec.ofNat 32 r.val) ((r.val : Int)) := Affine.ofNat _ (by omega)
  have r_i1 : (L 1).val < 16 := (L 1).isLt
  have h_arg1 : Affine.IsInt (BitVec.ofNat 32 (L 1).val) (((L 1).val : Int)) := Affine.ofNat _ (by omega)
  have h_c2_i32 : Affine.IsInt 2#32 (2) := Affine.ofNat _ (by omega)
  have h_v0 : Affine.IsInt _ (2 * ((L 1).val : Int)) := Affine.muli h_arg1 h_c2_i32 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c630_i32 : Affine.IsInt 630#32 (630) := Affine.ofNat _ (by omega)
  have h_v2 : Affine.IsInt _ (1260 * ((L 1).val : Int) + 630 * ((L 0).val : Int)) := Affine.muli h_v1 h_c630_i32 (by omega)
  have h_c0_i32 : Affine.IsInt 0#32 (0) := Affine.ofNat _ (by omega)
  have h_c31_i32 : Affine.IsInt 31#32 (31) := Affine.ofNat _ (by omega)
  have h_c1_i32 : Affine.IsInt 1#32 (1) := Affine.ofNat _ (by omega)
  have h_c1536_i32 : Affine.IsInt 1536#32 (1536) := Affine.ofNat _ (by omega)
  -- the sign of the divisor: 1, so the two signs differ exactly when the dividend's sign is not 1
  have h_v9 : Affine.Holds _ := Affine.sgt_holds h_c31_i32 h_c0_i32 (by omega)
  have h_v10 : Affine.IsInt _ (1) := Affine.extui_holds h_v9 (by omega)
  have h_v11 : Affine.Fails _ := Affine.slt_fails h_c31_i32 h_c0_i32 (by omega)
  have h_v12 : Affine.IsInt _ (0) := Affine.extui_fails h_v11 (by omega)
  have h_v13 : Affine.IsInt _ (1) := Affine.subi h_v10 h_v12 (by omega)
  have h_v6 : Affine.Fails _ := Affine.slt_fails h_v2 h_c0_i32 (by omega)
  have h_v7 : Affine.IsInt _ (0) := Affine.extui_fails h_v6 (by omega)
  have h_v3 : Affine.IsInt _ (((1260 * ((L 1).val : Int) + 630 * ((L 0).val : Int)) / 31)) := Affine.divsi h_v2 h_c31_i32 (by omega)
  have h_v18 : Affine.IsInt _ (((1260 * ((L 1).val : Int) + 630 * ((L 0).val : Int)) / 31) - 1) := Affine.subi h_v3 h_c1_i32 (by omega)
  -- the value read as a natural number
  have hval : ((1536 * ((1260 * ((L 1).val : Int) + 630 * ((L 0).val : Int)) / 31) + 1536 * (r.val : Int)) : Int)
      = ((1536 * ((1260 * (L 1).val + 630 * (L 0).val) / 31 + r.val) : Nat) : Int) := by
    push_cast; omega
  rcases (show 1260 * ((L 1).val : Int) + 630 * ((L 0).val : Int) ≤ 0 ∨ 1 ≤ 1260 * ((L 1).val : Int) + 630 * ((L 0).val : Int) by omega) with hs | hs
  · -- the dividend is 0: its sign is 0, the signs differ, but the remainder is 0
    have h_v4 : Affine.Fails _ := Affine.sgt_fails h_v2 h_c0_i32 (by omega)
    have h_v5 : Affine.IsInt _ (0) := Affine.extui_fails h_v4 (by omega)
    have h_v8 : Affine.IsInt _ (0) := Affine.subi h_v5 h_v7 (by omega)
    have h_v14 : Affine.Holds _ := Affine.ne_holds h_v8 h_v13 (by omega)
    have h_v15 : Affine.IsInt _ (1260 * ((L 1).val : Int) + 630 * ((L 0).val : Int)) := Affine.remsi h_v2 h_c31_i32 (by omega)
    have h_v16 : Affine.Fails _ := Affine.ne_fails h_v15 h_c0_i32 (by omega)
    have h_v17 : Affine.Fails _ := Affine.andi_fails_right (Affine.tH h_v14) h_v16
    have h_v19 : Affine.IsInt _ (((1260 * ((L 1).val : Int) + 630 * ((L 0).val : Int)) / 31)) := Affine.select_fails h_v17 h_v18 h_v3 (by omega)
    have h_v20 : Affine.IsInt _ (((1260 * ((L 1).val : Int) + 630 * ((L 0).val : Int)) / 31) + (r.val : Int)) := Affine.addi h_v19 h_c0_i32_4 (by omega)
    have h_v21 : Affine.IsInt _ (1536 * ((1260 * ((L 1).val : Int) + 630 * ((L 0).val : Int)) / 31) + 1536 * (r.val : Int)) := Affine.muli h_v20 h_c1536_i32 (by omega)
    exact congrArg (fun n : Nat => ![0, n]) (Affine.nat_eq h_v21 _ hval)
  · -- the dividend is positive: its sign is 1, the same as the divisor's
    have h_v4 : Affine.Holds _ := Affine.sgt_holds h_v2 h_c0_i32 (by omega)
    have h_v5 : Affine.IsInt _ (1) := Affine.extui_holds h_v4 (by omega)
    have h_v8 : Affine.IsInt _ (1) := Affine.subi h_v5 h_v7 (by omega)
    have h_v14 : Affine.Fails _ := Affine.ne_fails h_v8 h_v13 (by omega)
    have h_v15 : Affine.IsInt _ (((1260 * ((L 1).val : Int) + 630 * ((L 0).val : Int)) % 31)) := Affine.remsi h_v2 h_c31_i32 (by omega)
    have h_v16 : Affine.Term _ := Affine.cmpi_term .ne h_v15 h_c0_i32
    have h_v17 : Affine.Fails _ := Affine.andi_fails_left h_v14 h_v16
    have h_v19 : Affine.IsInt _ (((1260 * ((L 1).val : Int) + 630 * ((L 0).val : Int)) / 31)) := Affine.select_fails h_v17 h_v18 h_v3 (by omega)
    have h_v20 : Affine.IsInt _ (((1260 * ((L 1).val : Int) + 630 * ((L 0).val : Int)) / 31) + (r.val : Int)) := Affine.addi h_v19 h_c0_i32_4 (by omega)
    have h_v21 : Affine.IsInt _ (1536 * ((1260 * ((L 1).val : Int) + 630 * ((L 0).val : Int)) / 31) + 1536 * (r.val : Int)) := Affine.muli h_v20 h_c1536_i32 (by omega)
    exact congrArg (fun n : Nat => ![0, n]) (Affine.nat_eq h_v21 _ hval)

/-- The elements under chunk r of the worker at L are the rectangle's: the slice is of the whole array. -/
theorem chunkSet_eq (d : Dev nD) (L : grid0.Coords) (r : Fin 21) : chunkSet d L r = (chunkR L r).set := by
  show ((View.whole (main_v1_scv : Ref sig .scVector)).slice (chunkR L r)).set = _
  rw [View.set_slice]; exact Finset.map_refl

/-- The elements under the last 64 lanes are that rectangle's. -/
theorem tailSet_eq (d : Dev nD) : tailSet d = tailR.set := by
  show ((View.whole (main_v1_scv : Ref sig .scVector)).slice tailR).set = _
  rw [View.set_slice]; exact Finset.map_refl

/-- An element lies under chunk r of the worker at L when its lane is one of the chunk's 1536: the chunk takes all
    32 rows. -/
theorem mem_chunkSet (d : Dev nD) (L : grid0.Coords) (r : Fin 21) (i : Idx (oLoc d))
    (hlo : 1536 * ((1260 * (L 1).val + 630 * (L 0).val) / 31 + r.val) ≤ (i 1).val)
    (hhi : (i 1).val < 1536 * ((1260 * (L 1).val + 630 * (L 0).val) / 31 + r.val) + 1536) : i ∈ chunkSet d L r := by
  rw [chunkSet_eq]
  refine Rect.mem_set_unit.mpr ?_
  rw [k0_off1_val]
  refine Fin.forall_fin_two.mpr ⟨⟨Nat.zero_le _, ?_⟩, ⟨hlo, hhi⟩⟩
  have h0 : (i 0).val < 32 := (i 0).isLt
  show (i 0).val < 0 + 32
  omega

/-- An element lies under the last 64 lanes when its lane is 999936 or later. -/
theorem mem_tailSet (d : Dev nD) (i : Idx (oLoc d)) (h : 999936 ≤ (i 1).val) : i ∈ tailSet d := by
  rw [tailSet_eq]
  refine Rect.mem_set_unit.mpr ?_
  refine Fin.forall_fin_two.mpr ⟨⟨Nat.zero_le _, ?_⟩, ⟨h, ?_⟩⟩
  · have h0 : (i 0).val < 32 := (i 0).isLt
    show (i 0).val < 0 + 32
    omega
  · have h1 : (i 1).val < 1000000 := (i 1).isLt
    show (i 1).val < 999936 + 64
    omega

/-- Each of a worker's 21 chunks is among its first k, for k past the chunk's number. -/
theorem chunkSet_subset_Wupto (d : Dev nD) (L : grid0.Coords) (r : Fin 21) :
    ∀ k, r.val < k → k ≤ 21 → chunkSet d L r ⊆ Wupto d L k
  | 0, h, _ => absurd h (Nat.not_lt_zero _)
  | k + 1, h, hk => by
    rw [Wupto_succ d L k (by omega)]
    rcases Nat.lt_succ_iff_lt_or_eq.mp h with h' | h'
    · exact (chunkSet_subset_Wupto d L r k h' (by omega)).trans Finset.subset_union_left
    · obtain ⟨rv, hr⟩ := r
      simp only at h'
      subst h'
      exact Finset.subset_union_right

/-- Every element (row, lane) of the result lies in some worker's written set. A lane below 999936 lies in chunk r of
    some worker w < 32, the worker at grid point (w mod 2, ⌊w / 2⌋), as 630·w = 1260·⌊w / 2⌋ + 630·(w mod 2); a later
    lane is one of the last 64, which worker 0 writes. -/
theorem cover (d : Dev nD) :
    (∅ : Finset (Idx (oLoc d))) ∪ Finset.univ.biUnion (fun c : Fin 2 => Wcore d c) = Finset.univ := by
  rw [Finset.empty_union]
  refine Finset.eq_univ_iff_forall.mpr fun i => ?_
  by_cases hl : (i 1).val < 999936
  · obtain ⟨w, r, hlo, hhi⟩ := ChunkCover.chunk_cover (i 1).val hl
    have hw := w.isLt
    have hc : w.val % 2 < 2 := Nat.mod_lt _ (by decide)
    have hs : w.val / 2 < 16 := by omega
    refine Finset.mem_biUnion.mpr ⟨⟨w.val % 2, hc⟩, Finset.mem_univ _, ?_⟩
    refine Finset.mem_union_right _ (Finset.mem_biUnion.mpr ⟨⟨w.val / 2, hs⟩, Finset.mem_univ _, ?_⟩)
    refine Finset.mem_union_left _ (chunkSet_subset_Wupto d _ r 21 r.isLt (Nat.le_refl _) ?_)
    refine mem_chunkSet d _ r i ?_ ?_
    · show 1536 * ((1260 * (w.val / 2) + 630 * (w.val % 2)) / 31 + r.val) ≤ (i 1).val
      omega
    · show (i 1).val < 1536 * ((1260 * (w.val / 2) + 630 * (w.val % 2)) / 31 + r.val) + 1536
      omega
  · refine Finset.mem_biUnion.mpr ⟨0, Finset.mem_univ _, ?_⟩
    refine Finset.mem_union_right _ (Finset.mem_biUnion.mpr ⟨0, Finset.mem_univ _, ?_⟩)
    refine Finset.mem_union_right _ ?_
    rw [if_pos (show IsFirst (LV 0 0) from ⟨rfl, rfl⟩)]
    exact mem_tailSet d i (by omega)

end Cert.Proof.KI

end
-- ==== Proof.KILaunchB.lean ====
/-
  @main on the TensorCore.

  The first host operation leaves the table transposed in the kernel's operand. The result array enters write mode with
  the transposed table as every element's target; the operand and the result array are split in a remainder and one
  piece per SparseCore; the call takes the pieces and brings them back with the lanes written recorded; the pieces and
  the remainder join, every lane is recorded as written, and the result array leaves write mode holding the transposed
  table. The second host operation transposes it back: the program's result is the table.
-/
import proofs.«206677_g74234214744565_cont_9to1_m_856_16_alg».proof.Proof.KIPay
import proofs.«206677_g74234214744565_cont_9to1_m_856_16_alg».proof.Proof.LibWriteModeShares
import proofs.«206677_g74234214744565_cont_9to1_m_856_16_alg».proof.Proof.KILaunchA
import proofs.«206677_g74234214744565_cont_9to1_m_856_16_alg».proof.Proof.KICover
import Idealize.ShloMosaic.Lib.ValueLayout
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.WriteModeShares
open Idealize.ShloMosaic.ValueIdx (ix2 eq_ix2 transpose_ix2_apply)
open Idealize.ShloMosaic.StableHlo (held held_split held_sdiff_result wp_hlo_within)

variable {F : FTy → Type}

local notation "𝕄" => MT nD τ sig (HIx 1) (Elt F) ℕ (UU (F := F)) ℕ

variable (m : (ℓ : Loc nD τ sig) → Buf (Elt F) ℓ) (ρ : Dev nD → PrngReg)

/-! ## The TensorCore's arrays -/

abbrev a' : DevRef τ sig := Proc.devRef .tc (main_arg0 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped: the table, its transpose, the copy, the copy transposed back. -/
abbrev S4 : Finset (DevRef τ sig) := {a', t', o', r'}

/-- The two host operations. -/
abbrev opT1 : HloOp τ sig (Elt F) :=
  StableHlo.unary main_arg0 main_v0 ((transpose S32x1000000 [1, 0] · transposes_S1000000x32_S32x1000000_1_0) :
    (⟨S1000000x32, .f32⟩ : BufTy).Contents (Elt F) → (⟨S32x1000000, .f32⟩ : BufTy).Contents (Elt F))
abbrev opT2 : HloOp τ sig (Elt F) :=
  StableHlo.unary main_v1 main_v2 ((transpose S1000000x32 [1, 0] · transposes_S32x1000000_S1000000x32_1_0) :
    (⟨S32x1000000, .f32⟩ : BufTy).Contents (Elt F) → (⟨S1000000x32, .f32⟩ : BufTy).Contents (Elt F))

theorem held_S4 (d : Dev nD) (W : Valuation τ sig (Elt F)) :
    (held (T d) S4 W : sProp 𝕄) = iprop((aLoc d ↦{fullShare} W a') ∗ (tLoc d ↦{fullShare} W t') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hT1 : (opT1 (F := F)).bufs ⊆ S4 := show ({a', t'} : Finset (DevRef τ sig)) ⊆ S4 by decide
theorem hT2 : (opT2 (F := F)).bufs ⊆ S4 := show ({o', r'} : Finset (DevRef τ sig)) ⊆ S4 by decide

variable [FloatOps F]

/-- After the first host operation: the operand holds the transposed table, the other arrays are as at launch. -/
theorem held_V1 (d : Dev nD) :
    (held (T d) S4 ((opT1 (F := F)).result (V0 m d)) : sProp 𝕄)
      = iprop((aLoc d ↦{fullShare} m (aLoc d)) ∗ (tLoc d ↦{fullShare} tT m d) ∗ (oLoc d ↦{fullShare} m (oLoc d)) ∗ rLoc d ↦{fullShare} m (rLoc d)) := by
  rw [held_S4,
    (opT1 (F := F)).result_of_not_mem (V0 m d) (b := a') (show a' ∉ ({t'} : Finset (DevRef τ sig)) by decide),
    (opT1 (F := F)).result_of_not_mem (V0 m d) (b := o') (show o' ∉ ({t'} : Finset (DevRef τ sig)) by decide),
    (opT1 (F := F)).result_of_not_mem (V0 m d) (b := r') (show r' ∉ ({t'} : Finset (DevRef τ sig)) by decide)]
  rfl

/-- A family over the two SparseCores, indexed through the call's grid. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back: their shares of the operand, and of the result
    array in write mode, nothing written before and each SparseCore's lanes written after. -/
theorem st0_eq (d : Dev nD) : (bigSep Finset.univ fun c : Fin ((K (F := F)).nCore 0) => (P m).st 0 d c)
    = iprop((bigSep Finset.univ fun c : Fin 2 => tLoc d ↦{qC c} tT m d)
        ∗ bigSep Finset.univ fun c : Fin 2 => willBeTo (wemb (F := F)) (oLoc d) Finset.univ (qC c) (m (oLoc d)) (gT m d) ∅) := by
  show (bigSep Finset.univ fun c : Fin ((K (F := F)).nCore 0) => piece m d (qC (Fin.cast nCore_zero c)) ∅) = _
  rw [bigSep_cores (F := F) (fun c => piece m d (qC c) ∅)]
  unfold piece
  rw [bigSep_sep']
theorem dn0_eq (d : Dev nD) : (bigSep Finset.univ fun c : Fin ((K (F := F)).nCore 0) => (P m).dn 0 d c)
    = iprop((bigSep Finset.univ fun c : Fin 2 => tLoc d ↦{qC c} tT m d)
        ∗ bigSep Finset.univ fun c : Fin 2 => willBeTo (wemb (F := F)) (oLoc d) Finset.univ (qC c) (m (oLoc d)) (gT m d) (Wcore d c)) := by
  show (bigSep Finset.univ fun c : Fin ((K (F := F)).nCore 0) => piece m d (qC (Fin.cast nCore_zero c)) (Wcore d (Fin.cast nCore_zero c))) = _
  rw [bigSep_cores (F := F) (fun c => piece m d (qC c) (Wcore d c))]
  unfold piece
  rw [bigSep_sep']

/-- The valuation before the second host operation: the operand and the result array both hold the transposed table. -/
def V2 (d : Dev nD) : Valuation τ sig (Elt F) := Function.update (Function.update (V0 m d) t' (tT m d)) o' (tT m d)

theorem V2_a (d : Dev nD) : V2 m d a' = m (aLoc d) := by
  unfold V2; rw [Function.update_of_ne (show a' ≠ o' by decide), Function.update_of_ne (show a' ≠ t' by decide)]; rfl
theorem V2_t (d : Dev nD) : V2 m d t' = tT m d := by
  unfold V2; rw [Function.update_of_ne (show t' ≠ o' by decide), Function.update_self]
theorem V2_o (d : Dev nD) : V2 m d o' = tT m d := Function.update_self _ _ _
theorem V2_r (d : Dev nD) : V2 m d r' = m (rLoc d) := by
  unfold V2; rw [Function.update_of_ne (show r' ≠ o' by decide), Function.update_of_ne (show r' ≠ t' by decide)]; rfl

/-- The transposed table transposed back is the table. -/
theorem tT_back (d : Dev nD) (i : S1000000x32.Idx) :
    (transpose S1000000x32 [1, 0] (tT m d) transposes_S32x1000000_S1000000x32_1_0 : S1000000x32.Idx → Elt F .f32) i
      = (m (aLoc d) : S1000000x32.Idx → Elt F .f32) i := by
  have e : i = ix2 (n0 := 1000000) (n1 := 32) (i 0) (i 1) := eq_ix2 i
  have h1 : (transpose S1000000x32 [1, 0] (tT m d) transposes_S32x1000000_S1000000x32_1_0 : S1000000x32.Idx → Elt F .f32) (ix2 (i 0) (i 1))
      = (tT m d : S32x1000000.Idx → Elt F .f32) (ix2 (i 1) (i 0)) :=
    transpose_ix2_apply (a := 32) (b := 1000000) _ _ (i 0) (i 1)
  have h2 : (tT m d : S32x1000000.Idx → Elt F .f32) (ix2 (i 1) (i 0)) = (m (aLoc d) : S1000000x32.Idx → Elt F .f32) (ix2 (i 0) (i 1)) :=
    transpose_ix2_apply (a := 1000000) (b := 32) _ _ (i 1) (i 0)
  rw [e]; exact h1.trans h2

/-- After the second host operation: the table still at its launch contents, the program's result the transposed table
    transposed back. -/
theorem held_V3 (d : Dev nD) :
    (held (T d) S4 ((opT2 (F := F)).result (V2 m d)) : sProp 𝕄)
      ⊢ iprop((aLoc d ↦{fullShare} m (aLoc d))
          ∗ rLoc d ↦{fullShare} ((transpose S1000000x32 [1, 0] (tT m d) transposes_S32x1000000_S1000000x32_1_0 : S1000000x32.Idx → Elt F .f32))) := by
  rw [held_S4,
    (opT2 (F := F)).result_of_not_mem (V2 m d) (b := a') (show a' ∉ ({r'} : Finset (DevRef τ sig)) by decide), V2_a,
    show (opT2 (F := F)).result (V2 m d) r' = _ from StableHlo.unary_result _ _ _ _ _ _, V2_o]
  iintro ⟨Ha, -, -, Hr⟩
  isplitl [Ha]; · iexact Ha
  iexact Hr

/-- What @main leaves the claim: the table at its launch contents, and the program's result holding the table's entries. -/
abbrev FIN (d : Dev nD) : sProp 𝕄 :=
  iprop((aLoc d ↦{fullShare} m (aLoc d))
    ∗ ∃ f : Buf (Elt F) (rLoc d), ⌜∀ i : S1000000x32.Idx, (f : S1000000x32.Idx → Elt F .f32) i = (m (aLoc d) : S1000000x32.Idx → Elt F .f32) i⌝
        ∗ rLoc d ↦{fullShare} f)

/-- @main on device `d`'s TensorCore: the first
    transpose; the result array into write mode towards the transposed table; the call, on a share each of the operand
    and of the result array; every lane written (the two SparseCores' lanes cover the result array), the result array
    out of write mode at the transposed table; the second
    transpose, whose result reads, at every index, the table's entry. -/
theorem hmain (κ : GSem nD τ sig → ℕ) (d : Dev nD) :
    iprop((K (F := F)).ctx EH (P m) κ ∗ (K (F := F)).tcSt EH d 0 ∗ (K (F := F)).tcRes m ρ d ∗ (wmI (F := F) : sProp 𝕄))
      ⊢ wp frame (wpE ((K (F := F)).defs (D (F := F))) 𝒱 (SparseCore.T d) none) Set.univ (main d)
          fun _ => iprop((K (F := F)).tcSt EH d 1 ∗ FIN m d) := by
  unfold SparseCore.Cfg.tcRes wmI
  rw [unscoped_held]
  simp only [main, wp_bind, wp_pure]
  iintro ⟨#Hctx, Hst, ⟨Hb, Hheld, -, -⟩, ⟨%ιwm, #Hwi⟩⟩
  iapply (wp_hlo_within 𝒱 (SparseCore.T d) none Set.univ (op := opT1) (S := S4) hT1 (V := V0 m d)) $$ [Hb Hheld]
  · isplitl [Hb]; · iexact Hb
    iexact Hheld
  iintro ⟨Hb, Hheld⟩
  -- the operand holds the transposed table
  ihave Hh := (Entails.of_eq (held_V1 (F := F) m d)) $$ Hheld
  icases Hh with ⟨Ha, Ht, Ho, Hr⟩
  rw [wp_ret]
  -- the result array enters write mode, every element's target the transposed table's
  imod (pointsTo_castIn (emb := wemb (F := F)) (ιwm := ιwm) (E := Set.univ) (ℓ := oLoc d) (I := Finset.univ) (f := m (oLoc d)) (gT m d)) $$ [Ho] with Hw
  · isplitr; · iexact Hwi
    iexact Ho
  imodintro
  -- the operand and the result array, split in a remainder and one share per SparseCore
  ihave Ht' := (Transfers.pointsTo_toks_split fullShare 2) $$ Ht
  icases Ht' with ⟨Htd, Hts⟩
  ihave Hw' := (willBeTo_toks_split fullShare 2) $$ Hw
  icases Hw' with ⟨Hwd, Hws⟩
  -- the call
  iapply ((K (F := F)).wp_run (D (F := F)) 𝒱 (EH := EH) (P := P m) κ d 0) $$ [Hst Hts Hws Hb Ha Hr Htd Hwd]
  isplitr; · iexact Hctx
  isplitl [Hst]; · iexact Hst
  isplitl [Hts Hws]
  · rw [st0_eq]
    isplitl [Hts]; · iexact Hts
    iexact Hws
  iintro ⟨Hst, Hdn⟩
  ihave Hdn' := (Entails.of_eq (dn0_eq m d)) $$ Hdn
  icases Hdn' with ⟨Hts, Hws⟩
  ihave Ht := (Transfers.pointsTo_toks_join fullShare 2) $$ [Htd Hts]
  · isplitl [Htd] <;> iassumption
  ihave Hw := (willBeTo_toks_join fullShare 2 ∅ (fun c => Wcore d c)) $$ [Hwd Hws]
  · isplitl [Hwd] <;> iassumption
  rw [cover d]
  -- every lane is written: the result array leaves write mode holding the transposed table
  imod (willBeTo_castOut_some (emb := wemb (F := F)) (ιwm := ιwm) (E := Set.univ) (ℓ := oLoc d) (I := Finset.univ) (f := m (oLoc d))
    (g := tT m d) (W := Finset.univ)) $$ [Hw] with Ho
  · isplitr; · iexact Hwi
    iexact Hw
  rw [Finset.piecewise_univ]
  -- the second host operation
  iapply (wp_hlo_within 𝒱 (SparseCore.T d) none Set.univ (op := opT2) (S := S4) hT2 (V := V2 m d)) $$ [Hb Ha Ht Ho Hr]
  · isplitl [Hb]; · iexact Hb
    rw [held_S4, V2_a, V2_t, V2_o, V2_r]
    isplitl [Ha]; · iexact Ha
    isplitl [Ht]; · iexact Ht
    isplitl [Ho]; · iexact Ho
    iexact Hr
  iintro ⟨Hb, Hheld⟩
  ihave Hh := (held_V3 (F := F) m d) $$ Hheld
  icases Hh with ⟨Ha, Hr⟩
  rw [wp_ret]; imodintro; imodintro
  isplitl [Hst]; · iexact Hst
  isplitl [Ha]; · iexact Ha
  iexists (transpose S1000000x32 [1, 0] (tT m d) transposes_S32x1000000_S1000000x32_1_0 : S1000000x32.Idx → Elt F .f32)
  isplitr
  · ipureintro; exact tT_back m d
  · iexact Hr

/-! ## The program's run and the claim -/

/-- What the claim reads off the final memory of device `d`: the program's result holds the table's entries, and the
    table is unchanged. -/
def fq (d : Dev nD) (s' : Phys nD τ sig (Elt F)) : Prop :=
  (∀ i : S1000000x32.Idx, (s'.mem.mem (rLoc d) : S1000000x32.Idx → Elt F .f32) i = (m (aLoc d) : S1000000x32.Idx → Elt F .f32) i)
    ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, %f, %hf, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := f)) $$ [HSI Hr]
  · isplitl [HSI] <;> iassumption
  icases H with %h2
  ipureintro
  exact ⟨fun i => (h2 i (Finset.mem_univ i)).trans (hf i), funext fun i => h1 i (Finset.mem_univ i)⟩

/-- The program's run, from the tile obligation: every weakly fair execution terminates, and on every device the
    program's result holds the table's entries and the table is unchanged. -/
theorem run_main [∀ e, Nonempty (Elt F e)]
    (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, (∀ i : S1000000x32.Idx, (r.2.mem (rLoc c) : S1000000x32.Idx → Elt F .f32) i = (m (aLoc c) : S1000000x32.Idx → Elt F .f32) i)
        ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => (wmI (F := F) : sProp 𝕄)) (FIN m) (u₀ (F := F)) (sep_elim_left.trans (hu₀ m)) (hmain m ρ) (fq m) (hfin m) _ (fun _ h => h)

end Cert.Proof.KI

end
-- ==== Proof.KBCommon.lean ====
/-
  The common setting of the run of the kernel as printed, word level: the program as the launch theorem reads it, the ghost state
  (the launch handshakes' rounds beside the write-mode cells and the local transfers' counters), the three arrays of
  device memory the kernel touches, and the transposed table every copy moves pieces of.
-/
import proofs.«206677_g74234214744565_cont_9to1_m_856_16_alg».proof.Defs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.WriteMode
import proofs.«206677_g74234214744565_cont_9to1_m_856_16_alg».proof.Proof.Gen.Kernel
import proofs.«206677_g74234214744565_cont_9to1_m_856_16_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the write-mode cells, the transfers' counters -/

abbrev UH : Type := URounds (GSem nD τ sig) ℕ
abbrev UW : Type := WmRA nD τ sig (Elt F)
abbrev UU : Type := UH × (UW (F := F) × Counters)

local notation "𝕄" => MT nD τ sig (HIx 1) (Elt F) ℕ (UU (F := F)) ℕ

abbrev EH : Emb UH (MT nD τ sig (HIx 1) (Elt F) ℕ (UU (F := F)) ℕ) := embL
/-- Where the write-mode cells sit in the ghost state. -/
abbrev wemb : UEmb (UW (F := F)) (UU (F := F)) := (UEmb.inl : UEmb (UW (F := F)) (UW (F := F) × Counters)).trans UEmb.inr

/-! ## The arrays -/

variable (m : (ℓ : Loc nD τ sig) → Buf (Elt F) ℓ) (ρ : Dev nD → PrngReg)

/-- The table (the argument), its transpose (the kernel's operand), the copy (the kernel's result), the copy
    transposed back (the program's result), as locations of device d. -/
abbrev aLoc (d : Dev nD) : Loc nD τ sig := (SparseCore.T d).loc main_arg0
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.Proof.KB

end
-- ==== Proof.KBPay.lean ====
/-
  What the run moves, and what travels with the launch handshakes.

  The kernel's operand is the table transposed, tT; its result is to be tT again, piece by piece: worker (c, s) copies the
  21 chunks of 1536 lanes numbered from its start, and worker (0, 0) also the last 64 lanes. Neighbouring workers' runs of
  chunks share a chunk, so the result array is held in write mode with tT as every element's target: each worker holds a
  share of the whole array, writes only target values, and records the lanes it has written. The launch hands each
  SparseCore, and it each of its sixteen workers, a share of tT to read and a share of the result in write mode; they
  come back with the lanes written recorded.
-/
import proofs.«206677_g74234214744565_cont_9to1_m_856_16_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ (UU (F := F)) ℕ

variable (m : (ℓ : Loc nD τ sig) → Buf (Elt F) ℓ)

/-- The table transposed: what the first host operation leaves in the kernel's operand. -/
def tT (d : Dev nD) : Buf (Elt F) (tLoc d) :=
  ((transpose S32x1000000 [1, 0] · transposes_S1000000x32_S32x1000000_1_0) :
    (⟨S1000000x32, .f32⟩ : BufTy).Contents (Elt F) → (⟨S32x1000000, .f32⟩ : BufTy).Contents (Elt F)) (m (aLoc d))

/-- Every element of the result is to hold the transposed table's element at the same index. -/
def gT (d : Dev nD) : Tgt (Elt F) (oLoc d) := fun i => some (tT m d i)

/-- A grid point's coordinates from a SparseCore and a vector subcore of the grid. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- Chunk r of the worker at L: all 32 rows, 1536 lanes from the worker's start plus r chunks. -/
abbrev chunkR (L : grid0.Coords) (r : Fin 21) : Rect S32x1000000 :=
  Rect.unit (s := S32x1000000) (k0_off1 L (BitVec.ofNat 32 r.val)) S32x1536.size (k0_off1_inb L r)
/-- The last 64 lanes. -/
abbrev tailR : Rect S32x1000000 := Rect.unit (s := S32x1000000) ![0, 999936] S32x64.size inb_S32x1000000_S32x64_0_999936

/-- The elements of the result under chunk r of the worker at L, and under the last 64 lanes. -/
def chunkSet (d : Dev nD) (L : grid0.Coords) (r : Fin 21) : Finset (Idx (oLoc d)) :=
  ((Memref.whole main_v1_scv : Memref sig .scVector .hbm S32x1000000 .f32).slice (chunkR L r) (fun _ => rfl)).view.set
def tailSet (d : Dev nD) : Finset (Idx (oLoc d)) :=
  ((Memref.whole main_v1_scv : Memref sig .scVector .hbm S32x1000000 .f32).slice tailR (fun _ => rfl)).view.set

/-- The elements under the first k chunks of the worker at L. -/
def Wupto (d : Dev nD) (L : grid0.Coords) : ℕ → Finset (Idx (oLoc d))
  | 0 => ∅
  | k + 1 => Wupto d L k ∪ (if h : k < 21 then chunkSet d L ⟨k, h⟩ else ∅)

theorem Wupto_succ (d : Dev nD) (L : grid0.Coords) (k : ℕ) (h : k < 21) : Wupto d L (k + 1) = Wupto d L k ∪ chunkSet d L ⟨k, h⟩ := by
  show Wupto d L k ∪ (if h : k < 21 then chunkSet d L ⟨k, h⟩ else ∅) = _
  rw [dif_pos h]

/-- The worker at L is worker number 0: SparseCore 0's vector subcore 0. -/
def IsFirst (L : grid0.Coords) : Prop := (L 0).val = 0 ∧ (L 1).val = 0
instance (L : grid0.Coords) : Decidable (IsFirst L) := by unfold IsFirst; infer_instance

/-- Everything the worker at L writes: its 21 chunks, and for worker 0 the last 64 lanes. -/
def Wtile (d : Dev nD) (L : grid0.Coords) : Finset (Idx (oLoc d)) := Wupto d L 21 ∪ (if IsFirst L then tailSet d else ∅)

/-- The shares: a SparseCore's of the whole, a worker's of its SparseCore's. -/
abbrev qC (c : Fin 2) : PosShare TreeShare := shareTok fullShare 2 c
abbrev qT (c : Fin 2) (i : Fin 16) : PosShare TreeShare := shareTok (qC c) 16 i

theorem bound_zero : grid0.bound 0 = 2 := rfl
theorem bound_one : grid0.bound 1 = 16 := rfl
abbrev LV (c : Fin 2) (i : Fin 16) : grid0.Coords := coordsV (Fin.cast bound_zero.symm c) (Fin.cast bound_one.symm i)

/-- What SparseCore c has written when its sixteen workers are done. -/
def Wcore (d : Dev nD) (c : Fin 2) : Finset (Idx (oLoc d)) := ∅ ∪ Finset.univ.biUnion fun i : Fin 16 => Wtile d (LV c i)

/-- A share of the transposed table to read, and the same share of the result in write mode with the lanes W written. -/
def piece (d : Dev nD) (q : PosShare TreeShare) (W : Finset (Idx (oLoc d))) : sProp 𝕄 :=
  iprop((tLoc d ↦{q} tT m d) ∗ willBeTo (wemb (F := F)) (oLoc d) Finset.univ q (m (oLoc d)) (gT m d) W)

instance piece_storable (d : Dev nD) (q : PosShare TreeShare) (W : Finset (Idx (oLoc d))) : BI.Storable (upEmb : UEmb _ 𝕄) (piece m d q W) := by
  unfold piece; infer_instance

/-- The write-mode invariant exists, at some name. -/
def wmI : sProp 𝕄 := iprop(∃ ιwm : ℕ, wmInv (Ix := HIx 1) (wemb (F := F)) ιwm)
instance : BI.Persistent (wmI (F := F)) := by unfold wmI; infer_instance

/-- The one call: each SparseCore its piece, each worker its piece of that, back with what was written recorded; every
    thread is told the write-mode invariant exists. -/
def P : (K (F := F)).Pay (nD := nD) (Val := Elt F) (Name := ℕ) (U := UU (F := F)) where
  st := fun q d c => match q with | 0 => piece m d (qC (Fin.cast nCore_zero c)) ∅
  dn := fun q d c => match q with | 0 => piece m d (qC (Fin.cast nCore_zero c)) (Wcore d (Fin.cast nCore_zero c))
  go := fun q d c i => match q with | 0 => piece m d (qT (Fin.cast nCore_zero c) (Fin.cast nSub_zero i)) ∅
  td := fun q d c i => match q with
    | 0 => piece m d (qT (Fin.cast nCore_zero c) (Fin.cast nSub_zero i)) (Wtile d (LV (Fin.cast nCore_zero c) (Fin.cast nSub_zero i)))
  x := fun _ _ => wmI

instance P_storable : (P (F := F) m).IsStorable where
  st q d c := match q with | 0 => (inferInstance : BI.Storable (upEmb : UEmb _ 𝕄) (piece m d (qC (Fin.cast nCore_zero c)) ∅))
  dn q d c := match q with | 0 => (inferInstance : BI.Storable (upEmb : UEmb _ 𝕄) (piece m d (qC (Fin.cast nCore_zero c)) (Wcore d (Fin.cast nCore_zero c))))
  go q d c i := match q with | 0 => (inferInstance : BI.Storable (upEmb : UEmb _ 𝕄) (piece m d (qT (Fin.cast nCore_zero c) (Fin.cast nSub_zero i)) ∅))
  td q d c i := match q with
    | 0 => (inferInstance : BI.Storable (upEmb : UEmb _ 𝕄) (piece m d (qT (Fin.cast nCore_zero c) (Fin.cast nSub_zero i)) (Wtile d (LV (Fin.cast nCore_zero c) (Fin.cast nSub_zero i)))))

end Cert.Proof.KB

end
-- ==== Proof.KBTile.lean ====
/-
  One worker's body, run once at a symbolic grid point.

  The worker at grid point L copies 21 chunks of the transposed table into the result through two scratch buffers: chunk
  k is fetched into buffer k mod 2 and copied out from it, the fetch of chunk k + 1 and the copy-out of chunk k in flight
  together, each on a semaphore of its own (two for the fetches, two for the copies out), every transfer waited for
  before its buffer or semaphore is used again; worker number 0 then moves the last 64 lanes through a third buffer on a
  fifth semaphore. Fetches read a share of the transposed table and land in a buffer the worker holds whole, so they are
  ordinary local transfers. The copies out land in the result, which neighbouring workers also write (their runs of chunks
  share a chunk): the worker holds only a share of the result in write mode, every value it writes is the element's
  target because the buffer holds exactly the window of the transposed table just fetched, and each copy-out records its
  window as written. At the end the worker has recorded its 21 chunks, and worker 0 the tail as well.
-/
import proofs.«206677_g74234214744565_cont_9to1_m_856_16_alg».proof.Proof.KBPay
import proofs.«206677_g74234214744565_cont_9to1_m_856_16_alg».proof.Proof.LibWriteModeDma
import proofs.«206677_g74234214744565_cont_9to1_m_856_16_alg».proof.Proof.LibWriteModeShares
import Idealize.ShloMosaic.Lib.Exec

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ (UU (F := F)) ℕ
variable (m : (ℓ : Loc nD τ sig) → Buf (Elt F) ℓ)

local notation "tW" => (Memref.whole Cert.Kernel.main_v0_scv : Memref Cert.Kernel.sig Kind.scVector Space.hbm Cert.Kernel.S32x1000000 EltTy.f32)
local notation "oW" => (Memref.whole Cert.Kernel.main_v1_scv : Memref Cert.Kernel.sig Kind.scVector Space.hbm Cert.Kernel.S32x1000000 EltTy.f32)
local notation "b0" => (Memref.whole Cert.Kernel.cc0_scratch0 : Memref Cert.Kernel.sig Kind.scVector Space.vmem Cert.Kernel.S32x1536 EltTy.f32)
local notation "b1" => (Memref.whole Cert.Kernel.cc0_scratch1 : Memref Cert.Kernel.sig Kind.scVector Space.vmem Cert.Kernel.S32x1536 EltTy.f32)
local notation "b2" => (Memref.whole Cert.Kernel.cc0_scratch2 : Memref Cert.Kernel.sig Kind.scVector Space.vmem Cert.Kernel.S32x64 EltTy.f32)

/-! ## One chunk's copy-out -/

/-- A chunk-sized window of the result: all rows, 1536 lanes from an offset. -/
abbrev oChunk (off : Fin 2 → ℕ) (inb : ∀ a, off a + S32x1536.size a ≤ S32x1000000.size a) : Memref sig .scVector .hbm S32x1536 .f32 :=
  (oW).slice (Rect.unit (s := S32x1000000) off S32x1536.size inb) (fun _ => rfl)
/-- The same window of the transposed table. -/
abbrev tChunk (off : Fin 2 → ℕ) (inb : ∀ a, off a + S32x1536.size a ≤ S32x1000000.size a) : Memref sig .scVector .hbm S32x1536 .f32 :=
  (tW).slice (Rect.unit (s := S32x1000000) off S32x1536.size inb) (fun _ => rfl)

/-- The credit of a chunk-sized transfer: 32 × 1536 elements of 32 bits. -/
theorem amount_chunk (off : Fin 2 → ℕ) (inb : ∀ a, off a + S32x1536.size a ≤ S32x1000000.size a) (sm : DmaSem sig) :
    (oChunk off inb).view.amount (.dma sm) = 1572864 := by
  rfl

omit [FloatOps F] in
/-- A scratch buffer that a copy-in of a window of the transposed table has landed in holds, read whole, what the
    targets of the same window of the result ask for. -/
theorem adm_chunk (d : Dev nD) (off : Fin 2 → ℕ) (inb : ∀ a, off a + S32x1536.size a ≤ S32x1000000.size a)
    (b : Memref sig .scVector .vmem S32x1536 .f32) (fb : b.view.ty.Contents (Elt F)) :
    (oChunk off inb).view.Admitted (Elt F) (gT m d)
      (b.view.read (Elt F) (b.view.write (Elt F) fb (ReadAs.same.apply ((tChunk off inb).view.read (Elt F) (tT m d))) Finset.univ)) Finset.univ := by
  intro x _ u hu
  rw [View.read_write_univ]
  have : (gT m d) ((oChunk off inb).view.emb x) = some u := hu
  unfold gT at this
  exact (Option.some.inj this)

/-- The copy-out of a chunk from a scratch buffer that holds the chunk's target values, into the result held in write
    mode at some share: the worker gives the buffer, its share of the result and the semaphore at zero, and holds the
    transfer's flight, which brings back the share with the chunk's elements recorded as written, and the buffer. -/
theorem wp_outChunk (d : Dev nD) (cc : Fin τ.nSC) (jj : Fin τ.nSub) {α : Type} {Q : α → sProp 𝕄}
    (src : Memref sig .scVector .vmem S32x1536 .f32) (off : Fin 2 → ℕ) (inb : ∀ a, off a + S32x1536.size a ≤ S32x1000000.size a)
    (sm : DmaSem sig) {hsrc : src.view.WordExact} {hdst : (oChunk off inb).view.WordExact}
    {hsem : DmaTarget.Typed (nD := nD) (p := .scVector cc jj) Space.vmem (SemLoc.dma sm) (.here (oChunk off inb))}
    {k : PUnit → Prog (TpuEff nD τ sig (Elt F) Λ₀ (.scVector cc jj)) α}
    (ιwm : ℕ) (qd : PosShare TreeShare) (Wm : Finset (Idx (oLoc d))) (fs : Buf (Elt F) (src.view.loc (V d cc jj)))
    (hadm : (oChunk off inb).view.Admitted (Elt F) (gT m d) (src.view.read (Elt F) fs) Finset.univ) :
    iprop((src.view.loc (V d cc jj) ↦[src.view.set]{fullShare} fs) ∗ wmInv (Ix := HIx 1) (wemb (F := F)) ιwm
        ∗ willBeTo (wemb (F := F)) (oLoc d) Finset.univ qd (m (oLoc d)) (gT m d) Wm ∗ semVal (V d cc jj, SemLoc.dma sm) 0)
      ⊢ iprop((Transfers.Flight countersEmb (V d cc jj) (SemLoc.dma sm) (default : HIx 1) 1572864
                  iprop(willBeTo (wemb (F := F)) (oLoc d) Finset.univ qd (m (oLoc d)) (gT m d) (Wm ∪ (oChunk off inb).view.set)
                    ∗ (src.view.loc (V d cc jj) ↦[src.view.set]{fullShare} fs))
              -∗ wp frame (wpE (defs₀ (F := F)) 𝒱₀ (V d cc jj) none) Set.univ (k ⟨⟩) Q)
          -∗ wp frame (wpE (defs₀ (F := F)) 𝒱₀ (V d cc jj) none) Set.univ
              (.op (.enqueueDma src (.here (oChunk off inb)) (SemLoc.dma sm) hsrc hdst hsem) k) Q) := by
  iintro ⟨Hs, Hinv, Hw, Hv⟩ Hk
  iapply (Transfers.wp_dmaLocal_willBeTo (countersEmb) 𝒱₀ (V d cc jj) none (emb := wemb (F := F)) (ιwm := ιwm)
      (src := src) (dst := oChunk off inb) (S := Finset.univ) (qd := qd) (fd := m (oLoc d)) (g := gT m d) (W := Wm) (q := fullShare) (fs := fs)
      (default : HIx 1) 1572864 (amount_chunk off inb sm) (by decide) (Finset.subset_univ _) hadm) $$ [Hs Hinv Hw Hv]
  · isplitl [Hs]; · iexact Hs
    isplitl [Hinv Hw]
    · isplitl [Hinv]; · iexact Hinv
      iexact Hw
    iexact Hv
  iexact Hk

/-- The same for a scratch buffer held whole. -/
theorem wp_outChunkW (d : Dev nD) (cc : Fin τ.nSC) (jj : Fin τ.nSub) {α : Type} {Q : α → sProp 𝕄}
    (src : Memref sig .scVector .vmem S32x1536 .f32) (hw : src.view.set = Finset.univ) (off : Fin 2 → ℕ) (inb : ∀ a, off a + S32x1536.size a ≤ S32x1000000.size a)
    (sm : DmaSem sig) {hsrc : src.view.WordExact} {hdst : (oChunk off inb).view.WordExact}
    {hsem : DmaTarget.Typed (nD := nD) (p := .scVector cc jj) Space.vmem (SemLoc.dma sm) (.here (oChunk off inb))}
    {k : PUnit → Prog (TpuEff nD τ sig (Elt F) Λ₀ (.scVector cc jj)) α}
    (ιwm : ℕ) (qd : PosShare TreeShare) (Wm : Finset (Idx (oLoc d))) (fs : Buf (Elt F) (src.view.loc (V d cc jj)))
    (hadm : (oChunk off inb).view.Admitted (Elt F) (gT m d) (src.view.read (Elt F) fs) Finset.univ) :
    iprop((src.view.loc (V d cc jj) ↦{fullShare} fs) ∗ wmInv (Ix := HIx 1) (wemb (F := F)) ιwm
        ∗ willBeTo (wemb (F := F)) (oLoc d) Finset.univ qd (m (oLoc d)) (gT m d) Wm ∗ semVal (V d cc jj, SemLoc.dma sm) 0)
      ⊢ iprop((Transfers.Flight countersEmb (V d cc jj) (SemLoc.dma sm) (default : HIx 1) 1572864
                  iprop(willBeTo (wemb (F := F)) (oLoc d) Finset.univ qd (m (oLoc d)) (gT m d) (Wm ∪ (oChunk off inb).view.set)
                    ∗ (src.view.loc (V d cc jj) ↦{fullShare} fs))
              -∗ wp frame (wpE (defs₀ (F := F)) 𝒱₀ (V d cc jj) none) Set.univ (k ⟨⟩) Q)
          -∗ wp frame (wpE (defs₀ (F := F)) 𝒱₀ (V d cc jj) none) Set.univ
              (.op (.enqueueDma src (.here (oChunk off inb)) (SemLoc.dma sm) hsrc hdst hsem) k) Q) := by
  have h := wp_outChunk (F := F) m d cc jj (Q := Q) src off inb sm (hsrc := hsrc) (hdst := hdst) (hsem := hsem) (k := k) ιwm qd Wm fs hadm
  rw [hw] at h
  exact h

/-! ## The last 64 lanes -/

abbrev oTail : Memref sig .scVector .hbm S32x64 .f32 := (oW).slice tailR (fun _ => rfl)
abbrev tTail : Memref sig .scVector .hbm S32x64 .f32 := (tW).slice tailR (fun _ => rfl)

/-- The credit of the tail's transfer: 32 × 64 elements of 32 bits. -/
theorem amount_tail (sm : DmaSem sig) : (oTail).view.amount (.dma sm) = 65536 := by
  rfl

omit [FloatOps F] in
/-- The small scratch buffer, once the tail of the transposed table has landed in it, holds what the targets of the
    result's tail ask for. -/
theorem adm_tail (d : Dev nD) (b : Memref sig .scVector .vmem S32x64 .f32) (fb : b.view.ty.Contents (Elt F)) :
    (oTail).view.Admitted (Elt F) (gT m d)
      (b.view.read (Elt F) (b.view.write (Elt F) fb (ReadAs.same.apply ((tTail).view.read (Elt F) (tT m d))) Finset.univ)) Finset.univ := by
  intro x _ u hu
  rw [View.read_write_univ]
  have : (gT m d) ((oTail).view.emb x) = some u := hu
  unfold gT at this
  exact (Option.some.inj this)

/-- The tail's copy-out from the small scratch buffer held whole, into the result held in write mode at some share. -/
theorem wp_outTailW (d : Dev nD) (cc : Fin τ.nSC) (jj : Fin τ.nSub) {α : Type} {Q : α → sProp 𝕄}
    (src : Memref sig .scVector .vmem S32x64 .f32) (hw : src.view.set = Finset.univ)
    (sm : DmaSem sig) {hsrc : src.view.WordExact} {hdst : (oTail).view.WordExact}
    {hsem : DmaTarget.Typed (nD := nD) (p := .scVector cc jj) Space.vmem (SemLoc.dma sm) (.here oTail)}
    {k : PUnit → Prog (TpuEff nD τ sig (Elt F) Λ₀ (.scVector cc jj)) α}
    (ιwm : ℕ) (qd : PosShare TreeShare) (Wm : Finset (Idx (oLoc d))) (fs : Buf (Elt F) (src.view.loc (V d cc jj)))
    (hadm : (oTail).view.Admitted (Elt F) (gT m d) (src.view.read (Elt F) fs) Finset.univ) :
    iprop((src.view.loc (V d cc jj) ↦{fullShare} fs) ∗ wmInv (Ix := HIx 1) (wemb (F := F)) ιwm
        ∗ willBeTo (wemb (F := F)) (oLoc d) Finset.univ qd (m (oLoc d)) (gT m d) Wm ∗ semVal (V d cc jj, SemLoc.dma sm) 0)
      ⊢ iprop((Transfers.Flight countersEmb (V d cc jj) (SemLoc.dma sm) (default : HIx 1) 65536
                  iprop(willBeTo (wemb (F := F)) (oLoc d) Finset.univ qd (m (oLoc d)) (gT m d) (Wm ∪ (oTail).view.set)
                    ∗ (src.view.loc (V d cc jj) ↦{fullShare} fs))
              -∗ wp frame (wpE (defs₀ (F := F)) 𝒱₀ (V d cc jj) none) Set.univ (k ⟨⟩) Q)
          -∗ wp frame (wpE (defs₀ (F := F)) 𝒱₀ (V d cc jj) none) Set.univ
              (.op (.enqueueDma src (.here oTail) (SemLoc.dma sm) hsrc hdst hsem) k) Q) := by
  have h : iprop((src.view.loc (V d cc jj) ↦[src.view.set]{fullShare} fs) ∗ wmInv (Ix := HIx 1) (wemb (F := F)) ιwm
        ∗ willBeTo (wemb (F := F)) (oLoc d) Finset.univ qd (m (oLoc d)) (gT m d) Wm ∗ semVal (V d cc jj, SemLoc.dma sm) 0)
      ⊢ iprop((Transfers.Flight countersEmb (V d cc jj) (SemLoc.dma sm) (default : HIx 1) 65536
                  iprop(willBeTo (wemb (F := F)) (oLoc d) Finset.univ qd (m (oLoc d)) (gT m d) (Wm ∪ (oTail).view.set)
                    ∗ (src.view.loc (V d cc jj) ↦[src.view.set]{fullShare} fs))
              -∗ wp frame (wpE (defs₀ (F := F)) 𝒱₀ (V d cc jj) none) Set.univ (k ⟨⟩) Q)
          -∗ wp frame (wpE (defs₀ (F := F)) 𝒱₀ (V d cc jj) none) Set.univ
              (.op (.enqueueDma src (.here oTail) (SemLoc.dma sm) hsrc hdst hsem) k) Q) := by
    iintro ⟨Hs, Hinv, Hw, Hv⟩ Hk
    iapply (Transfers.wp_dmaLocal_willBeTo (countersEmb) 𝒱₀ (V d cc jj) none (emb := wemb (F := F)) (ιwm := ιwm)
        (src := src) (dst := oTail) (S := Finset.univ) (qd := qd) (fd := m (oLoc d)) (g := gT m d) (W := Wm) (q := fullShare) (fs := fs)
        (default : HIx 1) 65536 (amount_tail sm) (by decide) (Finset.subset_univ _) hadm) $$ [Hs Hinv Hw Hv]
    · isplitl [Hs]; · iexact Hs
      isplitl [Hinv Hw]
      · isplitl [Hinv]; · iexact Hinv
        iexact Hw
      iexact Hv
    iexact Hk
  rw [hw] at h
  exact h

/-! ## Which worker copies the tail -/

/-- The printed test "this is worker number 0", as the body computes it from the grid point. -/
abbrev condFirst (L : grid0.Coords) : Prop :=
  Scalar.cmpi .ne (Scalar.extui (Scalar.cmpi .eq (Scalar.addi (Scalar.muli (BitVec.ofNat 32 (L 1).val) 2#32) (BitVec.ofNat 32 (L 0).val)) 0#32)) 0#32 = 1#1

theorem condFirst_iff : ∀ L : grid0.Coords, condFirst L ↔ IsFirst L := by
  unfold condFirst IsFirst
  decide +kernel

/-- The copy-out of the worker's chunk number k, the lanes written recorded as the worker's first k chunks before and
    its first k + 1 after. -/
theorem wp_outChunkK (d : Dev nD) (L : grid0.Coords) {α : Type} {Q : α → sProp 𝕄}
    (src : Memref sig .scVector .vmem S32x1536 .f32) (hw : src.view.set = Finset.univ) (k : Fin 21)
    (sm : DmaSem sig) {hsrc : src.view.WordExact} {hdst : (oChunk (k0_off1 L (BitVec.ofNat 32 k.val)) (k0_off1_inb L k)).view.WordExact}
    {hsem : DmaTarget.Typed (nD := nD) (p := .scVector (cV L) (jV L)) Space.vmem (SemLoc.dma sm) (.here (oChunk (k0_off1 L (BitVec.ofNat 32 k.val)) (k0_off1_inb L k)))}
    {kont : PUnit → Prog (TpuEff nD τ sig (Elt F) Λ₀ (.scVector (cV L) (jV L))) α}
    (ιwm : ℕ) (qd : PosShare TreeShare) (fs : Buf (Elt F) (src.view.loc (V d (cV L) (jV L))))
    (hadm : (oChunk (k0_off1 L (BitVec.ofNat 32 k.val)) (k0_off1_inb L k)).view.Admitted (Elt F) (gT m d) (src.view.read (Elt F) fs) Finset.univ) :
    iprop((src.view.loc (V d (cV L) (jV L)) ↦{fullShare} fs) ∗ wmInv (Ix := HIx 1) (wemb (F := F)) ιwm
        ∗ willBeTo (wemb (F := F)) (oLoc d) Finset.univ qd (m (oLoc d)) (gT m d) (Wupto d L k.val) ∗ semVal (V d (cV L) (jV L), SemLoc.dma sm) 0)
      ⊢ iprop((Transfers.Flight countersEmb (V d (cV L) (jV L)) (SemLoc.dma sm) (default : HIx 1) 1572864
                  iprop(willBeTo (wemb (F := F)) (oLoc d) Finset.univ qd (m (oLoc d)) (gT m d) (Wupto d L (k.val + 1))
                    ∗ (src.view.loc (V d (cV L) (jV L)) ↦{fullShare} fs))
              -∗ wp frame (wpE (defs₀ (F := F)) 𝒱₀ (V d (cV L) (jV L)) none) Set.univ (kont ⟨⟩) Q)
          -∗ wp frame (wpE (defs₀ (F := F)) 𝒱₀ (V d (cV L) (jV L)) none) Set.univ
              (.op (.enqueueDma src (.here (oChunk (k0_off1 L (BitVec.ofNat 32 k.val)) (k0_off1_inb L k))) (SemLoc.dma sm) hsrc hdst hsem) kont) Q) := by
  have h := wp_outChunkW (F := F) m d (cV L) (jV L) (Q := Q) src hw (k0_off1 L (BitVec.ofNat 32 k.val)) (k0_off1_inb L k) sm
    (hsrc := hsrc) (hdst := hdst) (hsem := hsem) (k := kont) ιwm qd (Wupto d L k.val) fs hadm
  rw [Wupto_succ d L k.val k.isLt]
  exact h

/-- The tail's copy-out from nothing recorded to the tail's lanes recorded. -/
theorem wp_outTail0 (d : Dev nD) (L : grid0.Coords) {α : Type} {Q : α → sProp 𝕄}
    (src : Memref sig .scVector .vmem S32x64 .f32) (hw : src.view.set = Finset.univ)
    (sm : DmaSem sig) {hsrc : src.view.WordExact} {hdst : (oTail).view.WordExact}
    {hsem : DmaTarget.Typed (nD := nD) (p := .scVector (cV L) (jV L)) Space.vmem (SemLoc.dma sm) (.here oTail)}
    {kont : PUnit → Prog (TpuEff nD τ sig (Elt F) Λ₀ (.scVector (cV L) (jV L))) α}
    (ιwm : ℕ) (qd : PosShare TreeShare) (fs : Buf (Elt F) (src.view.loc (V d (cV L) (jV L))))
    (hadm : (oTail).view.Admitted (Elt F) (gT m d) (src.view.read (Elt F) fs) Finset.univ) :
    iprop((src.view.loc (V d (cV L) (jV L)) ↦{fullShare} fs) ∗ wmInv (Ix := HIx 1) (wemb (F := F)) ιwm
        ∗ willBeTo (wemb (F := F)) (oLoc d) Finset.univ qd (m (oLoc d)) (gT m d) ∅ ∗ semVal (V d (cV L) (jV L), SemLoc.dma sm) 0)
      ⊢ iprop((Transfers.Flight countersEmb (V d (cV L) (jV L)) (SemLoc.dma sm) (default : HIx 1) 65536
                  iprop(willBeTo (wemb (F := F)) (oLoc d) Finset.univ qd (m (oLoc d)) (gT m d) (tailSet d)
                    ∗ (src.view.loc (V d (cV L) (jV L)) ↦{fullShare} fs))
              -∗ wp frame (wpE (defs₀ (F := F)) 𝒱₀ (V d (cV L) (jV L)) none) Set.univ (kont ⟨⟩) Q)
          -∗ wp frame (wpE (defs₀ (F := F)) 𝒱₀ (V d (cV L) (jV L)) none) Set.univ
              (.op (.enqueueDma src (.here oTail) (SemLoc.dma sm) hsrc hdst hsem) kont) Q) := by
  have h := wp_outTailW (F := F) m d (cV L) (jV L) (Q := Q) src hw sm (hsrc := hsrc) (hdst := hdst) (hsem := hsem) (k := kont) ιwm qd ∅ fs hadm
  rw [Finset.empty_union] at h
  exact h

omit [FloatOps F] in
/-- A wait recorded at the kernel's own index keeps the recorded waits within the launch's allowance. -/
theorem waits_step {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact Or.inr rfl
  · exact h p hp

/-- One chunk's copy-out in the run: hand the buffer, the share and the semaphore to the transfer, keep its flight under
    the given name, and run on to the next copy-out. -/
syntax "out_step" term:max num term:max ident ident ident ident : tactic
set_option hygiene false in
macro_rules
  | `(tactic| out_step $b $k $s $hb $hw $hs $ho) => `(tactic|
      (iapply (wp_outChunkK (F := F) m d L $b (View.set_whole _) $k (SemArray.sem $s) ιwm qa _
          (adm_chunk (F := F) m d (k0_off1 L (BitVec.ofNat 32 $k)) (k0_off1_inb L $k) $b _)) $$ [$hb:ident $hw:ident $hs:ident]
       · isplitl [$hb:ident]; · iexact $hb:ident
         isplitr; · iexact Hwm
         isplitl [$hw:ident]; · iexact $hw:ident
         iexact $hs:ident
       iintro $ho:ident
       sl_exec
       sl_unfold_run_names))

theorem tile_core2 (d : Dev nD) (L : grid0.Coords) (ιwm : ℕ) (q qa qb : PosShare TreeShare)
    (O : CellTallies nD τ sig (HIx 1)) (W : Waits sig (HIx 1)) (hO : ∀ g, O g none = 0)
    (f0 : Buf (Elt F) ((V d (cV L) (jV L)).loc cc0_scratch0)) (f1 : Buf (Elt F) ((V d (cV L) (jV L)).loc cc0_scratch1)) (f2 : Buf (Elt F) ((V d (cV L) (jV L)).loc cc0_scratch2)) :
    iprop(levAts (K (F := F)).L (K (F := F)).lev ∗ wmInv (Ix := HIx 1) (wemb (F := F)) ιwm
        ∗ ((tW).view.loc (V d (cV L) (jV L)) ↦{q} tT m d)
        ∗ willBeTo (wemb (F := F)) (oLoc d) Finset.univ qa (m (oLoc d)) (gT m d) ∅
        ∗ willBeTo (wemb (F := F)) (oLoc d) Finset.univ qb (m (oLoc d)) (gT m d) ∅
        ∗ ((b0).view.loc (V d (cV L) (jV L)) ↦{fullShare} f0) ∗ ((b1).view.loc (V d (cV L) (jV L)) ↦{fullShare} f1) ∗ ((b2).view.loc (V d (cV L) (jV L)) ↦{fullShare} f2)
        ∗ semVal (V d (cV L) (jV L), SemLoc.dma cc0_scratch3.sem) 0 ∗ semVal (V d (cV L) (jV L), SemLoc.dma cc0_scratch4.sem) 0
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0
        ∗ owes (V d (cV L) (jV L)) O W)
      ⊢ wp frame (wpE (defs₀ (F := F)) 𝒱₀ (V d (cV L) (jV L)) none) Set.univ
          (cc0__sc_copy_body L tW (Memref.isWhole_whole _) oW (Memref.isWhole_whole _) b0 (Memref.isWhole_whole _) b1 (Memref.isWhole_whole _) b2 (Memref.isWhole_whole _)
            cc0_scratch3 cc0_scratch4 cc0_scratch5 cc0_scratch6 cc0_scratch7)
          fun _ => iprop(((tW).view.loc (V d (cV L) (jV L)) ↦{q} tT m d)
            ∗ willBeTo (wemb (F := F)) (oLoc d) Finset.univ qa (m (oLoc d)) (gT m d) (Wupto d L 21)
            ∗ willBeTo (wemb (F := F)) (oLoc d) Finset.univ qb (m (oLoc d)) (gT m d) (if IsFirst L then tailSet d else ∅)
            ∗ (∃ f, (b0).view.loc (V d (cV L) (jV L)) ↦{fullShare} f) ∗ (∃ f, (b1).view.loc (V d (cV L) (jV L)) ↦{fullShare} f) ∗ (∃ f, (b2).view.loc (V d (cV L) (jV L)) ↦{fullShare} f)
            ∗ semVal (V d (cV L) (jV L), SemLoc.dma cc0_scratch3.sem) 0 ∗ semVal (V d (cV L) (jV L), SemLoc.dma cc0_scratch4.sem) 0
            ∗ semVal (V d (cV L) (jV L), SemLoc.dma cc0_scratch5.sem) 0 ∗ semVal (V d (cV L) (jV L), SemLoc.dma cc0_scratch6.sem) 0
            ∗ semVal (V d (cV L) (jV L), SemLoc.dma cc0_scratch7.sem) 0
            ∗ ∃ W', ⌜∀ p ∈ W', p ∈ W ∨ p.2 = none⌝ ∗ owes (V d (cV L) (jV L)) O W') := by
  rw [cc0__sc_copy_body_eq_skeleton]; unfold cc0__sc_copy_body_skel
  iintro ⟨#Hlv, #Hwm, Ht, Hwa, Hwb, Hb0, Hb1, Hb2, Hs3, Hs4, Hs5, Hs6, Hs7, HO⟩
  ihave Hmw := ((K (F := F)).mayWaits_none (thr := V d (cV L) (jV L)) hO) $$ Hlv
  sl_exec
  sl_unfold_run_names
  out_step b0 0 cc0_scratch5 Hb0 Hwa Hs5 Ho0
  out_step b1 1 cc0_scratch6 Hb1 Ho0_dst Hs6 Ho1
  out_step b0 2 cc0_scratch5 Ho0_src Ho1_dst Ho0 Ho2
  out_step b1 3 cc0_scratch6 Ho1_src Ho2_dst Ho1 Ho3
  out_step b0 4 cc0_scratch5 Ho2_src Ho3_dst Ho2 Ho4
  out_step b1 5 cc0_scratch6 Ho3_src Ho4_dst Ho3 Ho5
  out_step b0 6 cc0_scratch5 Ho4_src Ho5_dst Ho4 Ho6
  out_step b1 7 cc0_scratch6 Ho5_src Ho6_dst Ho5 Ho7
  out_step b0 8 cc0_scratch5 Ho6_src Ho7_dst Ho6 Ho8
  out_step b1 9 cc0_scratch6 Ho7_src Ho8_dst Ho7 Ho9
  out_step b0 10 cc0_scratch5 Ho8_src Ho9_dst Ho8 Ho10
  out_step b1 11 cc0_scratch6 Ho9_src Ho10_dst Ho9 Ho11
  out_step b0 12 cc0_scratch5 Ho10_src Ho11_dst Ho10 Ho12
  out_step b1 13 cc0_scratch6 Ho11_src Ho12_dst Ho11 Ho13
  out_step b0 14 cc0_scratch5 Ho12_src Ho13_dst Ho12 Ho14
  out_step b1 15 cc0_scratch6 Ho13_src Ho14_dst Ho13 Ho15
  out_step b0 16 cc0_scratch5 Ho14_src Ho15_dst Ho14 Ho16
  out_step b1 17 cc0_scratch6 Ho15_src Ho16_dst Ho15 Ho17
  out_step b0 18 cc0_scratch5 Ho16_src Ho17_dst Ho16 Ho18
  out_step b1 19 cc0_scratch6 Ho17_src Ho18_dst Ho17 Ho19
  out_step b0 20 cc0_scratch5 Ho18_src Ho19_dst Ho18 Ho20
  by_cases hf : IsFirst L
  · have hc : condFirst L := (condFirst_iff L).mpr hf
    sl_exec (disch := exact hc)
    sl_unfold_run_names
    iapply (wp_outTail0 (F := F) m d L b2 (View.set_whole _) (SemArray.sem cc0_scratch7) ιwm qb _ (adm_tail (F := F) m d b2 f2)) $$ [Hb2 Hwb Hs7]
    · isplitl [Hb2]; · iexact Hb2
      isplitr; · iexact Hwm
      isplitl [Hwb]; · iexact Hwb
      iexact Hs7
    iintro HoT
    sl_exec
    sl_step
    isplitl [Ht]; · iexact Ht
    isplitl [Ho20_dst]; · iexact Ho20_dst
    isplitl [HoT_dst]; · rw [if_pos hf]; iexact HoT_dst
    isplitl [Ho20_src]; · iexists _; iexact Ho20_src
    isplitl [Ho19_src]; · iexists _; iexact Ho19_src
    isplitl [HoT_src]; · iexists _; iexact HoT_src
    isplitl [Hs3]; · iexact Hs3
    isplitl [Hs4]; · iexact Hs4
    isplitl [Ho20]; · iexact Ho20
    isplitl [Ho19]; · iexact Ho19
    isplitl [HoT]; · iexact HoT
    iexists _; isplitr
    rotate_left
    · iexact HO
    · ipureintro; repeat (first | exact fun p hp => Or.inl hp | apply waits_step)
  · have hc : ¬ condFirst L := fun hc => hf ((condFirst_iff L).mp hc)
    sl_exec (disch := exact hc)
    sl_step
    isplitl [Ht]; · iexact Ht
    isplitl [Ho20_dst]; · iexact Ho20_dst
    isplitl [Hwb]; · rw [if_neg hf]; iexact Hwb
    isplitl [Ho20_src]; · iexists _; iexact Ho20_src
    isplitl [Ho19_src]; · iexists _; iexact Ho19_src
    isplitl [Hb2]; · iexists _; iexact Hb2
    isplitl [Hs3]; · iexact Hs3
    isplitl [Hs4]; · iexact Hs4
    isplitl [Ho20]; · iexact Ho20
    isplitl [Ho19]; · iexact Ho19
    isplitl [Hs7]; · iexact Hs7
    iexists _; isplitr
    rotate_left
    · iexact HO
    · ipureintro; repeat (first | exact fun p hp => Or.inl hp | apply waits_step)

omit [FloatOps F] in
/-- Two halves of a share, joined, in the middle of a list of resources. -/
theorem core_post {A Wa Wb Wab R : sProp 𝕄} (hjoin : iprop(Wa ∗ Wb) ⊢ Wab) : iprop(A ∗ Wa ∗ Wb ∗ R) ⊢ iprop(A ∗ Wab ∗ R) := by
  iintro ⟨HA, Ha, Hb, HR⟩
  isplitl [HA]; · iexact HA
  isplitl [Ha Hb]
  · iapply hjoin
    isplitl [Ha]; · iexact Ha
    iexact Hb
  iexact HR

/-- One worker's whole body: its share of the result is used in two halves, one for the chunks' copies and one for the
    tail's, which may be in flight together; the lanes recorded on the halves add up to everything the worker writes. -/
theorem tile_core (d : Dev nD) (L : grid0.Coords) (ιwm : ℕ) (q : PosShare TreeShare)
    (O : CellTallies nD τ sig (HIx 1)) (W : Waits sig (HIx 1)) (hO : ∀ g, O g none = 0)
    (f0 : Buf (Elt F) ((V d (cV L) (jV L)).loc cc0_scratch0)) (f1 : Buf (Elt F) ((V d (cV L) (jV L)).loc cc0_scratch1)) (f2 : Buf (Elt F) ((V d (cV L) (jV L)).loc cc0_scratch2)) :
    iprop(levAts (K (F := F)).L (K (F := F)).lev ∗ wmInv (Ix := HIx 1) (wemb (F := F)) ιwm
        ∗ ((tW).view.loc (V d (cV L) (jV L)) ↦{q} tT m d)
        ∗ willBeTo (wemb (F := F)) (oLoc d) Finset.univ q (m (oLoc d)) (gT m d) ∅
        ∗ ((b0).view.loc (V d (cV L) (jV L)) ↦{fullShare} f0) ∗ ((b1).view.loc (V d (cV L) (jV L)) ↦{fullShare} f1) ∗ ((b2).view.loc (V d (cV L) (jV L)) ↦{fullShare} f2)
        ∗ semVal (V d (cV L) (jV L), SemLoc.dma cc0_scratch3.sem) 0 ∗ semVal (V d (cV L) (jV L), SemLoc.dma cc0_scratch4.sem) 0
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0
        ∗ owes (V d (cV L) (jV L)) O W)
      ⊢ wp frame (wpE (defs₀ (F := F)) 𝒱₀ (V d (cV L) (jV L)) none) Set.univ
          (cc0__sc_copy_body L tW (Memref.isWhole_whole _) oW (Memref.isWhole_whole _) b0 (Memref.isWhole_whole _) b1 (Memref.isWhole_whole _) b2 (Memref.isWhole_whole _)
            cc0_scratch3 cc0_scratch4 cc0_scratch5 cc0_scratch6 cc0_scratch7)
          fun _ => iprop(((tW).view.loc (V d (cV L) (jV L)) ↦{q} tT m d)
            ∗ willBeTo (wemb (F := F)) (oLoc d) Finset.univ q (m (oLoc d)) (gT m d) (Wtile d L)
            ∗ (∃ f, (b0).view.loc (V d (cV L) (jV L)) ↦{fullShare} f) ∗ (∃ f, (b1).view.loc (V d (cV L) (jV L)) ↦{fullShare} f) ∗ (∃ f, (b2).view.loc (V d (cV L) (jV L)) ↦{fullShare} f)
            ∗ semVal (V d (cV L) (jV L), SemLoc.dma cc0_scratch3.sem) 0 ∗ semVal (V d (cV L) (jV L), SemLoc.dma cc0_scratch4.sem) 0
            ∗ semVal (V d (cV L) (jV L), SemLoc.dma cc0_scratch5.sem) 0 ∗ semVal (V d (cV L) (jV L), SemLoc.dma cc0_scratch6.sem) 0
            ∗ semVal (V d (cV L) (jV L), SemLoc.dma cc0_scratch7.sem) 0
            ∗ ∃ W', ⌜∀ p ∈ W', p ∈ W ∨ p.2 = none⌝ ∗ owes (V d (cV L) (jV L)) O W') := by
  have hsplit := (WriteModeShares.willBeTo_left_right (emb := wemb (F := F)) (ℓ := oLoc d) (I := Finset.univ) (f := m (oLoc d)) (g := gT m d) (Ix := HIx 1) (Name := ℕ) (Lvl := ℕ) q ∅ ∅).1
  rw [Finset.union_empty] at hsplit
  have hjoin : iprop(willBeTo (wemb (F := F)) (oLoc d) Finset.univ q.left (m (oLoc d)) (gT m d) (Wupto d L 21)
        ∗ willBeTo (wemb (F := F)) (oLoc d) Finset.univ q.right (m (oLoc d)) (gT m d) (if IsFirst L then tailSet d else ∅))
      ⊢ (willBeTo (wemb (F := F)) (oLoc d) Finset.univ q (m (oLoc d)) (gT m d) (Wtile d L) : sProp 𝕄) := by
    unfold Wtile
    exact (WriteModeShares.willBeTo_left_right (emb := wemb (F := F)) (ℓ := oLoc d) (I := Finset.univ) (f := m (oLoc d)) (g := gT m d) (Ix := HIx 1) (Name := ℕ) (Lvl := ℕ) q
      (Wupto d L 21) (if IsFirst L then tailSet d else ∅)).2
  iintro ⟨Hlv, Hwm, Ht, Hw, Hrest⟩
  ihave Hw2 := hsplit $$ Hw
  icases Hw2 with ⟨Hwa, Hwb⟩
  iapply (wp_mono frame _ _ (fun _ => core_post hjoin))
  iapply (tile_core2 (F := F) m d L ιwm q q.left q.right O W hO f0 f1 f2)
  isplitl [Hlv]; · iexact Hlv
  isplitl [Hwm]; · iexact Hwm
  isplitl [Ht]; · iexact Ht
  isplitl [Hwa]; · iexact Hwa
  isplitl [Hwb]; · iexact Hwb
  iexact Hrest

end Cert.Proof.KB
end
-- ==== Proof.KBTileObl.lean ====
/-
  The launch's obligation for a worker, from the worker's run.

  A worker is handed the launch's levels, the knowledge that the write-mode invariant exists, its piece (a share of the
  transposed table to read, the same share of the result in write mode, nothing written yet), and its scoped storage: its
  buffers at some contents and its semaphores at zero. Among that storage are the three staging buffers and the five
  transfer semaphores the body uses; the rest is carried along untouched. The body's run returns the piece with the
  worker's lanes recorded as written, and the storage as it was handed over.
-/
import proofs.«206677_g74234214744565_cont_9to1_m_856_16_alg».proof.Proof.KBPay
import proofs.«206677_g74234214744565_cont_9to1_m_856_16_alg».proof.Proof.LibWriteModeShares

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

local notation "𝕄" => MT nD τ sig (HIx 1) (Elt F) ℕ (UU (F := F)) ℕ

local notation "tW" => (Memref.whole Cert.Kernel.main_v0_scv : Memref Cert.Kernel.sig Kind.scVector Space.hbm Cert.Kernel.S32x1000000 EltTy.f32)
local notation "oW" => (Memref.whole Cert.Kernel.main_v1_scv : Memref Cert.Kernel.sig Kind.scVector Space.hbm Cert.Kernel.S32x1000000 EltTy.f32)
local notation "b0" => (Memref.whole Cert.Kernel.cc0_scratch0 : Memref Cert.Kernel.sig Kind.scVector Space.vmem Cert.Kernel.S32x1536 EltTy.f32)
local notation "b1" => (Memref.whole Cert.Kernel.cc0_scratch1 : Memref Cert.Kernel.sig Kind.scVector Space.vmem Cert.Kernel.S32x1536 EltTy.f32)
local notation "b2" => (Memref.whole Cert.Kernel.cc0_scratch2 : Memref Cert.Kernel.sig Kind.scVector Space.vmem Cert.Kernel.S32x64 EltTy.f32)

section Storage

variable (d : Dev nD) (L : grid0.Coords)

/-- Two transfer semaphores of one thread are different cells when the semaphores differ. -/
theorem dmaCell_ne (thr : Thread nD τ) {a b : DmaSem sig} (h : a ≠ b) :
    ((thr, SemLoc.dma a) : GSem nD τ sig) ≠ (thr, SemLoc.dma b) :=
  fun e => h (SemLoc.dma.inj (Prod.mk.inj e).2)

/-- A worker's transfer semaphore is one of its own scoped cells. -/
theorem dmaCell_mem (a : DmaSem sig) (h : (SemLoc.dma a : SemLoc sig).isScoped .scVector = true) :
    ((V d (cV L) (jV L), SemLoc.dma a) : GSem nD τ sig) ∈ ownCells (V d (cV L) (jV L)) :=
  mem_ownCells.mpr ⟨rfl, h⟩

/-- The worker's five transfer semaphores are among its own scoped cells: its cells at zero are these five at zero and
    the rest at zero. -/
theorem ownSems0_V :
    (ownSems0 (V d (cV L) (jV L)) : sProp 𝕄)
      = iprop(semVal (V d (cV L) (jV L), SemLoc.dma cc0_scratch3.sem) 0 ∗ semVal (V d (cV L) (jV L), SemLoc.dma cc0_scratch4.sem) 0
          ∗ semVal (V d (cV L) (jV L), SemLoc.dma cc0_scratch5.sem) 0 ∗ semVal (V d (cV L) (jV L), SemLoc.dma cc0_scratch6.sem) 0
          ∗ semVal (V d (cV L) (jV L), SemLoc.dma cc0_scratch7.sem) 0
          ∗ bigSep ((((((ownCells (V d (cV L) (jV L))).erase (V d (cV L) (jV L), SemLoc.dma cc0_scratch3.sem)).erase
              (V d (cV L) (jV L), SemLoc.dma cc0_scratch4.sem)).erase (V d (cV L) (jV L), SemLoc.dma cc0_scratch5.sem)).erase
              (V d (cV L) (jV L), SemLoc.dma cc0_scratch6.sem)).erase (V d (cV L) (jV L), SemLoc.dma cc0_scratch7.sem))
              fun g => semVal g 0) := by
  have m3 := dmaCell_mem d L cc0_scratch3.sem (by decide)
  have m4 := dmaCell_mem d L cc0_scratch4.sem (by decide)
  have m5 := dmaCell_mem d L cc0_scratch5.sem (by decide)
  have m6 := dmaCell_mem d L cc0_scratch6.sem (by decide)
  have m7 := dmaCell_mem d L cc0_scratch7.sem (by decide)
  have n43 := dmaCell_ne (V d (cV L) (jV L)) (show cc0_scratch4.sem ≠ cc0_scratch3.sem by decide)
  have n53 := dmaCell_ne (V d (cV L) (jV L)) (show cc0_scratch5.sem ≠ cc0_scratch3.sem by decide)
  have n54 := dmaCell_ne (V d (cV L) (jV L)) (show cc0_scratch5.sem ≠ cc0_scratch4.sem by decide)
  have n63 := dmaCell_ne (V d (cV L) (jV L)) (show cc0_scratch6.sem ≠ cc0_scratch3.sem by decide)
  have n64 := dmaCell_ne (V d (cV L) (jV L)) (show cc0_scratch6.sem ≠ cc0_scratch4.sem by decide)
  have n65 := dmaCell_ne (V d (cV L) (jV L)) (show cc0_scratch6.sem ≠ cc0_scratch5.sem by decide)
  have n73 := dmaCell_ne (V d (cV L) (jV L)) (show cc0_scratch7.sem ≠ cc0_scratch3.sem by decide)
  have n74 := dmaCell_ne (V d (cV L) (jV L)) (show cc0_scratch7.sem ≠ cc0_scratch4.sem by decide)
  have n75 := dmaCell_ne (V d (cV L) (jV L)) (show cc0_scratch7.sem ≠ cc0_scratch5.sem by decide)
  have n76 := dmaCell_ne (V d (cV L) (jV L)) (show cc0_scratch7.sem ≠ cc0_scratch6.sem by decide)
  unfold SparseCore.Cfg.ownSems0
  rw [SparseCore.bigSep_erase' m3,
    SparseCore.bigSep_erase' (Finset.mem_erase.mpr ⟨n43, m4⟩),
    SparseCore.bigSep_erase' (Finset.mem_erase.mpr ⟨n54, Finset.mem_erase.mpr ⟨n53, m5⟩⟩),
    SparseCore.bigSep_erase' (Finset.mem_erase.mpr ⟨n65, Finset.mem_erase.mpr ⟨n64, Finset.mem_erase.mpr ⟨n63, m6⟩⟩⟩),
    SparseCore.bigSep_erase' (Finset.mem_erase.mpr ⟨n76, Finset.mem_erase.mpr ⟨n75, Finset.mem_erase.mpr ⟨n74, Finset.mem_erase.mpr ⟨n73, m7⟩⟩⟩⟩)]

/-- The three staging buffers are among the worker's own: its buffers at some contents are these three at some contents
    and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Storage

section Tile

variable [FloatOps F] (m : (ℓ : Loc nD τ sig) → Buf (Elt F) ℓ)

/-- The worker's run on its resources spelt out: from the levels, the write-mode invariant, its share of the transposed
    table, its share of the result in write mode with nothing written, its three staging buffers at some contents and its
    five transfer semaphores at zero, the body returns the same with the worker's lanes recorded as written. -/
def TileCore : Prop :=
  ∀ (d : Dev nD) (L : grid0.Coords) (ιwm : ℕ) (q : PosShare TreeShare)
    (O : CellTallies nD τ sig (HIx 1)) (W : Waits sig (HIx 1)) (_ : ∀ g, O g none = 0)
    (f0 : Buf (Elt F) ((V d (cV L) (jV L)).loc cc0_scratch0)) (f1 : Buf (Elt F) ((V d (cV L) (jV L)).loc cc0_scratch1)) (f2 : Buf (Elt F) ((V d (cV L) (jV L)).loc cc0_scratch2)),
    iprop(levAts (K (F := F)).L (K (F := F)).lev ∗ wmInv (Ix := HIx 1) (wemb (F := F)) ιwm
        ∗ ((tW).view.loc (V d (cV L) (jV L)) ↦{q} tT m d)
        ∗ willBeTo (wemb (F := F)) (oLoc d) Finset.univ q (m (oLoc d)) (gT m d) ∅
        ∗ ((b0).view.loc (V d (cV L) (jV L)) ↦{fullShare} f0) ∗ ((b1).view.loc (V d (cV L) (jV L)) ↦{fullShare} f1) ∗ ((b2).view.loc (V d (cV L) (jV L)) ↦{fullShare} f2)
        ∗ semVal (V d (cV L) (jV L), SemLoc.dma cc0_scratch3.sem) 0 ∗ semVal (V d (cV L) (jV L), SemLoc.dma cc0_scratch4.sem) 0
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0
        ∗ owes (V d (cV L) (jV L)) O W)
      ⊢ wp frame (wpE (defs₀ (F := F)) 𝒱₀ (V d (cV L) (jV L)) none) Set.univ
          (cc0__sc_copy_body L tW (Memref.isWhole_whole _) oW (Memref.isWhole_whole _) b0 (Memref.isWhole_whole _) b1 (Memref.isWhole_whole _) b2 (Memref.isWhole_whole _)
            cc0_scratch3 cc0_scratch4 cc0_scratch5 cc0_scratch6 cc0_scratch7)
          fun _ => iprop(((tW).view.loc (V d (cV L) (jV L)) ↦{q} tT m d)
            ∗ willBeTo (wemb (F := F)) (oLoc d) Finset.univ q (m (oLoc d)) (gT m d) (Wtile d L)
            ∗ (∃ f, (b0).view.loc (V d (cV L) (jV L)) ↦{fullShare} f) ∗ (∃ f, (b1).view.loc (V d (cV L) (jV L)) ↦{fullShare} f) ∗ (∃ f, (b2).view.loc (V d (cV L) (jV L)) ↦{fullShare} f)
            ∗ semVal (V d (cV L) (jV L), SemLoc.dma cc0_scratch3.sem) 0 ∗ semVal (V d (cV L) (jV L), SemLoc.dma cc0_scratch4.sem) 0
            ∗ semVal (V d (cV L) (jV L), SemLoc.dma cc0_scratch5.sem) 0 ∗ semVal (V d (cV L) (jV L), SemLoc.dma cc0_scratch6.sem) 0
            ∗ semVal (V d (cV L) (jV L), SemLoc.dma cc0_scratch7.sem) 0
            ∗ ∃ W', ⌜∀ p ∈ W', p ∈ W ∨ p.2 = none⌝ ∗ owes (V d (cV L) (jV L)) O W')

omit [FloatOps F] in
/-- What the run returns and what was carried along, regrouped as the piece, the buffers, the semaphores and the waits. -/
theorem pack_post {A B C0 C1 C2 s3 s4 s5 s6 s7 X BR SR : sProp 𝕄} :
    iprop((A ∗ B ∗ C0 ∗ C1 ∗ C2 ∗ s3 ∗ s4 ∗ s5 ∗ s6 ∗ s7 ∗ X) ∗ BR ∗ SR)
      ⊢ iprop((A ∗ B) ∗ (C0 ∗ C1 ∗ C2 ∗ BR) ∗ (s3 ∗ s4 ∗ s5 ∗ s6 ∗ s7 ∗ SR) ∗ X) := by
  iintro ⟨⟨HA, HB, H0, H1, H2, S3, S4, S5, S6, S7, HX⟩, HBr, HSr⟩
  isplitl [HA HB]
  · isplitl [HA]; · iexact HA
    iexact HB
  isplitl [H0 H1 H2 HBr]
  · isplitl [H0]; · iexact H0
    isplitl [H1]; · iexact H1
    isplitl [H2]; · iexact H2
    iexact HBr
  isplitl [S3 S4 S5 S6 S7 HSr]
  · isplitl [S3]; · iexact S3
    isplitl [S4]; · iexact S4
    isplitl [S5]; · iexact S5
    isplitl [S6]; · iexact S6
    isplitl [S7]; · iexact S7
    iexact HSr
  iexact HX

/-- The worker's run as the launch hands it over: from the levels, the write-mode invariant at some name, the worker's
    piece with nothing written, its scoped storage and its waits, the body returns the piece with the worker's lanes
    written and the scoped storage as it was. -/
theorem tile_body (hcore : TileCore m) (d : Dev nD) (L : grid0.Coords) (q : PosShare TreeShare)
    (O : CellTallies nD τ sig (HIx 1)) (W : Waits sig (HIx 1)) (hO : ∀ g, O g none = 0) :
    iprop(levAts (K (F := F)).L (K (F := F)).lev ∗ wmI (F := F) ∗ piece m d q ∅
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_copy_body L tW (Memref.isWhole_whole _) oW (Memref.isWhole_whole _) b0 (Memref.isWhole_whole _) b1 (Memref.isWhole_whole _) b2 (Memref.isWhole_whole _)
            cc0_scratch3 cc0_scratch4 cc0_scratch5 cc0_scratch6 cc0_scratch7)
          fun _ => iprop(piece m d q (Wtile d L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V d (cV L) (jV L), ownBufs_V, ownSems0_V]
  unfold piece wmI
  iintro ⟨HL, ⟨%ιwm, HI⟩, ⟨Ht, Hw⟩, ⟨⟨%f0, H0⟩, ⟨%f1, H1⟩, ⟨%f2, H2⟩, HBr⟩, ⟨S3, S4, S5, S6, S7, HSr⟩, HO⟩
  iapply (wp_mono frame _ _ (fun _ => pack_post))
  iapply (wp_frame_r frame _ _)
  isplitr [HBr HSr]
  · iapply (hcore d L ιwm q O W hO f0 f1 f2)
    isplitl [HL]; · iexact HL
    isplitl [HI]; · iexact HI
    isplitl [Ht]; · iexact Ht
    isplitl [Hw]; · iexact Hw
    isplitl [H0]; · iexact H0
    isplitl [H1]; · iexact H1
    isplitl [H2]; · iexact H2
    isplitl [S3]; · iexact S3
    isplitl [S4]; · iexact S4
    isplitl [S5]; · iexact S5
    isplitl [S6]; · iexact S6
    isplitl [S7]; · iexact S7
    iexact HO
  · isplitl [HBr]; · iexact HBr
    iexact HSr

end Tile

section Launch

variable [FloatOps F] (m : (ℓ : Loc nD τ sig) → Buf (Elt F) ℓ)

/-- The kernel's entry for a vector subcore is the body at the subcore's grid point, on the whole arrays and the
    subcore's scratch. -/
theorem defs₀_vector (c : Fin τ.nSC) (s : Fin τ.nSub) :
    defs₀ (F := F) (.scVector c s) 0 ()
      = SparseCore.onTile hcore0 hsub0 (fun c s => cc0__sc_copy_body (coordsV c s)
          tW (Memref.isWhole_whole _) oW (Memref.isWhole_whole _) b0 (Memref.isWhole_whole _) b1 (Memref.isWhole_whole _) b2 (Memref.isWhole_whole _)
          cc0_scratch3 cc0_scratch4 cc0_scratch5 cc0_scratch6 cc0_scratch7) ⟨⟩ c s := rfl

omit [FloatOps F] in
/-- The waits left are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the kernel's tasks: each vector subcore of the grid, handed its piece, returns
    it with its lanes written. -/
theorem tileObl (hcore : TileCore m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hcore d (coordsV ⟨_, hc.1⟩ ⟨_, hc.2⟩) (qT (Fin.cast nCore_zero c) (Fin.cast nSub_zero i)) O W hO).trans (wp_mono frame _ _ fun _ => obl_post)

end Launch

end Cert.Proof.KB

end
-- ==== Proof.KBLaunchA.lean ====
/-
  The launch's share bookkeeping.

  A SparseCore's piece (a share of the transposed table to read, the same share of the result in write mode) splits
  into sixteen pieces, one per worker, and a remainder; the workers' pieces, each with the lanes its worker has
  written recorded, join with the remainder into the SparseCore's piece with all those lanes recorded. At the launch
  the write-mode invariant is allocated from the ghost state's write-mode component, and, being persistent, is told to
  every device and every thread.
-/
import proofs.«206677_g74234214744565_cont_9to1_m_856_16_alg».proof.Proof.KBPay
import proofs.«206677_g74234214744565_cont_9to1_m_856_16_alg».proof.Proof.LibWriteModeShares

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.WriteModeShares

variable {F : FTy → Type}

local notation "𝕄" => MT nD τ sig (HIx 1) (Elt F) ℕ (UU (F := F)) ℕ

variable (m : (ℓ : Loc nD τ sig) → Buf (Elt F) ℓ) (ρ : Dev nD → PrngReg)

/-! ## A SparseCore's piece and its workers' -/

/-- A family over the sixteen workers, indexed through the call's task numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A piece at share `q` with nothing written is sixteen pieces at the token shares of `q` with nothing written, and a
    remainder; the remainder and sixteen pieces at the token shares, the `i`-th with the lanes `Wt i` written, are a piece
    at `q` with all the `Wt i` written. -/
theorem piece_split (d : Dev nD) (q : PosShare TreeShare) (Wt : Fin 16 → Finset (Idx (oLoc d))) :
    piece m d q ∅ ⊢ iprop((bigSep Finset.univ fun i : Fin 16 => piece m d (shareTok q 16 i) ∅)
      ∗ ((bigSep Finset.univ fun i : Fin 16 => piece m d (shareTok q 16 i) (Wt i))
          -∗ piece m d q (∅ ∪ Finset.univ.biUnion Wt))) := by
  unfold piece
  rw [bigSep_sep', bigSep_sep']
  iintro ⟨Ht, Hw⟩
  ihave Ht' := (Transfers.pointsTo_toks_split q 16) $$ Ht
  icases Ht' with ⟨Htd, Hts⟩
  ihave Hw' := (willBeTo_toks_split q 16) $$ Hw
  icases Hw' with ⟨Hwd, Hws⟩
  isplitl [Hts Hws]
  · isplitl [Hts]; · iexact Hts
    iexact Hws
  iintro ⟨Hts, Hws⟩
  isplitl [Htd Hts]
  · iapply (Transfers.pointsTo_toks_join q 16)
    isplitl [Htd] <;> iassumption
  · iapply (willBeTo_toks_join q 16 ∅ Wt)
    isplitl [Hwd] <;> iassumption

/-- The call's split: what a SparseCore is started with is what its sixteen workers are sent, and what they send back
    is what the SparseCore reports. -/
theorem vecSplit : (K (F := F)).VecSplit' (P m) 0 := by
  intro d c
  show piece m d (qC (Fin.cast nCore_zero c)) ∅ ⊢ |={Set.univ}=> iprop(
      (bigSep Finset.univ fun i : Fin ((K (F := F)).nSub 0) => piece m d (qT (Fin.cast nCore_zero c) (Fin.cast nSub_zero i)) ∅)
      ∗ ((bigSep Finset.univ fun i : Fin ((K (F := F)).nSub 0) =>
            piece m d (qT (Fin.cast nCore_zero c) (Fin.cast nSub_zero i)) (Wtile d (LV (Fin.cast nCore_zero c) (Fin.cast nSub_zero i))))
          -∗ piece m d (qC (Fin.cast nCore_zero c)) (Wcore d (Fin.cast nCore_zero c))))
  generalize Fin.cast nCore_zero c = c'
  rw [bigSep_tasks (F := F) (fun i => piece m d (qT c' i) ∅), bigSep_tasks (F := F) (fun i => piece m d (qT c' i) (Wtile d (LV c' i)))]
  iintro H
  imodintro
  iapply (piece_split m d (qC c') (fun i => Wtile d (LV c' i)))
  iexact H

/-! ## The launch element of the ghost state -/

/-- The ghost state at launch: the handshakes' rounds funded, no element in write mode, no counter. -/
def u₀ : UU (F := F) := (initOf (K (F := F)).hsCells (K (F := F)).hsToks, (wm₀ nD τ sig (Elt F), 1))

/-- The write-mode invariant, once it exists, is told to every device and to every thread for the one call. -/
theorem wmI_deal : (wmI (F := F) : sProp 𝕄) ⊢ iprop((bigSep Finset.univ fun _ : Dev nD => (wmI (F := F) : sProp 𝕄))
    ∗ bigSep Finset.univ fun thr : Thread nD τ => bigSep Finset.univ fun q : Fin 1 => (P m).x q thr) := by
  have e : ∀ thr : Thread nD τ, (bigSep Finset.univ fun q : Fin 1 => (P m).x q thr) = (wmI (F := F) : sProp 𝕄) :=
    fun thr => bigSep_univ_of_subsingleton (0 : Fin 1)
  rw [bigSep_congr fun thr _ => e thr]
  iintro #H
  isplitr
  · iapply (bigSep_of_persistent Finset.univ (wmI (F := F) : sProp 𝕄)); iexact H
  · iapply (bigSep_of_persistent Finset.univ (wmI (F := F) : sProp 𝕄)); iexact H

/-- From the launch element: the handshakes' rounds; the write-mode invariant, allocated from the write-mode component
    with nothing in write mode, for every device and every thread. -/
theorem hu₀ : (ownU (u₀ (F := F)) : sProp 𝕄)
    ⊢ |={Set.univ}=> iprop(BI.own (EH (initOf (K (F := F)).hsCells (K (F := F)).hsToks)) ∗ (bigSep Finset.univ fun _ : Dev nD => (wmI (F := F) : sProp 𝕄))
        ∗ bigSep Finset.univ fun thr : Thread nD τ => bigSep Finset.univ fun q : Fin 1 => (P m).x q thr) := by
  unfold u₀
  iintro Hu
  ihave H := (ownU_pair _ _) $$ Hu
  icases H with ⟨HH, HW⟩
  ihave HW' := (show (BI.own (embR (wm₀ nD τ sig (Elt F), (1 : Counters))) : sProp 𝕄) ⊢ ownU ((wemb (F := F)) (wm₀ nD τ sig (Elt F)))
    from Entails.of_eq rfl) $$ HW
  imod (wmInv_alloc (emb := wemb (F := F)) (⟨m, fun _ => 0, fun _ => default⟩ : MemSt nD τ sig (Elt F))) $$ HW' with ⟨%ιwm, -, #Hwi⟩
  imodintro
  isplitl [HH]; · iexact HH
  iapply (wmI_deal m)
  unfold wmI; iexists ιwm; iexact Hwi

end Cert.Proof.KB

end
-- ==== Proof.KBCover.lean ====
/-
  The workers' written sets cover the result.

  Worker number w = 2·(L 1) + (L 0) of the 32 workers copies the 21 chunks of 1536 lanes numbered ⌊630·w / 31⌋ + r,
  r < 21; worker 0 also copies the last 64 lanes. The lane offset of a chunk is computed in 32-bit words; no step of
  that computation wraps, so the offset is the natural number 1536·(⌊(1260·(L 1) + 630·(L 0)) / 31⌋ + r). The chunks
  of all workers cover the lanes below 999936 = 651·1536, the last 64 lanes cover the rest up to 1000000, and a chunk
  takes all 32 rows: every element of the result lies in some worker's written set.
-/
import proofs.«206677_g74234214744565_cont_9to1_m_856_16_alg».proof.Proof.KBPay
import proofs.«206677_g74234214744565_cont_9to1_m_856_16_alg».proof.Proof.LibChunkCover
import Idealize.ShloMosaic.Lib.Affine

noncomputable section

namespace Cert.Proof.KB

open Cert.Kernel Cert.Kernel.Gen

open Idealize.ShloMosaic

variable {F : FTy → Type}

/-- The lane offset of chunk r of the worker at grid point L. The 32-bit computation forms w = 2·(L 1) + (L 0) ≤ 31,
    then 630·w ≤ 19530, its floor quotient by 31 (the dividend is nonnegative and the divisor positive, so the
    correction the floor-division expansion applies to a truncated quotient of operands of opposite signs never
    fires), adds r and multiplies by 1536; the result is below 2³¹ at every step, so the words' values are these
    natural numbers. -/
theorem k0_off1_val (L : grid0.Coords) (r : Fin 21) :
    k0_off1 L (BitVec.ofNat 32 r.val) = ![0, 1536 * ((1260 * (L 1).val + 630 * (L 0).val) / 31 + r.val)] := by
  have r_r : r.val < 21 := r.isLt
  have h_c0_i32_4 : Affine.IsInt (BitVec.ofNat 32 r.val) ((r.val : Int)) := Affine.ofNat _ (by omega)
  have r_i1 : (L 1).val < 16 := (L 1).isLt
  have h_arg1 : Affine.IsInt (BitVec.ofNat 32 (L 1).val) (((L 1).val : Int)) := Affine.ofNat _ (by omega)
  have h_c2_i32 : Affine.IsInt 2#32 (2) := Affine.ofNat _ (by omega)
  have h_v0 : Affine.IsInt _ (2 * ((L 1).val : Int)) := Affine.muli h_arg1 h_c2_i32 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c630_i32 : Affine.IsInt 630#32 (630) := Affine.ofNat _ (by omega)
  have h_v2 : Affine.IsInt _ (1260 * ((L 1).val : Int) + 630 * ((L 0).val : Int)) := Affine.muli h_v1 h_c630_i32 (by omega)
  have h_c0_i32 : Affine.IsInt 0#32 (0) := Affine.ofNat _ (by omega)
  have h_c31_i32 : Affine.IsInt 31#32 (31) := Affine.ofNat _ (by omega)
  have h_c1_i32 : Affine.IsInt 1#32 (1) := Affine.ofNat _ (by omega)
  have h_c1536_i32 : Affine.IsInt 1536#32 (1536) := Affine.ofNat _ (by omega)
  -- the sign of the divisor: 1, so the two signs differ exactly when the dividend's sign is not 1
  have h_v9 : Affine.Holds _ := Affine.sgt_holds h_c31_i32 h_c0_i32 (by omega)
  have h_v10 : Affine.IsInt _ (1) := Affine.extui_holds h_v9 (by omega)
  have h_v11 : Affine.Fails _ := Affine.slt_fails h_c31_i32 h_c0_i32 (by omega)
  have h_v12 : Affine.IsInt _ (0) := Affine.extui_fails h_v11 (by omega)
  have h_v13 : Affine.IsInt _ (1) := Affine.subi h_v10 h_v12 (by omega)
  have h_v6 : Affine.Fails _ := Affine.slt_fails h_v2 h_c0_i32 (by omega)
  have h_v7 : Affine.IsInt _ (0) := Affine.extui_fails h_v6 (by omega)
  have h_v3 : Affine.IsInt _ (((1260 * ((L 1).val : Int) + 630 * ((L 0).val : Int)) / 31)) := Affine.divsi h_v2 h_c31_i32 (by omega)
  have h_v18 : Affine.IsInt _ (((1260 * ((L 1).val : Int) + 630 * ((L 0).val : Int)) / 31) - 1) := Affine.subi h_v3 h_c1_i32 (by omega)
  -- the value read as a natural number
  have hval : ((1536 * ((1260 * ((L 1).val : Int) + 630 * ((L 0).val : Int)) / 31) + 1536 * (r.val : Int)) : Int)
      = ((1536 * ((1260 * (L 1).val + 630 * (L 0).val) / 31 + r.val) : Nat) : Int) := by
    push_cast; omega
  rcases (show 1260 * ((L 1).val : Int) + 630 * ((L 0).val : Int) ≤ 0 ∨ 1 ≤ 1260 * ((L 1).val : Int) + 630 * ((L 0).val : Int) by omega) with hs | hs
  · -- the dividend is 0: its sign is 0, the signs differ, but the remainder is 0
    have h_v4 : Affine.Fails _ := Affine.sgt_fails h_v2 h_c0_i32 (by omega)
    have h_v5 : Affine.IsInt _ (0) := Affine.extui_fails h_v4 (by omega)
    have h_v8 : Affine.IsInt _ (0) := Affine.subi h_v5 h_v7 (by omega)
    have h_v14 : Affine.Holds _ := Affine.ne_holds h_v8 h_v13 (by omega)
    have h_v15 : Affine.IsInt _ (1260 * ((L 1).val : Int) + 630 * ((L 0).val : Int)) := Affine.remsi h_v2 h_c31_i32 (by omega)
    have h_v16 : Affine.Fails _ := Affine.ne_fails h_v15 h_c0_i32 (by omega)
    have h_v17 : Affine.Fails _ := Affine.andi_fails_right (Affine.tH h_v14) h_v16
    have h_v19 : Affine.IsInt _ (((1260 * ((L 1).val : Int) + 630 * ((L 0).val : Int)) / 31)) := Affine.select_fails h_v17 h_v18 h_v3 (by omega)
    have h_v20 : Affine.IsInt _ (((1260 * ((L 1).val : Int) + 630 * ((L 0).val : Int)) / 31) + (r.val : Int)) := Affine.addi h_v19 h_c0_i32_4 (by omega)
    have h_v21 : Affine.IsInt _ (1536 * ((1260 * ((L 1).val : Int) + 630 * ((L 0).val : Int)) / 31) + 1536 * (r.val : Int)) := Affine.muli h_v20 h_c1536_i32 (by omega)
    exact congrArg (fun n : Nat => ![0, n]) (Affine.nat_eq h_v21 _ hval)
  · -- the dividend is positive: its sign is 1, the same as the divisor's
    have h_v4 : Affine.Holds _ := Affine.sgt_holds h_v2 h_c0_i32 (by omega)
    have h_v5 : Affine.IsInt _ (1) := Affine.extui_holds h_v4 (by omega)
    have h_v8 : Affine.IsInt _ (1) := Affine.subi h_v5 h_v7 (by omega)
    have h_v14 : Affine.Fails _ := Affine.ne_fails h_v8 h_v13 (by omega)
    have h_v15 : Affine.IsInt _ (((1260 * ((L 1).val : Int) + 630 * ((L 0).val : Int)) % 31)) := Affine.remsi h_v2 h_c31_i32 (by omega)
    have h_v16 : Affine.Term _ := Affine.cmpi_term .ne h_v15 h_c0_i32
    have h_v17 : Affine.Fails _ := Affine.andi_fails_left h_v14 h_v16
    have h_v19 : Affine.IsInt _ (((1260 * ((L 1).val : Int) + 630 * ((L 0).val : Int)) / 31)) := Affine.select_fails h_v17 h_v18 h_v3 (by omega)
    have h_v20 : Affine.IsInt _ (((1260 * ((L 1).val : Int) + 630 * ((L 0).val : Int)) / 31) + (r.val : Int)) := Affine.addi h_v19 h_c0_i32_4 (by omega)
    have h_v21 : Affine.IsInt _ (1536 * ((1260 * ((L 1).val : Int) + 630 * ((L 0).val : Int)) / 31) + 1536 * (r.val : Int)) := Affine.muli h_v20 h_c1536_i32 (by omega)
    exact congrArg (fun n : Nat => ![0, n]) (Affine.nat_eq h_v21 _ hval)

/-- The elements under chunk r of the worker at L are the rectangle's: the slice is of the whole array. -/
theorem chunkSet_eq (d : Dev nD) (L : grid0.Coords) (r : Fin 21) : chunkSet d L r = (chunkR L r).set := by
  show ((View.whole (main_v1_scv : Ref sig .scVector)).slice (chunkR L r)).set = _
  rw [View.set_slice]; exact Finset.map_refl

/-- The elements under the last 64 lanes are that rectangle's. -/
theorem tailSet_eq (d : Dev nD) : tailSet d = tailR.set := by
  show ((View.whole (main_v1_scv : Ref sig .scVector)).slice tailR).set = _
  rw [View.set_slice]; exact Finset.map_refl

/-- An element lies under chunk r of the worker at L when its lane is one of the chunk's 1536: the chunk takes all
    32 rows. -/
theorem mem_chunkSet (d : Dev nD) (L : grid0.Coords) (r : Fin 21) (i : Idx (oLoc d))
    (hlo : 1536 * ((1260 * (L 1).val + 630 * (L 0).val) / 31 + r.val) ≤ (i 1).val)
    (hhi : (i 1).val < 1536 * ((1260 * (L 1).val + 630 * (L 0).val) / 31 + r.val) + 1536) : i ∈ chunkSet d L r := by
  rw [chunkSet_eq]
  refine Rect.mem_set_unit.mpr ?_
  rw [k0_off1_val]
  refine Fin.forall_fin_two.mpr ⟨⟨Nat.zero_le _, ?_⟩, ⟨hlo, hhi⟩⟩
  have h0 : (i 0).val < 32 := (i 0).isLt
  show (i 0).val < 0 + 32
  omega

/-- An element lies under the last 64 lanes when its lane is 999936 or later. -/
theorem mem_tailSet (d : Dev nD) (i : Idx (oLoc d)) (h : 999936 ≤ (i 1).val) : i ∈ tailSet d := by
  rw [tailSet_eq]
  refine Rect.mem_set_unit.mpr ?_
  refine Fin.forall_fin_two.mpr ⟨⟨Nat.zero_le _, ?_⟩, ⟨h, ?_⟩⟩
  · have h0 : (i 0).val < 32 := (i 0).isLt
    show (i 0).val < 0 + 32
    omega
  · have h1 : (i 1).val < 1000000 := (i 1).isLt
    show (i 1).val < 999936 + 64
    omega

/-- Each of a worker's 21 chunks is among its first k, for k past the chunk's number. -/
theorem chunkSet_subset_Wupto (d : Dev nD) (L : grid0.Coords) (r : Fin 21) :
    ∀ k, r.val < k → k ≤ 21 → chunkSet d L r ⊆ Wupto d L k
  | 0, h, _ => absurd h (Nat.not_lt_zero _)
  | k + 1, h, hk => by
    rw [Wupto_succ d L k (by omega)]
    rcases Nat.lt_succ_iff_lt_or_eq.mp h with h' | h'
    · exact (chunkSet_subset_Wupto d L r k h' (by omega)).trans Finset.subset_union_left
    · obtain ⟨rv, hr⟩ := r
      simp only at h'
      subst h'
      exact Finset.subset_union_right

/-- Every element (row, lane) of the result lies in some worker's written set. A lane below 999936 lies in chunk r of
    some worker w < 32, the worker at grid point (w mod 2, ⌊w / 2⌋), as 630·w = 1260·⌊w / 2⌋ + 630·(w mod 2); a later
    lane is one of the last 64, which worker 0 writes. -/
theorem cover (d : Dev nD) :
    (∅ : Finset (Idx (oLoc d))) ∪ Finset.univ.biUnion (fun c : Fin 2 => Wcore d c) = Finset.univ := by
  rw [Finset.empty_union]
  refine Finset.eq_univ_iff_forall.mpr fun i => ?_
  by_cases hl : (i 1).val < 999936
  · obtain ⟨w, r, hlo, hhi⟩ := ChunkCover.chunk_cover (i 1).val hl
    have hw := w.isLt
    have hc : w.val % 2 < 2 := Nat.mod_lt _ (by decide)
    have hs : w.val / 2 < 16 := by omega
    refine Finset.mem_biUnion.mpr ⟨⟨w.val % 2, hc⟩, Finset.mem_univ _, ?_⟩
    refine Finset.mem_union_right _ (Finset.mem_biUnion.mpr ⟨⟨w.val / 2, hs⟩, Finset.mem_univ _, ?_⟩)
    refine Finset.mem_union_left _ (chunkSet_subset_Wupto d _ r 21 r.isLt (Nat.le_refl _) ?_)
    refine mem_chunkSet d _ r i ?_ ?_
    · show 1536 * ((1260 * (w.val / 2) + 630 * (w.val % 2)) / 31 + r.val) ≤ (i 1).val
      omega
    · show (i 1).val < 1536 * ((1260 * (w.val / 2) + 630 * (w.val % 2)) / 31 + r.val) + 1536
      omega
  · refine Finset.mem_biUnion.mpr ⟨0, Finset.mem_univ _, ?_⟩
    refine Finset.mem_union_right _ (Finset.mem_biUnion.mpr ⟨0, Finset.mem_univ _, ?_⟩)
    refine Finset.mem_union_right _ ?_
    rw [if_pos (show IsFirst (LV 0 0) from ⟨rfl, rfl⟩)]
    exact mem_tailSet d i (by omega)

end Cert.Proof.KB

end
-- ==== Proof.KBLaunchB.lean ====
/-
  @main on the TensorCore.

  The first host operation leaves the table transposed in the kernel's operand. The result array enters write mode with
  the transposed table as every element's target; the operand and the result array are split in a remainder and one
  piece per SparseCore; the call takes the pieces and brings them back with the lanes written recorded; the pieces and
  the remainder join, every lane is recorded as written, and the result array leaves write mode holding the transposed
  table. The second host operation transposes it back: the program's result is the table.
-/
import proofs.«206677_g74234214744565_cont_9to1_m_856_16_alg».proof.Proof.KBPay
import proofs.«206677_g74234214744565_cont_9to1_m_856_16_alg».proof.Proof.LibWriteModeShares
import proofs.«206677_g74234214744565_cont_9to1_m_856_16_alg».proof.Proof.KBLaunchA
import proofs.«206677_g74234214744565_cont_9to1_m_856_16_alg».proof.Proof.KBCover
import Idealize.ShloMosaic.Lib.ValueLayout
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.WriteModeShares
open Idealize.ShloMosaic.ValueIdx (ix2 eq_ix2 transpose_ix2_apply)
open Idealize.ShloMosaic.StableHlo (held held_split held_sdiff_result wp_hlo_within)

variable {F : FTy → Type}

local notation "𝕄" => MT nD τ sig (HIx 1) (Elt F) ℕ (UU (F := F)) ℕ

variable (m : (ℓ : Loc nD τ sig) → Buf (Elt F) ℓ) (ρ : Dev nD → PrngReg)

/-! ## The TensorCore's arrays -/

abbrev a' : DevRef τ sig := Proc.devRef .tc (main_arg0 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped: the table, its transpose, the copy, the copy transposed back. -/
abbrev S4 : Finset (DevRef τ sig) := {a', t', o', r'}

/-- The two host operations. -/
abbrev opT1 : HloOp τ sig (Elt F) :=
  StableHlo.unary main_arg0 main_v0 ((transpose S32x1000000 [1, 0] · transposes_S1000000x32_S32x1000000_1_0) :
    (⟨S1000000x32, .f32⟩ : BufTy).Contents (Elt F) → (⟨S32x1000000, .f32⟩ : BufTy).Contents (Elt F))
abbrev opT2 : HloOp τ sig (Elt F) :=
  StableHlo.unary main_v1 main_v2 ((transpose S1000000x32 [1, 0] · transposes_S32x1000000_S1000000x32_1_0) :
    (⟨S32x1000000, .f32⟩ : BufTy).Contents (Elt F) → (⟨S1000000x32, .f32⟩ : BufTy).Contents (Elt F))

theorem held_S4 (d : Dev nD) (W : Valuation τ sig (Elt F)) :
    (held (T d) S4 W : sProp 𝕄) = iprop((aLoc d ↦{fullShare} W a') ∗ (tLoc d ↦{fullShare} W t') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hT1 : (opT1 (F := F)).bufs ⊆ S4 := show ({a', t'} : Finset (DevRef τ sig)) ⊆ S4 by decide
theorem hT2 : (opT2 (F := F)).bufs ⊆ S4 := show ({o', r'} : Finset (DevRef τ sig)) ⊆ S4 by decide

variable [FloatOps F]

/-- After the first host operation: the operand holds the transposed table, the other arrays are as at launch. -/
theorem held_V1 (d : Dev nD) :
    (held (T d) S4 ((opT1 (F := F)).result (V0 m d)) : sProp 𝕄)
      = iprop((aLoc d ↦{fullShare} m (aLoc d)) ∗ (tLoc d ↦{fullShare} tT m d) ∗ (oLoc d ↦{fullShare} m (oLoc d)) ∗ rLoc d ↦{fullShare} m (rLoc d)) := by
  rw [held_S4,
    (opT1 (F := F)).result_of_not_mem (V0 m d) (b := a') (show a' ∉ ({t'} : Finset (DevRef τ sig)) by decide),
    (opT1 (F := F)).result_of_not_mem (V0 m d) (b := o') (show o' ∉ ({t'} : Finset (DevRef τ sig)) by decide),
    (opT1 (F := F)).result_of_not_mem (V0 m d) (b := r') (show r' ∉ ({t'} : Finset (DevRef τ sig)) by decide)]
  rfl

/-- A family over the two SparseCores, indexed through the call's grid. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back: their shares of the operand, and of the result
    array in write mode, nothing written before and each SparseCore's lanes written after. -/
theorem st0_eq (d : Dev nD) : (bigSep Finset.univ fun c : Fin ((K (F := F)).nCore 0) => (P m).st 0 d c)
    = iprop((bigSep Finset.univ fun c : Fin 2 => tLoc d ↦{qC c} tT m d)
        ∗ bigSep Finset.univ fun c : Fin 2 => willBeTo (wemb (F := F)) (oLoc d) Finset.univ (qC c) (m (oLoc d)) (gT m d) ∅) := by
  show (bigSep Finset.univ fun c : Fin ((K (F := F)).nCore 0) => piece m d (qC (Fin.cast nCore_zero c)) ∅) = _
  rw [bigSep_cores (F := F) (fun c => piece m d (qC c) ∅)]
  unfold piece
  rw [bigSep_sep']
theorem dn0_eq (d : Dev nD) : (bigSep Finset.univ fun c : Fin ((K (F := F)).nCore 0) => (P m).dn 0 d c)
    = iprop((bigSep Finset.univ fun c : Fin 2 => tLoc d ↦{qC c} tT m d)
        ∗ bigSep Finset.univ fun c : Fin 2 => willBeTo (wemb (F := F)) (oLoc d) Finset.univ (qC c) (m (oLoc d)) (gT m d) (Wcore d c)) := by
  show (bigSep Finset.univ fun c : Fin ((K (F := F)).nCore 0) => piece m d (qC (Fin.cast nCore_zero c)) (Wcore d (Fin.cast nCore_zero c))) = _
  rw [bigSep_cores (F := F) (fun c => piece m d (qC c) (Wcore d c))]
  unfold piece
  rw [bigSep_sep']

/-- The valuation before the second host operation: the operand and the result array both hold the transposed table. -/
def V2 (d : Dev nD) : Valuation τ sig (Elt F) := Function.update (Function.update (V0 m d) t' (tT m d)) o' (tT m d)

theorem V2_a (d : Dev nD) : V2 m d a' = m (aLoc d) := by
  unfold V2; rw [Function.update_of_ne (show a' ≠ o' by decide), Function.update_of_ne (show a' ≠ t' by decide)]; rfl
theorem V2_t (d : Dev nD) : V2 m d t' = tT m d := by
  unfold V2; rw [Function.update_of_ne (show t' ≠ o' by decide), Function.update_self]
theorem V2_o (d : Dev nD) : V2 m d o' = tT m d := Function.update_self _ _ _
theorem V2_r (d : Dev nD) : V2 m d r' = m (rLoc d) := by
  unfold V2; rw [Function.update_of_ne (show r' ≠ o' by decide), Function.update_of_ne (show r' ≠ t' by decide)]; rfl

/-- The transposed table transposed back is the table. -/
theorem tT_back (d : Dev nD) (i : S1000000x32.Idx) :
    (transpose S1000000x32 [1, 0] (tT m d) transposes_S32x1000000_S1000000x32_1_0 : S1000000x32.Idx → Elt F .f32) i
      = (m (aLoc d) : S1000000x32.Idx → Elt F .f32) i := by
  have e : i = ix2 (n0 := 1000000) (n1 := 32) (i 0) (i 1) := eq_ix2 i
  have h1 : (transpose S1000000x32 [1, 0] (tT m d) transposes_S32x1000000_S1000000x32_1_0 : S1000000x32.Idx → Elt F .f32) (ix2 (i 0) (i 1))
      = (tT m d : S32x1000000.Idx → Elt F .f32) (ix2 (i 1) (i 0)) :=
    transpose_ix2_apply (a := 32) (b := 1000000) _ _ (i 0) (i 1)
  have h2 : (tT m d : S32x1000000.Idx → Elt F .f32) (ix2 (i 1) (i 0)) = (m (aLoc d) : S1000000x32.Idx → Elt F .f32) (ix2 (i 0) (i 1)) :=
    transpose_ix2_apply (a := 1000000) (b := 32) _ _ (i 1) (i 0)
  rw [e]; exact h1.trans h2

/-- After the second host operation: the table still at its launch contents, the program's result the transposed table
    transposed back. -/
theorem held_V3 (d : Dev nD) :
    (held (T d) S4 ((opT2 (F := F)).result (V2 m d)) : sProp 𝕄)
      ⊢ iprop((aLoc d ↦{fullShare} m (aLoc d))
          ∗ rLoc d ↦{fullShare} ((transpose S1000000x32 [1, 0] (tT m d) transposes_S32x1000000_S1000000x32_1_0 : S1000000x32.Idx → Elt F .f32))) := by
  rw [held_S4,
    (opT2 (F := F)).result_of_not_mem (V2 m d) (b := a') (show a' ∉ ({r'} : Finset (DevRef τ sig)) by decide), V2_a,
    show (opT2 (F := F)).result (V2 m d) r' = _ from StableHlo.unary_result _ _ _ _ _ _, V2_o]
  iintro ⟨Ha, -, -, Hr⟩
  isplitl [Ha]; · iexact Ha
  iexact Hr

/-- What @main leaves the claim: the table at its launch contents, and the program's result holding the table's entries. -/
abbrev FIN (d : Dev nD) : sProp 𝕄 :=
  iprop((aLoc d ↦{fullShare} m (aLoc d))
    ∗ ∃ f : Buf (Elt F) (rLoc d), ⌜∀ i : S1000000x32.Idx, (f : S1000000x32.Idx → Elt F .f32) i = (m (aLoc d) : S1000000x32.Idx → Elt F .f32) i⌝
        ∗ rLoc d ↦{fullShare} f)

/-- @main on device `d`'s TensorCore: the first
    transpose; the result array into write mode towards the transposed table; the call, on a share each of the operand
    and of the result array; every lane written (the two SparseCores' lanes cover the result array), the result array
    out of write mode at the transposed table; the second
    transpose, whose result reads, at every index, the table's entry. -/
theorem hmain (κ : GSem nD τ sig → ℕ) (d : Dev nD) :
    iprop((K (F := F)).ctx EH (P m) κ ∗ (K (F := F)).tcSt EH d 0 ∗ (K (F := F)).tcRes m ρ d ∗ (wmI (F := F) : sProp 𝕄))
      ⊢ wp frame (wpE ((K (F := F)).defs (D (F := F))) 𝒱 (SparseCore.T d) none) Set.univ (main d)
          fun _ => iprop((K (F := F)).tcSt EH d 1 ∗ FIN m d) := by
  unfold SparseCore.Cfg.tcRes wmI
  rw [unscoped_held]
  simp only [main, wp_bind, wp_pure]
  iintro ⟨#Hctx, Hst, ⟨Hb, Hheld, -, -⟩, ⟨%ιwm, #Hwi⟩⟩
  iapply (wp_hlo_within 𝒱 (SparseCore.T d) none Set.univ (op := opT1) (S := S4) hT1 (V := V0 m d)) $$ [Hb Hheld]
  · isplitl [Hb]; · iexact Hb
    iexact Hheld
  iintro ⟨Hb, Hheld⟩
  -- the operand holds the transposed table
  ihave Hh := (Entails.of_eq (held_V1 (F := F) m d)) $$ Hheld
  icases Hh with ⟨Ha, Ht, Ho, Hr⟩
  rw [wp_ret]
  -- the result array enters write mode, every element's target the transposed table's
  imod (pointsTo_castIn (emb := wemb (F := F)) (ιwm := ιwm) (E := Set.univ) (ℓ := oLoc d) (I := Finset.univ) (f := m (oLoc d)) (gT m d)) $$ [Ho] with Hw
  · isplitr; · iexact Hwi
    iexact Ho
  imodintro
  -- the operand and the result array, split in a remainder and one share per SparseCore
  ihave Ht' := (Transfers.pointsTo_toks_split fullShare 2) $$ Ht
  icases Ht' with ⟨Htd, Hts⟩
  ihave Hw' := (willBeTo_toks_split fullShare 2) $$ Hw
  icases Hw' with ⟨Hwd, Hws⟩
  -- the call
  iapply ((K (F := F)).wp_run (D (F := F)) 𝒱 (EH := EH) (P := P m) κ d 0) $$ [Hst Hts Hws Hb Ha Hr Htd Hwd]
  isplitr; · iexact Hctx
  isplitl [Hst]; · iexact Hst
  isplitl [Hts Hws]
  · rw [st0_eq]
    isplitl [Hts]; · iexact Hts
    iexact Hws
  iintro ⟨Hst, Hdn⟩
  ihave Hdn' := (Entails.of_eq (dn0_eq m d)) $$ Hdn
  icases Hdn' with ⟨Hts, Hws⟩
  ihave Ht := (Transfers.pointsTo_toks_join fullShare 2) $$ [Htd Hts]
  · isplitl [Htd] <;> iassumption
  ihave Hw := (willBeTo_toks_join fullShare 2 ∅ (fun c => Wcore d c)) $$ [Hwd Hws]
  · isplitl [Hwd] <;> iassumption
  rw [cover d]
  -- every lane is written: the result array leaves write mode holding the transposed table
  imod (willBeTo_castOut_some (emb := wemb (F := F)) (ιwm := ιwm) (E := Set.univ) (ℓ := oLoc d) (I := Finset.univ) (f := m (oLoc d))
    (g := tT m d) (W := Finset.univ)) $$ [Hw] with Ho
  · isplitr; · iexact Hwi
    iexact Hw
  rw [Finset.piecewise_univ]
  -- the second host operation
  iapply (wp_hlo_within 𝒱 (SparseCore.T d) none Set.univ (op := opT2) (S := S4) hT2 (V := V2 m d)) $$ [Hb Ha Ht Ho Hr]
  · isplitl [Hb]; · iexact Hb
    rw [held_S4, V2_a, V2_t, V2_o, V2_r]
    isplitl [Ha]; · iexact Ha
    isplitl [Ht]; · iexact Ht
    isplitl [Ho]; · iexact Ho
    iexact Hr
  iintro ⟨Hb, Hheld⟩
  ihave Hh := (held_V3 (F := F) m d) $$ Hheld
  icases Hh with ⟨Ha, Hr⟩
  rw [wp_ret]; imodintro; imodintro
  isplitl [Hst]; · iexact Hst
  isplitl [Ha]; · iexact Ha
  iexists (transpose S1000000x32 [1, 0] (tT m d) transposes_S32x1000000_S1000000x32_1_0 : S1000000x32.Idx → Elt F .f32)
  isplitr
  · ipureintro; exact tT_back m d
  · iexact Hr

/-! ## The program's run and the claim -/

/-- What the claim reads off the final memory of device `d`: the program's result holds the table's entries, and the
    table is unchanged. -/
def fq (d : Dev nD) (s' : Phys nD τ sig (Elt F)) : Prop :=
  (∀ i : S1000000x32.Idx, (s'.mem.mem (rLoc d) : S1000000x32.Idx → Elt F .f32) i = (m (aLoc d) : S1000000x32.Idx → Elt F .f32) i)
    ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, %f, %hf, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := f)) $$ [HSI Hr]
  · isplitl [HSI] <;> iassumption
  icases H with %h2
  ipureintro
  exact ⟨fun i => (h2 i (Finset.mem_univ i)).trans (hf i), funext fun i => h1 i (Finset.mem_univ i)⟩

/-- The program's run, from the tile obligation: every weakly fair execution terminates, and on every device the
    program's result holds the table's entries and the table is unchanged. -/
theorem run_main [∀ e, Nonempty (Elt F e)]
    (htile : (K (F := F)).TileObl (D (F := F)) 𝒱 (P m) v₀ 0) :
    θ_run (Cert.Kernel.defs (F := F)) (Cert.Kernel.threads (F := F)) ⟨m, fun _ => 0, ρ⟩
      (fun r => ∀ c : Dev nD, (∀ i : S1000000x32.Idx, (r.2.mem (rLoc c) : S1000000x32.Idx → Elt F .f32) i = (m (aLoc c) : S1000000x32.Idx → Elt F .f32) i)
        ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => (wmI (F := F) : sProp 𝕄)) (FIN m) (u₀ (F := F)) (sep_elim_left.trans (hu₀ m)) (hmain m ρ) (fq m) (hfin m) _ (fun _ h => h)

end Cert.Proof.KB

end
-- ==== Proof.lean ====
/-
  The certificate's claim, assembled from the three programs' runs.

  The kernel is handed the table transposed; it copies that array into a result array chunk by chunk, and the
  program transposes the copy back: the result is the table, element by element, and the table's own array is never
  written. The reference gathers every row of the table in order: its result is the table too, and it leaves its
  argument untouched as well. So each program runs and its argument ends as it began (the three frames); and at the
  ideal values, from memories that agree on the table, the two results are one array, the table (the algebraic
  claim's shared value). The ideal pass rewrote no operation of the kernel, so its claim is the trivial one. The
  precondition (the inputs finite) is used nowhere: every step moves elements and computes with none.
-/
import proofs.«206677_g74234214744565_cont_9to1_m_856_16_alg».proof.Defs
import proofs.«206677_g74234214744565_cont_9to1_m_856_16_alg».proof.Proof.Gen.Kernel
import proofs.«206677_g74234214744565_cont_9to1_m_856_16_alg».proof.Proof.Gen.Kernel.Skeleton
import proofs.«206677_g74234214744565_cont_9to1_m_856_16_alg».proof.Proof.Gen.KernelIdeal
import proofs.«206677_g74234214744565_cont_9to1_m_856_16_alg».proof.Proof.Gen.KernelIdeal.Skeleton
import proofs.«206677_g74234214744565_cont_9to1_m_856_16_alg».proof.Proof.Gen.ReferenceIdeal
import proofs.«206677_g74234214744565_cont_9to1_m_856_16_alg».proof.Proof.Gen.Pre_finite_inputs
import Idealize.ShloMosaic.Adequacy
import Idealize.ShloMosaic.Init
import proofs.«206677_g74234214744565_cont_9to1_m_856_16_alg».proof.Proof.RefSide
import proofs.«206677_g74234214744565_cont_9to1_m_856_16_alg».proof.Proof.KITile
import proofs.«206677_g74234214744565_cont_9to1_m_856_16_alg».proof.Proof.KITileObl
import proofs.«206677_g74234214744565_cont_9to1_m_856_16_alg».proof.Proof.KILaunchB
import proofs.«206677_g74234214744565_cont_9to1_m_856_16_alg».proof.Proof.KBTile
import proofs.«206677_g74234214744565_cont_9to1_m_856_16_alg».proof.Proof.KBTileObl
import proofs.«206677_g74234214744565_cont_9to1_m_856_16_alg».proof.Proof.KBLaunchB

noncomputable section

namespace Cert.Proof

open Idealize.ShloMosaic Idealize.SL.Sem

/-- The kernel as printed: it runs, and the table's array ends as it began (the copies write the result arrays only). -/
theorem frame_k : Cert.frame_Kernel := fun m ρ _ =>
  (θ_run Cert.Kernel.defs _ _).mono (fun _ h c => (h c).2)
    (Cert.Proof.KB.run_main (F := Bits) m ρ (Cert.Proof.KB.tileObl m (Cert.Proof.KB.tile_core m)))

/-- The same of the kernel read at the ideal values. -/
theorem frame_ki : Cert.frame_KernelIdeal := fun m ρ _ =>
  (θ_run Cert.KernelIdeal.defs _ _).mono (fun _ h c => (h c).2)
    (Cert.Proof.KI.run_main (F := Ideal) m ρ (Cert.Proof.KI.tileObl m (Cert.Proof.KI.tile_core m)))

/-- The reference runs, and no operation of it writes the table's array. -/
theorem frame_ri : Cert.frame_ReferenceIdeal := fun m ρ _ =>
  (θ_run Cert.ReferenceIdeal.defs _ _).mono (fun _ h c => (h c).2) (Cert.Proof.RefSide.run m ρ)

/-- The ideal pass rewrote no operation: nothing to preserve. -/
theorem preserves : Cert.preserves_Kernel_KernelIdeal := trivial

/-- At the ideal values, from memories that agree on the table, both results are the table: the kernel's result is
    the table element by element (the transposed copy transposed back), the reference's is its own argument element
    by element (every row gathered in order), and the two arguments are one array. -/
theorem algebraic : Cert.algebraic_KernelIdeal_ReferenceIdeal := by
  intro m ρ m' ρ' _ hagree
  refine ⟨fun c => (m ((c.tc : Thread Cert.KernelIdeal.nD Cert.KernelIdeal.τ).loc Cert.KernelIdeal.main_arg0) :
      Buf (Elt Ideal) ((c.tc : Thread Cert.KernelIdeal.nD Cert.KernelIdeal.τ).loc Cert.KernelIdeal.main_v2)), ?_, ?_⟩
  · exact (θ_run Cert.KernelIdeal.defs _ _).mono (fun _ h c => ⟨funext (h c).1, (h c).2⟩)
      (Cert.Proof.KI.run_main (F := Ideal) m ρ (Cert.Proof.KI.tileObl m (Cert.Proof.KI.tile_core m)))
  · exact (θ_run Cert.ReferenceIdeal.defs _ _).mono
      (fun _ h c => ⟨funext fun i => ((h c).1 i).trans (congrFun (hagree c) i), (h c).2⟩)
      (Cert.Proof.RefSide.run m' ρ')

/-- Everything the certificate claims, under the generated witnesses of the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
